-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x256x200 : Shape := ⟨3, ![256, 256, 200]⟩
abbrev S65536x1024 : Shape := ⟨2, ![65536, 1024]⟩
abbrev S1024x1024 : Shape := ⟨2, ![1024, 1024]⟩
abbrev S200 : Shape := ⟨1, ![200]⟩
abbrev S200x128 : Shape := ⟨2, ![200, 128]⟩
abbrev S128 : Shape := ⟨1, ![128]⟩
abbrev S128x128 : Shape := ⟨2, ![128, 128]⟩
abbrev S3x128 : Shape := ⟨2, ![3, 128]⟩
abbrev S3x128x128 : Shape := ⟨3, ![3, 128, 128]⟩
abbrev S_ : Shape := ⟨0, ![]⟩
abbrev S1024 : Shape := ⟨1, ![1024]⟩

class Facts : Prop where
  bcast_S_S256x256x200 : S_.BroadcastsInDim S256x256x200 (![] : Fin 0 → Fin S256x256x200.rank)
  reducesTo_S256x256x200_S_d0_1_2 : S256x256x200.ReducesTo [0, 1, 2] S_
  h_S_ : 0 < S_.numel
  bcast_S_S65536x1024 : S_.BroadcastsInDim S65536x1024 (![] : Fin 0 → Fin S65536x1024.rank)
  reducesTo_S65536x1024_S_d0_1 : S65536x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S200 : S_.BroadcastsInDim S200 (![] : Fin 0 → Fin S200.rank)
  reducesTo_S200_S_d0 : S200.ReducesTo [0] S_
  bcast_S_S200x128 : S_.BroadcastsInDim S200x128 (![] : Fin 0 → Fin S200x128.rank)
  reducesTo_S200x128_S_d0_1 : S200x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S3x128 : S_.BroadcastsInDim S3x128 (![] : Fin 0 → Fin S3x128.rank)
  reducesTo_S3x128_S_d0_1 : S3x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  reducesTo_S65536x1024_S1024_d0 : S65536x1024.ReducesTo [0] S1024
  bcast_S_S1024 : S_.BroadcastsInDim S1024 (![] : Fin 0 → Fin S1024.rank)
  reducesTo_S1024_S_d0 : S1024.ReducesTo [0] S_

variable [Facts]

def fn_part4 {F : FTy → Type} [FloatOps F] (main_arg1 : FVec F S65536x1024 .f32) (main_arg14 : FVec F S3x128 .f32) (main_v63 : IVec S_ 1) (main_v67 : IVec S_ 1) : IVec S_ 1 :=
  let main_v68 : IVec S_ 1 := andi main_v63 main_v67
  let main_v69 : FVec F S3x128 .f32 := Host.absf main_arg14
  let main_cst_26 : FVec F S_ .f32 := constant S_ .f32 0x7F800000#32
  let main_v70 : FVec F S3x128 .f32 := broadcastInDim S3x128 ![] bcast_S_S3x128 main_cst_26
  let main_v71 : IVec S3x128 1 := cmpf .olt main_v69 main_v70
  let main_c_27 : IVec S_ 1 := constantI S_ 1 1#1
  let main_v72 : IVec S_ 1 := (fun x v => Host.reduce IntOp.andi x v reducesTo_S3x128_S_d0_1 h_S_) main_v71 main_c_27
  let main_v73 : IVec S_ 1 := andi main_v68 main_v72
  let main_cst_28 : FVec F S_ .f32 := constant S_ .f32 0x00000000#32
  let main_v74 : FVec F S1024 .f32 := (fun x v => Host.reduceAdd x v reducesTo_S65536x1024_S1024_d0 h_S_) main_arg1 main_cst_28
  let main_cst_29 : FVec F S_ .f32 := constant S_ .f32 0x00000000#32
  let main_v75 : FVec F S1024 .f32 := broadcastInDim S1024 ![] bcast_S_S1024 main_cst_29
  let main_v76 : IVec S1024 1 := cmpf .une main_v74 main_v75
  let main_c_30 : IVec S_ 1 := constantI S_ 1 1#1
  let main_v77 : IVec S_ 1 := (fun x v => Host.reduce IntOp.andi x v reducesTo_S1024_S_d0 h_S_) main_v76 main_c_30
  let main_v78 : IVec S_ 1 := andi main_v73 main_v77
  main_v78

def fn_part3 {F : FTy → Type} [FloatOps F] (main_arg1 : FVec F S65536x1024 .f32) (main_arg11 : FVec F S3x128 .f32) (main_arg12 : FVec F S3x128 .f32) (main_arg13 : FVec F S3x128x128 .f32) (main_arg14 : FVec F S3x128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S3x128 .f32 := Host.absf main_arg11
  let main_cst_20 : FVec F S_ .f32 := constant S_ .f32 0x7F800000#32
  let main_v55 : FVec F S3x128 .f32 := broadcastInDim S3x128 ![] bcast_S_S3x128 main_cst_20
  let main_v56 : IVec S3x128 1 := cmpf .olt main_v54 main_v55
  let main_c_21 : IVec S_ 1 := constantI S_ 1 1#1
  let main_v57 : IVec S_ 1 := (fun x v => Host.reduce IntOp.andi x v reducesTo_S3x128_S_d0_1 h_S_) main_v56 main_c_21
  let main_v58 : IVec S_ 1 := andi main_v53 main_v57
  let main_v59 : FVec F S3x128 .f32 := Host.absf main_arg12
  let main_cst_22 : FVec F S_ .f32 := constant S_ .f32 0x7F800000#32
  let main_v60 : FVec F S3x128 .f32 := broadcastInDim S3x128 ![] bcast_S_S3x128 main_cst_22
  let main_v61 : IVec S3x128 1 := cmpf .olt main_v59 main_v60
  let main_c_23 : IVec S_ 1 := constantI S_ 1 1#1
  let main_v62 : IVec S_ 1 := (fun x v => Host.reduce IntOp.andi x v reducesTo_S3x128_S_d0_1 h_S_) main_v61 main_c_23
  let main_v63 : IVec S_ 1 := andi main_v58 main_v62
  let main_v64 : FVec F S3x128x128 .f32 := Host.absf main_arg13
  let main_cst_24 : FVec F S_ .f32 := constant S_ .f32 0x7F800000#32
  let main_v65 : FVec F S3x128x128 .f32 := broadcastInDim S3x128x128 ![] bcast_S_S3x128x128 main_cst_24
  let main_v66 : IVec S3x128x128 1 := cmpf .olt main_v64 main_v65
  let main_c_25 : IVec S_ 1 := constantI S_ 1 1#1
  let main_v67 : IVec S_ 1 := (fun x v => Host.reduce IntOp.andi x v reducesTo_S3x128x128_S_d0_1_2 h_S_) main_v66 main_c_25
  fn_part4 (F := F) main_arg1 main_arg14 main_v63 main_v67

def fn_part2 {F : FTy → Type} [FloatOps F] (main_arg1 : FVec F S65536x1024 .f32) (main_arg7 : FVec F S128 .f32) (main_arg8 : FVec F S128 .f32) (main_arg9 : FVec F S128x128 .f32) (main_arg10 : FVec F S128 .f32) (main_arg11 : FVec F S3x128 .f32) (main_arg12 : FVec F S3x128 .f32) (main_arg13 : FVec F S3x128x128 .f32) (main_arg14 : FVec F S3x128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg1 main_arg11 main_arg12 main_arg13 main_arg14 main_v48 main_v49 main_v50

def fn_part1 {F : FTy → Type} [FloatOps F] (main_arg1 : FVec F S65536x1024 .f32) (main_arg4 : FVec F S200 .f32) (main_arg5 : FVec F S200x128 .f32) (main_arg6 : FVec F S128 .f32) (main_arg7 : FVec F S128 .f32) (main_arg8 : FVec F S128 .f32) (main_arg9 : FVec F S128x128 .f32) (main_arg10 : FVec F S128 .f32) (main_arg11 : FVec F S3x128 .f32) (main_arg12 : FVec F S3x128 .f32) (main_arg13 : FVec F S3x128x128 .f32) (main_arg14 : FVec F S3x128 .f32) (main_v13 : IVec S_ 1) (main_v16 : IVec S200 1) : IVec S_ 1 :=
  let main_c_5 : IVec S_ 1 := constantI S_ 1 1#1
  let main_v17 : IVec S_ 1 := (fun x v => Host.reduce IntOp.andi x v reducesTo_S200_S_d0 h_S_) main_v16 main_c_5
  let main_v18 : IVec S_ 1 := andi main_v13 main_v17
  let main_v19 : FVec F S200 .f32 := Host.absf main_arg4
  let main_cst_6 : FVec F S_ .f32 := constant S_ .f32 0x7F800000#32
  let main_v20 : FVec F S200 .f32 := broadcastInDim S200 ![] bcast_S_S200 main_cst_6
  let main_v21 : IVec S200 1 := cmpf .olt main_v19 main_v20
  let main_c_7 : IVec S_ 1 := constantI S_ 1 1#1
  let main_v22 : IVec S_ 1 := (fun x v => Host.reduce IntOp.andi x v reducesTo_S200_S_d0 h_S_) main_v21 main_c_7
  let main_v23 : IVec S_ 1 := andi main_v18 main_v22
  let main_v24 : FVec F S200x128 .f32 := Host.absf main_arg5
  let main_cst_8 : FVec F S_ .f32 := constant S_ .f32 0x7F800000#32
  let main_v25 : FVec F S200x128 .f32 := broadcastInDim S200x128 ![] bcast_S_S200x128 main_cst_8
  let main_v26 : IVec S200x128 1 := cmpf .olt main_v24 main_v25
  let main_c_9 : IVec S_ 1 := constantI S_ 1 1#1
  let main_v27 : IVec S_ 1 := (fun x v => Host.reduce IntOp.andi x v reducesTo_S200x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg7 main_arg8 main_arg9 main_arg10 main_arg11 main_arg12 main_arg13 main_arg14 main_v33

def fn {F : FTy → Type} [FloatOps F] (main_arg0 : FVec F S256x256x200 .f32) (main_arg1 : FVec F S65536x1024 .f32) (main_arg2 : FVec F S1024x1024 .f32) (main_arg3 : FVec F S200 .f32) (main_arg4 : FVec F S200 .f32) (main_arg5 : FVec F S200x128 .f32) (main_arg6 : FVec F S128 .f32) (main_arg7 : FVec F S128 .f32) (main_arg8 : FVec F S128 .f32) (main_arg9 : FVec F S128x128 .f32) (main_arg10 : FVec F S128 .f32) (main_arg11 : FVec F S3x128 .f32) (main_arg12 : FVec F S3x128 .f32) (main_arg13 : FVec F S3x128x128 .f32) (main_arg14 : FVec F S3x128 .f32) : IVec S_ 1 :=
  let main_v0 : FVec F S256x256x200 .f32 := Host.absf main_arg0
  let main_cst : FVec F S_ .f32 := constant S_ .f32 0x7F800000#32
  let main_v1 : FVec F S256x256x200 .f32 := broadcastInDim S256x256x200 ![] bcast_S_S256x256x200 main_cst
  let main_v2 : IVec S256x256x200 1 := cmpf .olt main_v0 main_v1
  let main_c : IVec S_ 1 := constantI S_ 1 1#1
  let main_v3 : IVec S_ 1 := (fun x v => Host.reduce IntOp.andi x v reducesTo_S256x256x200_S_d0_1_2 h_S_) main_v2 main_c
  let main_v4 : FVec F S65536x1024 .f32 := Host.absf main_arg1
  let main_cst_0 : FVec F S_ .f32 := constant S_ .f32 0x7F800000#32
  let main_v5 : FVec F S65536x1024 .f32 := broadcastInDim S65536x1024 ![] bcast_S_S65536x1024 main_cst_0
  let main_v6 : IVec S65536x1024 1 := cmpf .olt main_v4 main_v5
  let main_c_1 : IVec S_ 1 := constantI S_ 1 1#1
  let main_v7 : IVec S_ 1 := (fun x v => Host.reduce IntOp.andi x v reducesTo_S65536x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S200 .f32 := Host.absf main_arg3
  let main_cst_4 : FVec F S_ .f32 := constant S_ .f32 0x7F800000#32
  let main_v15 : FVec F S200 .f32 := broadcastInDim S200 ![] bcast_S_S200 main_cst_4
  let main_v16 : IVec S200 1 := cmpf .olt main_v14 main_v15
  fn_part1 (F := F) main_arg1 main_arg4 main_arg5 main_arg6 main_arg7 main_arg8 main_arg9 main_arg10 main_arg11 main_arg12 main_arg13 main_arg14 main_v13 main_v16
-- ==== Kernel.lean ====
abbrev S256x256x200 : Shape := ⟨3, ![256, 256, 200]⟩
abbrev S65536x1024 : Shape := ⟨2, ![65536, 1024]⟩
abbrev S1024x1024 : Shape := ⟨2, ![1024, 1024]⟩
abbrev S200 : Shape := ⟨1, ![200]⟩
abbrev S200x128 : Shape := ⟨2, ![200, 128]⟩
abbrev S128 : Shape := ⟨1, ![128]⟩
abbrev S128x128 : Shape := ⟨2, ![128, 128]⟩
abbrev S3x128 : Shape := ⟨2, ![3, 128]⟩
abbrev S3x128x128 : Shape := ⟨3, ![3, 128, 128]⟩
abbrev S65536x200 : Shape := ⟨2, ![65536, 200]⟩
abbrev S1x200 : Shape := ⟨2, ![1, 200]⟩
abbrev S1x128 : Shape := ⟨2, ![1, 128]⟩
abbrev S2x1x1024 : Shape := ⟨3, ![2, 1, 1024]⟩
abbrev S2x1024x128 : Shape := ⟨3, ![2, 1024, 128]⟩
abbrev S2048x200 : Shape := ⟨2, ![2048, 200]⟩
abbrev S2048x1024 : Shape := ⟨2, ![2048, 1024]⟩
abbrev S1x1x1024 : Shape := ⟨3, ![1, 1, 1024]⟩
abbrev S1x1024x128 : Shape := ⟨3, ![1, 1024, 128]⟩
abbrev S2048x128 : Shape := ⟨2, ![2048, 128]⟩
abbrev S1024 : Shape := ⟨1, ![1024]⟩
abbrev S1x1024 : Shape := ⟨2, ![1, 1024]⟩
abbrev S1024x128 : Shape := ⟨2, ![1024, 128]⟩
abbrev S_ : Shape := ⟨0, ![]⟩
abbrev S1024x1 : Shape := ⟨2, ![1024, 1]⟩
abbrev S1x128x128 : Shape := ⟨3, ![1, 128, 128]⟩
abbrev S65536x128 : Shape := ⟨2, ![65536, 128]⟩

abbrev nBuf : Space → Nat
  | .hbm => 52
  | .vmem => 28
  | .smem => 0
  | _ => 0

abbrev bufTy : (tb : Table) → Fin (tcTables nBuf tb) → BufTy
  | .hbm, ⟨0, _⟩ => ⟨S256x256x200, .f32⟩
  | .hbm, ⟨1, _⟩ => ⟨S65536x1024, .f32⟩
  | .hbm, ⟨2, _⟩ => ⟨S1024x1024, .f32⟩
  | .hbm, ⟨3, _⟩ => ⟨S200, .f32⟩
  | .hbm, ⟨4, _⟩ => ⟨S200, .f32⟩
  | .hbm, ⟨5, _⟩ => ⟨S200x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S3x128, .f32⟩
  | .hbm, ⟨12, _⟩ => ⟨S3x128, .f32⟩
  | .hbm, ⟨13, _⟩ => ⟨S3x128x128, .f32⟩
  | .hbm, ⟨14, _⟩ => ⟨S3x128, .f32⟩
  | .hbm, ⟨15, _⟩ => ⟨S65536x200, .f32⟩
  | .hbm, ⟨16, _⟩ => ⟨S1x200, .f32⟩
  | .hbm, ⟨17, _⟩ => ⟨S1x200, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S2x1x1024, .f32⟩
  | .hbm, ⟨23, _⟩ => ⟨S2x1024x128, .f32⟩
  | .hbm, ⟨24, _⟩ => ⟨S_, .f32⟩
  | .hbm, ⟨25, _⟩ => ⟨S1x1024, .f32⟩
  | .hbm, ⟨26, _⟩ => ⟨S_, .f32⟩
  | .hbm, ⟨27, _⟩ => ⟨S1024x128, .f32⟩
  | .hbm, ⟨28, _⟩ => ⟨S1024x1, .f32⟩
  | .hbm, ⟨29, _⟩ => ⟨S1024x128, .f32⟩
  | .hbm, ⟨30, _⟩ => ⟨S1024x128, .f32⟩
  | .hbm, ⟨31, _⟩ => ⟨S1024x1024, .i32⟩
  | .hbm, ⟨32, _⟩ => ⟨S1024x1024, .i32⟩
  | .hbm, ⟨33, _⟩ => ⟨S_, .i32⟩
  | .hbm, ⟨34, _⟩ => ⟨S1024x1024, .i32⟩
  | .hbm, ⟨35, _⟩ => ⟨S1024x1024, .i32⟩
  | .hbm, ⟨36, _⟩ => ⟨S1024x1024, .i1⟩
  | .hbm, ⟨37, _⟩ => ⟨S1024x1024, .f32⟩
  | .hbm, ⟨38, _⟩ => ⟨S1024x1024, .f32⟩
  | .hbm, ⟨39, _⟩ => ⟨S_, .f32⟩
  | .hbm, ⟨40, _⟩ => ⟨S1024, .f32⟩
  | .hbm, ⟨41, _⟩ => ⟨S_, .f32⟩
  | .hbm, ⟨42, _⟩ => ⟨S1024, .f32⟩
  | .hbm, ⟨43, _⟩ => ⟨S1024, .f32⟩
  | .hbm, ⟨44, _⟩ => ⟨S1024x1, .f32⟩
  | .hbm, ⟨45, _⟩ => ⟨S1024x1024, .f32⟩
  | .hbm, ⟨46, _⟩ => ⟨S1024x1024, .f32⟩
  | .hbm, ⟨47, _⟩ => ⟨S1x1024, .f32⟩
  | .hbm, ⟨48, _⟩ => ⟨S1024x1024, .f32⟩
  | .hbm, ⟨49, _⟩ => ⟨S1024x1024, .f32⟩
  | .hbm, ⟨50, _⟩ => ⟨S1024x128, .f32⟩
  | .hbm, ⟨51, _⟩ => ⟨S65536x128, .f32⟩
  | .local _ .vmem, ⟨0, _⟩ => ⟨S2048x200, .f32⟩
  | .local _ .vmem, ⟨1, _⟩ => ⟨S2048x200, .f32⟩
  | .local _ .vmem, ⟨2, _⟩ => ⟨S1x200, .f32⟩
  | .local _ .vmem, ⟨3, _⟩ => ⟨S1x200, .f32⟩
  | .local _ .vmem, ⟨4, _⟩ => ⟨S200x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S2048x1024, .f32⟩
  | .local _ .vmem, ⟨11, _⟩ => ⟨S2048x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024x128, .f32⟩
  | .local _ .vmem, ⟨15, _⟩ => ⟨S1x1024x128, .f32⟩
  | .local _ .vmem, ⟨16, _⟩ => ⟨S1024x128, .f32⟩
  | .local _ .vmem, ⟨17, _⟩ => ⟨S1024x1024, .f32⟩
  | .local _ .vmem, ⟨18, _⟩ => ⟨S3x128, .f32⟩
  | .local _ .vmem, ⟨19, _⟩ => ⟨S3x128, .f32⟩
  | .local _ .vmem, ⟨20, _⟩ => ⟨S3x128x128, .f32⟩
  | .local _ .vmem, ⟨21, _⟩ => ⟨S3x128, .f32⟩
  | .local _ .vmem, ⟨22, _⟩ => ⟨S1024x128, .f32⟩
  | .local _ .vmem, ⟨23, _⟩ => ⟨S2048x1024, .f32⟩
  | .local _ .vmem, ⟨24, _⟩ => ⟨S2048x1024, .f32⟩
  | .local _ .vmem, ⟨25, _⟩ => ⟨S1024x128, .f32⟩
  | .local _ .vmem, ⟨26, _⟩ => ⟨S2048x128, .f32⟩
  | .local _ .vmem, ⟨27, _⟩ => ⟨S2048x128, .f32⟩
  | _, _ => ⟨S256x256x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7_0 : Ref sig .tc := ⟨.hbm, 22, rfl⟩
abbrev main_v7_1 : Ref sig .tc := ⟨.hbm, 23, rfl⟩
abbrev main_cst : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_1 : Ref sig .tc := ⟨.hbm, 39, rfl⟩
abbrev main_v20 : Ref sig .tc := ⟨.hbm, 40, rfl⟩
abbrev main_cst_2 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg2_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc1_sem0_0 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc2_sem0_0 : DmaSem sig := 23
abbrev cc2_sem0_1 : DmaSem sig := 24
abbrev cc2_sem1_0 : DmaSem sig := 25
abbrev cc2_sem2_0 : DmaSem sig := 26
abbrev cc2_sem2_1 : DmaSem sig := 27

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x200 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x200 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S200x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S2048x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S3x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S3x128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S3x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2048x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S256x256x200_S65536x200 : S256x256x200.ShapeCasts S65536x200
  shapeCasts_S200_S1x200 : S200.ShapeCasts S1x200
  shapeCasts_S128_S1x128 : S128.ShapeCasts S1x128
  inb_S1x1x1024_S1x1x1024_0_0_0 : ∀ a, (![0, 0, 0] : Fin 3 → Nat) a + S1x1x1024.size a ≤ S1x1x1024.size a
  h_S1x1x1024 : 0 < S1x1x1024.numel
  inb_S1x1024x128_S1x1024x128_0_0_0 : ∀ a, (![0, 0, 0] : Fin 3 → Nat) a + S1x1024x128.size a ≤ S1x1024x128.size a
  h_S1x1024x128 : 0 < S1x1024x128.numel
  inb_S2048x200_S2048x200_0_0 : ∀ a, (![0, 0] : Fin 2 → Nat) a + S2048x200.size a ≤ S2048x200.size a
  h_S2048x200 : 0 < S2048x200.numel
  shapeCasts_S2048x200_S2048x200 : S2048x200.ShapeCasts S2048x200
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S2048x200 : S1x200.Broadcasts S2048x200
  inb_S200x128_S200x128_0_0 : ∀ a, (![0, 0] : Fin 2 → Nat) a + S200x128.size a ≤ S200x128.size a
  h_S200x128 : 0 < S200x128.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x128_S128x128_0_0 : ∀ a, (![0, 0] : Fin 2 → Nat) a + S128x128.size a ≤ S128x128.size a
  h_S128x128 : 0 < S128x128.numel
  inb_S2048x1024_S2048x1024_0_0 : ∀ a, (![0, 0] : Fin 2 → Nat) a + S2048x1024.size a ≤ S2048x1024.size a
  h_S2048x1024 : 0 < S2048x1024.numel
  shapeCasts_S1x1x1024_S1x1x1024 : S1x1x1024.ShapeCasts S1x1x1024
  reduces_S2048x1024_S1024 : S2048x1024.Reduces [0] S1024
  shapeCasts_S1024_S1x1024 : S1024.ShapeCasts S1x1024
  shapeCasts_S1x1024_S1x1x1024 : S1x1024.ShapeCasts S1x1x1024
  shapeCasts_S1x1024x128_S1x1024x128 : S1x1024x128.ShapeCasts S1x1024x128
  shapeCasts_S1024x128_S1x1024x128 : S1024x128.ShapeCasts S1x1024x128
  reducesTo_S2x1x1024_S1x1024_d0 : S2x1x1024.ReducesTo [0] S1x1024
  h_S_ : 0 < S_.numel
  reducesTo_S2x1024x128_S1024x128_d0 : S2x1024x128.ReducesTo [0] S1024x128
  transposes_S1x1024_S1024x1_1_0 : S1x1024.Transposes [1, 0] S1024x1
  bcast_S1024x1_S1024x128_0_1 : S1024x1.BroadcastsInDim S1024x128 (![0, 1] : Fin 2 → Fin S1024x128.rank)
  bcast_S_S1024x1024 : S_.BroadcastsInDim S1024x1024 (![] : Fin 0 → Fin S1024x1024.rank)
  reducesTo_S1024x1024_S1024_d1 : S1024x1024.ReducesTo [1] S1024
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S3x128_S3x128_0_0 : ∀ a, (![0, 0] : Fin 2 → Nat) a + S3x128.size a ≤ S3x128.size a
  h_S3x128 : 0 < S3x128.numel
  inb_S3x128x128_S3x128x128_0_0_0 : ∀ a, (![0, 0, 0] : Fin 3 → Nat) a + S3x128x128.size a ≤ S3x128x128.size a
  h_S3x128x128 : 0 < S3x128x128.numel
  slices_S3x128_o0_0_S1x128 : S3x128.Slices ![0, 0] S1x128
  shapeCasts_S1x128_S128 : S1x128.ShapeCasts S128
  broadcasts_S1x128_S1024x128 : S1x128.Broadcasts S1024x128
  slices_S3x128x128_o0_0_0_S1x128x128 : S3x128x128.Slices ![0, 0, 0] S1x128x128
  shapeCasts_S1x128x128_S128x128 : S1x128x128.ShapeCasts S128x128
  slices_S3x128_o1_0_S1x128 : S3x128.Slices ![1, 0] S1x128
  slices_S3x128x128_o1_0_0_S1x128x128 : S3x128x128.Slices ![1, 0, 0] S1x128x128
  slices_S3x128_o2_0_S1x128 : S3x128.Slices ![2, 0] S1x128
  slices_S3x128x128_o2_0_0_S1x128x128 : S3x128x128.Slices ![2, 0, 0] S1x128x128
  inb_S2048x128_S2048x128_0_0 : ∀ a, (![0, 0] : Fin 2 → Nat) a + S2048x128.size a ≤ S2048x128.size a
  h_S2048x128 : 0 < S2048x128.numel
  dot_S2048x200_S200x128_S2048x128_1_0_0_1_n_n_wf : DotDims.WF S2048x200 S200x128 S2048x128 [1] [0] [0] [1] [] []
  dot_S2048x128_S128x128_S2048x128_1_0_0_1_n_n_wf : DotDims.WF S2048x128 S128x128 S2048x128 [1] [0] [0] [1] [] []
  dot_S2048x1024_S2048x128_S1024x128_0_0_1_1_n_n_wf : DotDims.WF S2048x1024 S2048x128 S1024x128 [0] [0] [1] [1] [] []
  dot_S1024x1024_S1024x128_S1024x128_1_0_0_1_n_n_wf : DotDims.WF S1024x1024 S1024x128 S1024x128 [1] [0] [0] [1] [] []
  dot_S1024x128_S128x128_S1024x128_1_0_0_1_n_n_wf : DotDims.WF S1024x128 S128x128 S1024x128 [1] [0] [0] [1] [] []
  dot_S2048x1024_S1024x128_S2048x128_1_0_0_1_n_n_wf : DotDims.WF S2048x1024 S1024x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x200.size a ≤ S65536x200.size a
  hwx0_0 : ∀ i : grid0.Coords, EltTy.bits .f32 = 32 ∨ (Rect.block (s := S65536x200) S2048x200.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x200.size a ≤ S1x200.size a
  hwx0_1 : ∀ i : grid0.Coords, EltTy.bits .f32 = 32 ∨ (Rect.block (s := S1x200) S1x200.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x200.size a ≤ S1x200.size a
  hwx0_2 : ∀ i : grid0.Coords, EltTy.bits .f32 = 32 ∨ (Rect.block (s := S1x200) S1x200.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S200x128.size a ≤ S200x128.size a
  hwx0_3 : ∀ i : grid0.Coords, EltTy.bits .f32 = 32 ∨ (Rect.block (s := S200x128) S200x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x1024.size a ≤ S65536x1024.size a
  hwx0_9 : ∀ i : grid0.Coords, EltTy.bits .f32 = 32 ∨ (Rect.block (s := S65536x1024) S2048x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x1024.size a ≤ S2x1x1024.size a
  hwx0_10 : ∀ i : grid0.Coords, EltTy.bits .f32 = 32 ∨ (Rect.block (s := S2x1x1024) S1x1x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1024x128.size a ≤ S2x1024x128.size a
  hwx0_11 : ∀ i : grid0.Coords, EltTy.bits .f32 = 32 ∨ (Rect.block (s := S2x1024x128) S1x1024x128.size (cc0_transform_11 i) (hinb0_11 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S1024x128.size a
  hwx1_0 : ∀ i : grid1.Coords, EltTy.bits .f32 = 32 ∨ (Rect.block (s := S1024x128) S1024x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3x128.size a ≤ S3x128.size a
  hwx1_2 : ∀ i : grid1.Coords, EltTy.bits .f32 = 32 ∨ (Rect.block (s := S3x128) S3x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x128.size a ≤ S3x128.size a
  hwx1_3 : ∀ i : grid1.Coords, EltTy.bits .f32 = 32 ∨ (Rect.block (s := S3x128) S3x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S3x128x128.size a ≤ S3x128x128.size a
  hwx1_4 : ∀ i : grid1.Coords, EltTy.bits .f32 = 32 ∨ (Rect.block (s := S3x128x128) S3x128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S3x128.size a ≤ S3x128.size a
  hwx1_5 : ∀ i : grid1.Coords, EltTy.bits .f32 = 32 ∨ (Rect.block (s := S3x128) S3x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1024x128.size a ≤ S1024x128.size a
  hwx1_6 : ∀ i : grid1.Coords, EltTy.bits .f32 = 32 ∨ (Rect.block (s := S1024x128) S1024x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S65536x1024.size a
  hwx2_0 : ∀ i : grid2.Coords, EltTy.bits .f32 = 32 ∨ (Rect.block (s := S65536x1024) S2048x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S1024x128.size a
  hwx2_1 : ∀ i : grid2.Coords, EltTy.bits .f32 = 32 ∨ (Rect.block (s := S1024x128) S1024x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x128.size a ≤ S65536x128.size a
  hwx2_2 : ∀ i : grid2.Coords, EltTy.bits .f32 = 32 ∨ (Rect.block (s := S65536x128) S2048x128.size (cc2_transform_2 i) (hinb2_2 i)).WholeWords (EltTy.packing .f32)

variable [Facts₀]

def dot_S2048x200_S200x128_S2048x128_1_0_0_1_n_n : DotDims S2048x200 S200x128 S2048x128 where
  lhsContracting := [1]
  rhsContracting := [0]
  lhsNonContracting := [0]
  rhsNonContracting := [1]
  lhsBatch := []
  rhsBatch := []
  wf := dot_S2048x200_S200x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x1024_S2048x128_S1024x128_0_0_1_1_n_n : DotDims S2048x1024 S2048x128 S1024x128 where
  lhsContracting := [0]
  rhsContracting := [0]
  lhsNonContracting := [1]
  rhsNonContracting := [1]
  lhsBatch := []
  rhsBatch := []
  wf := dot_S2048x1024_S2048x128_S1024x128_0_0_1_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf

abbrev win0_0 : Pipeline.Window sig grid0 :=
  Pipeline.Window.ofSpec (Memref.whole main_v0) S2048x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x200.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x200.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S200x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg1) S2048x1024.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v7_0) S1x1x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v7_1) S1x1024x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v12) S1024x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S3x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S3x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S3x128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S3x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S1024x128.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg1) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S1024x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S2048x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S256x256x200 : Shape := ⟨3, ![256, 256, 200]⟩
abbrev S65536x1024 : Shape := ⟨2, ![65536, 1024]⟩
abbrev S1024x1024 : Shape := ⟨2, ![1024, 1024]⟩
abbrev S200 : Shape := ⟨1, ![200]⟩
abbrev S200x128 : Shape := ⟨2, ![200, 128]⟩
abbrev S128 : Shape := ⟨1, ![128]⟩
abbrev S128x128 : Shape := ⟨2, ![128, 128]⟩
abbrev S3x128 : Shape := ⟨2, ![3, 128]⟩
abbrev S3x128x128 : Shape := ⟨3, ![3, 128, 128]⟩
abbrev S1x1x200 : Shape := ⟨3, ![1, 1, 200]⟩
abbrev S256x256x128 : Shape := ⟨3, ![256, 256, 128]⟩
abbrev S1x1x128 : Shape := ⟨3, ![1, 1, 128]⟩
abbrev S_ : Shape := ⟨0, ![]⟩
abbrev S65536x128 : Shape := ⟨2, ![65536, 128]⟩
abbrev S1024 : Shape := ⟨1, ![1024]⟩
abbrev S1x1024 : Shape := ⟨2, ![1, 1024]⟩
abbrev S1024x65536 : Shape := ⟨2, ![1024, 65536]⟩
abbrev S1024x128 : Shape := ⟨2, ![1024, 128]⟩
abbrev S1024x1 : Shape := ⟨2, ![1024, 1]⟩
abbrev S1x128 : Shape := ⟨2, ![1, 128]⟩
abbrev S1x128x128 : Shape := ⟨3, ![1, 128, 128]⟩

abbrev nBuf : Space → Nat
  | .hbm => 155
  | .vmem => 0
  | .smem => 0
  | _ => 0

abbrev hbmTy0_0 (i : Nat) : BufTy := match i % 128 with
  | 0 => ⟨S256x256x200, .f32⟩
  | 1 => ⟨S65536x1024, .f32⟩
  | 2 => ⟨S1024x1024, .f32⟩
  | 3 => ⟨S200, .f32⟩
  | 4 => ⟨S200, .f32⟩
  | 5 => ⟨S200x128, .f32⟩
  | 6 => ⟨S128, .f32⟩
  | 7 => ⟨S128, .f32⟩
  | 8 => ⟨S128, .f32⟩
  | 9 => ⟨S128x128, .f32⟩
  | 10 => ⟨S128, .f32⟩
  | 11 => ⟨S3x128, .f32⟩
  | 12 => ⟨S3x128, .f32⟩
  | 13 => ⟨S3x128x128, .f32⟩
  | 14 => ⟨S3x128, .f32⟩
  | 15 => ⟨S1x1x200, .f32⟩
  | 16 => ⟨S256x256x200, .f32⟩
  | 17 => ⟨S256x256x200, .f32⟩
  | 18 => ⟨S1x1x200, .f32⟩
  | 19 => ⟨S256x256x200, .f32⟩
  | 20 => ⟨S256x256x200, .f32⟩
  | 21 => ⟨S256x256x128, .f32⟩
  | 22 => ⟨S1x1x128, .f32⟩
  | 23 => ⟨S256x256x128, .f32⟩
  | 24 => ⟨S256x256x128, .f32⟩
  | 25 => ⟨S_, .f32⟩
  | 26 => ⟨S256x256x128, .f32⟩
  | 27 => ⟨S256x256x128, .i1⟩
  | 28 => ⟨S_, .f32⟩
  | 29 => ⟨S256x256x128, .f32⟩
  | 30 => ⟨S256x256x128, .f32⟩
  | 31 => ⟨S256x256x128, .f32⟩
  | 32 => ⟨S1x1x128, .f32⟩
  | 33 => ⟨S256x256x128, .f32⟩
  | 34 => ⟨S256x256x128, .f32⟩
  | 35 => ⟨S1x1x128, .f32⟩
  | 36 => ⟨S256x256x128, .f32⟩
  | 37 => ⟨S256x256x128, .f32⟩
  | 38 => ⟨S256x256x128, .f32⟩
  | 39 => ⟨S1x1x128, .f32⟩
  | 40 => ⟨S256x256x128, .f32⟩
  | 41 => ⟨S256x256x128, .f32⟩
  | 42 => ⟨S_, .f32⟩
  | 43 => ⟨S256x256x128, .f32⟩
  | 44 => ⟨S256x256x128, .i1⟩
  | 45 => ⟨S_, .f32⟩
  | 46 => ⟨S256x256x128, .f32⟩
  | 47 => ⟨S256x256x128, .f32⟩
  | 48 => ⟨S256x256x128, .f32⟩
  | 49 => ⟨S65536x128, .f32⟩
  | 50 => ⟨S_, .f32⟩
  | 51 => ⟨S1024, .f32⟩
  | 52 => ⟨S1x1024, .f32⟩
  | 53 => ⟨S65536x1024, .f32⟩
  | 54 => ⟨S65536x1024, .f32⟩
  | 55 => ⟨S1024x65536, .f32⟩
  | 56 => ⟨S1024x128, .f32⟩
  | 57 => ⟨S1024x1024, .i32⟩
  | 58 => ⟨S1024x1024, .i32⟩
  | 59 => ⟨S_, .i32⟩
  | 60 => ⟨S1024x1024, .i32⟩
  | 61 => ⟨S1024x1024, .i32⟩
  | 62 => ⟨S1024x1024, .i1⟩
  | 63 => ⟨S1024x1024, .f32⟩
  | 64 => ⟨S1024x1024, .f32⟩
  | 65 => ⟨S_, .f32⟩
  | 66 => ⟨S1024, .f32⟩
  | 67 => ⟨S_, .f32⟩
  | 68 => ⟨S1024, .f32⟩
  | 69 => ⟨S1024, .f32⟩
  | 70 => ⟨S1024x1, .f32⟩
  | 71 => ⟨S1024x1024, .f32⟩
  | 72 => ⟨S1024x1024, .f32⟩
  | 73 => ⟨S1x1024, .f32⟩
  | 74 => ⟨S1024x1024, .f32⟩
  | 75 => ⟨S1024x1024, .f32⟩
  | 76 => ⟨S1x128, .f32⟩
  | 77 => ⟨S128, .f32⟩
  | 78 => ⟨S1x128, .f32⟩
  | 79 => ⟨S1024x128, .f32⟩
  | 80 => ⟨S1024x128, .f32⟩
  | 81 => ⟨S1x128, .f32⟩
  | 82 => ⟨S128, .f32⟩
  | 83 => ⟨S1x128, .f32⟩
  | 84 => ⟨S1024x128, .f32⟩
  | 85 => ⟨S1024x128, .f32⟩
  | 86 => ⟨S1024x128, .f32⟩
  | 87 => ⟨S1x128x128, .f32⟩
  | 88 => ⟨S128x128, .f32⟩
  | 89 => ⟨S1024x128, .f32⟩
  | 90 => ⟨S1x128, .f32⟩
  | 91 => ⟨S128, .f32⟩
  | 92 => ⟨S1x128, .f32⟩
  | 93 => ⟨S1024x128, .f32⟩
  | 94 => ⟨S1024x128, .f32⟩
  | 95 => ⟨S_, .f32⟩
  | 96 => ⟨S1024x128, .f32⟩
  | 97 => ⟨S1024x128, .i1⟩
  | 98 => ⟨S_, .f32⟩
  | 99 => ⟨S1024x128, .f32⟩
  | 100 => ⟨S1024x128, .f32⟩
  | 101 => ⟨S1024x128, .f32⟩
  | 102 => ⟨S1x128, .f32⟩
  | 103 => ⟨S128, .f32⟩
  | 104 => ⟨S1x128, .f32⟩
  | 105 => ⟨S1024x128, .f32⟩
  | 106 => ⟨S1024x128, .f32⟩
  | 107 => ⟨S1x128, .f32⟩
  | 108 => ⟨S128, .f32⟩
  | 109 => ⟨S1x128, .f32⟩
  | 110 => ⟨S1024x128, .f32⟩
  | 111 => ⟨S1024x128, .f32⟩
  | 112 => ⟨S1024x128, .f32⟩
  | 113 => ⟨S1x128x128, .f32⟩
  | 114 => ⟨S128x128, .f32⟩
  | 115 => ⟨S1024x128, .f32⟩
  | 116 => ⟨S1x128, .f32⟩
  | 117 => ⟨S128, .f32⟩
  | 118 => ⟨S1x128, .f32⟩
  | 119 => ⟨S1024x128, .f32⟩
  | 120 => ⟨S1024x128, .f32⟩
  | 121 => ⟨S_, .f32⟩
  | 122 => ⟨S1024x128, .f32⟩
  | 123 => ⟨S1024x128, .i1⟩
  | 124 => ⟨S_, .f32⟩
  | 125 => ⟨S1024x128, .f32⟩
  | 126 => ⟨S1024x128, .f32⟩
  | 127 => ⟨S1024x128, .f32⟩
  | _ => ⟨S256x256x200, .f32⟩

abbrev hbmTy0_1 (i : Nat) : BufTy := match i % 128 with
  | 0 => ⟨S1x128, .f32⟩
  | 1 => ⟨S128, .f32⟩
  | 2 => ⟨S1x128, .f32⟩
  | 3 => ⟨S1024x128, .f32⟩
  | 4 => ⟨S1024x128, .f32⟩
  | 5 => ⟨S1x128, .f32⟩
  | 6 => ⟨S128, .f32⟩
  | 7 => ⟨S1x128, .f32⟩
  | 8 => ⟨S1024x128, .f32⟩
  | 9 => ⟨S1024x128, .f32⟩
  | 10 => ⟨S1024x128, .f32⟩
  | 11 => ⟨S1x128x128, .f32⟩
  | 12 => ⟨S128x128, .f32⟩
  | 13 => ⟨S1024x128, .f32⟩
  | 14 => ⟨S1x128, .f32⟩
  | 15 => ⟨S128, .f32⟩
  | 16 => ⟨S1x128, .f32⟩
  | 17 => ⟨S1024x128, .f32⟩
  | 18 => ⟨S1024x128, .f32⟩
  | 19 => ⟨S_, .f32⟩
  | 20 => ⟨S1024x128, .f32⟩
  | 21 => ⟨S1024x128, .i1⟩
  | 22 => ⟨S_, .f32⟩
  | 23 => ⟨S1024x128, .f32⟩
  | 24 => ⟨S1024x128, .f32⟩
  | 25 => ⟨S1024x128, .f32⟩
  | 26 => ⟨S65536x128, .f32⟩
  | _ => ⟨S256x256x200, .f32⟩

abbrev hbmTy (i : Nat) : BufTy := match i / 128 with
  | 0 => hbmTy0_0 i
  | 1 => hbmTy0_1 i
  | _ => ⟨S256x256x200, .f32⟩

abbrev bufTy : (tb : Table) → Fin (tcTables nBuf tb) → BufTy
  | .hbm, ⟨i, _⟩ => hbmTy i
  | _, _ => ⟨S256x256x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_1 : Ref sig .tc := ⟨.hbm, 42, rfl⟩
abbrev main_v25 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_4 : Ref sig .tc := ⟨.hbm, 65, rfl⟩
abbrev main_v44 : Ref sig .tc := ⟨.hbm, 66, rfl⟩
abbrev main_cst_5 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_6 : Ref sig .tc := ⟨.hbm, 95, rfl⟩
abbrev main_v72 : Ref sig .tc := ⟨.hbm, 96, rfl⟩
abbrev main_v73 : Ref sig .tc := ⟨.hbm, 97, rfl⟩
abbrev main_cst_7 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_cst_8 : Ref sig .tc := ⟨.hbm, 121, rfl⟩
abbrev main_v96 : Ref sig .tc := ⟨.hbm, 122, rfl⟩
abbrev main_v97 : Ref sig .tc := ⟨.hbm, 123, rfl⟩
abbrev main_cst_9 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_cst_10 : Ref sig .tc := ⟨.hbm, 147, rfl⟩
abbrev main_v120 : Ref sig .tc := ⟨.hbm, 148, rfl⟩
abbrev main_v121 : Ref sig .tc := ⟨.hbm, 149, rfl⟩
abbrev main_cst_11 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩

abbrev nD : Nat := 1
abbrev τ : Topo := Topo.v7x

variable {F : FTy → Type} [FloatOps F]

class Facts₀ : Prop where
  bcast_S200_S1x1x200_2 : S200.BroadcastsInDim S1x1x200 (![2] : Fin 1 → Fin S1x1x200.rank)
  bcast_S1x1x200_S256x256x200_0_1_2 : S1x1x200.BroadcastsInDim S256x256x200 (![0, 1, 2] : Fin 3 → Fin S256x256x200.rank)
  bcast_S128_S1x1x128_2 : S128.BroadcastsInDim S1x1x128 (![2] : Fin 1 → Fin S1x1x128.rank)
  bcast_S1x1x128_S256x256x128_0_1_2 : S1x1x128.BroadcastsInDim S256x256x128 (![0, 1, 2] : Fin 3 → Fin S256x256x128.rank)
  bcast_S_S256x256x128 : S_.BroadcastsInDim S256x256x128 (![] : Fin 0 → Fin S256x256x128.rank)
  shapeCasts_S256x256x128_S65536x128 : S256x256x128.ShapeCasts S65536x128
  reducesTo_S65536x1024_S1024_d0 : S65536x1024.ReducesTo [0] S1024
  h_S_ : 0 < S_.numel
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  transposes_S65536x1024_S1024x65536_1_0 : S65536x1024.Transposes [1, 0] S1024x65536
  bcast_S_S1024x1024 : S_.BroadcastsInDim S1024x1024 (![] : Fin 0 → Fin S1024x1024.rank)
  reducesTo_S1024x1024_S1024_d1 : S1024x1024.ReducesTo [1] S1024
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  slices_S3x128x128_S1x128x128_0_0_0 : S3x128x128.Slices ![0, 0, 0] S1x128x128
  shapeCasts_S1x128x128_S128x128 : S1x128x128.ShapeCasts S128x128
  bcast_S_S1024x128 : S_.BroadcastsInDim S1024x128 (![] : Fin 0 → Fin S1024x128.rank)
  slices_S3x128_S1x128_1_0 : S3x128.Slices ![1, 0] S1x128
  slices_S3x128x128_S1x128x128_1_0_0 : S3x128x128.Slices ![1, 0, 0] S1x128x128
  slices_S3x128_S1x128_2_0 : S3x128.Slices ![2, 0] S1x128
  slices_S3x128x128_S1x128x128_2_0_0 : S3x128x128.Slices ![2, 0, 0] S1x128x128
  dot_S256x256x200_S200x128_S256x256x128_2_0_01_1_n_n_wf : DotDims.WF S256x256x200 S200x128 S256x256x128 [2] [0] [0, 1] [1] [] []
  dot_S256x256x128_S128x128_S256x256x128_2_0_01_1_n_n_wf : DotDims.WF S256x256x128 S128x128 S256x256x128 [2] [0] [0, 1] [1] [] []
  dot_S1024x65536_S65536x128_S1024x128_1_0_0_1_n_n_wf : DotDims.WF S1024x65536 S65536x128 S1024x128 [1] [0] [0] [1] [] []
  dot_S1024x1024_S1024x128_S1024x128_1_0_0_1_n_n_wf : DotDims.WF S1024x1024 S1024x128 S1024x128 [1] [0] [0] [1] [] []
  dot_S1024x128_S128x128_S1024x128_1_0_0_1_n_n_wf : DotDims.WF S1024x128 S128x128 S1024x128 [1] [0] [0] [1] [] []
  dot_S65536x1024_S1024x128_S65536x128_1_0_0_1_n_n_wf : DotDims.WF S65536x1024 S1024x128 S65536x128 [1] [0] [0] [1] [] []

variable [Facts₀]

def dot_S256x256x200_S200x128_S256x256x128_2_0_01_1_n_n : DotDims S256x256x200 S200x128 S256x256x128 where
  lhsContracting := [2]
  rhsContracting := [0]
  lhsNonContracting := [0, 1]
  rhsNonContracting := [1]
  lhsBatch := []
  rhsBatch := []
  wf := dot_S256x256x200_S200x128_S256x256x128_2_0_01_1_n_n_wf
def dot_S256x256x128_S128x128_S256x256x128_2_0_01_1_n_n : DotDims S256x256x128 S128x128 S256x256x128 where
  lhsContracting := [2]
  rhsContracting := [0]
  lhsNonContracting := [0, 1]
  rhsNonContracting := [1]
  lhsBatch := []
  rhsBatch := []
  wf := dot_S256x256x128_S128x128_S256x256x128_2_0_01_1_n_n_wf
def dot_S1024x65536_S65536x128_S1024x128_1_0_0_1_n_n : DotDims S1024x65536 S65536x128 S1024x128 where
  lhsContracting := [1]
  rhsContracting := [0]
  lhsNonContracting := [0]
  rhsNonContracting := [1]
  lhsBatch := []
  rhsBatch := []
  wf := dot_S1024x65536_S65536x128_S1024x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S65536x1024_S1024x128_S65536x128_1_0_0_1_n_n : DotDims S65536x1024 S1024x128 S65536x128 where
  lhsContracting := [1]
  rhsContracting := [0]
  lhsNonContracting := [0]
  rhsNonContracting := [1]
  lhsBatch := []
  rhsBatch := []
  wf := dot_S65536x1024_S1024x128_S65536x128_1_0_0_1_n_n_wf

class Facts : Prop extends Facts₀ where

variable [Facts]
-- ==== Proof.KernelRun.lean ====
/-
  The run of the kernel's program with its result NAMED: every weakly fair execution of @main ends with the
  result array at the contents the last region's write-backs leave — the fold `W5` of the program's five
  segments (host operations, the pooling region, host operations, the graph region, the write-back region)
  from the launch memory — and with the argument arrays as launched.
-/
import proofs.«116376_j32444182954666_2_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the fold's
    contents and every argument array as launched. -/
theorem run : θ_run defs (onTc (τ := τ) (main (F := F))) ⟨m, fun _ => 0, ρ⟩ (fun r => ∀ c : Dev nD,
      r.2.mem ((c.tc : Thread nD τ).loc main_v30) = W5 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v30 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c)⟩)

end Cert.KernelIdeal.RunNamed

end
-- ==== Proof.Spec.lean ====
/-
  The mathematics of the claim, program-free.

  A pixel p of the 256 x 256 image (p = 256 h + w) carries a 200-vector x(p, ·).  Two per-pixel dense layers,
  each an affine rescaling followed by a matrix product, a bias and a leaky rectifier, give the pixel
  features xf(p, ·) of width 128.  A soft assignment Q(p, n) of pixels to 1024 superpixels pools them,
  every column of Q normalised by its sum: pooled(n, d) = sum_p Q(p, n) xf(p, d) / sum_p Q(p, n).  Three
  graph-convolution layers over a normalised adjacency gn follow, h' = lrelu((gn (g h + b)) W + bias), and
  the result is written back to the pixels: out(p, d) = sum_n Q(p, n) h(n, d).

  The pooling is stated twice: divided after the sum (`poolAfter`) and entry by entry before it
  (`poolBefore`).  Over the extended reals the two agree when every entry is a real number and the column
  sum is not zero (`pool_eq`): division by a nonzero real is multiplication by its inverse, which moves
  out of a finite sum of reals.
-/
import Idealize.ShloMosaic.PureOps.Ideal
import Idealize.ShloMosaic.Lib.ValueIdx

noncomputable section

namespace Cert.PoolGcn

open Idealize.ShloMosaic Idealize.ShloMosaic.ValueIdx

/-- Arrays of extended reals over literal shapes. -/
abbrev A1 (a : Nat) := (⟨1, ![a]⟩ : Shape).Idx → EReal
abbrev A2 (a b : Nat) := (⟨2, ![a, b]⟩ : Shape).Idx → EReal
abbrev A3 (a b c : Nat) := (⟨3, ![a, b, c]⟩ : Shape).Idx → EReal

/-- The zero the rectifier compares against, and its slope on the negative side (the f32 nearest 0.01). -/
abbrev zeroW : EReal := Ideal.ofBits .f32 0x00000000#32
abbrev slope : EReal := Ideal.ofBits .f32 0x3C23D70A#32

/-- The leaky rectifier: v where v > 0, slope · v elsewhere. -/
def lrelu (v : EReal) : EReal := Scalar.select (Ideal.cmp .ogt v zeroW) v (slope * v)

/-- Row and column of pixel p in the image. -/
abbrev prow (p : Fin 65536) : Fin 256 := ⟨p.val / 256, by have := p.isLt; omega⟩
abbrev pcol (p : Fin 65536) : Fin 256 := ⟨p.val % 256, by omega⟩

section Cnn
variable (x : A3 256 256 200) (g0 b0 : A1 200) (w1 : A2 200 128) (b1 g1 c1 : A1 128) (w2 : A2 128 128) (b2 : A1 128)

/-- The rescaled input of pixel p. -/
def scaled (p : Fin 65536) (b : Fin 200) : EReal := g0 (ix1 b) * x (ix3 (prow p) (pcol p) b) + b0 (ix1 b)

/-- The first dense layer, rectified and rescaled for the second. -/
def hidden (p : Fin 65536) (d : Fin 128) : EReal :=
  g1 (ix1 d) * lrelu ((∑ b : Fin 200, scaled x g0 b0 p b * w1 (ix2 b d)) + b1 (ix1 d)) + c1 (ix1 d)

/-- The pixel features. -/
def xf (p : Fin 65536) (e : Fin 128) : EReal :=
  lrelu ((∑ d : Fin 128, hidden x g0 b0 w1 b1 g1 c1 p d * w2 (ix2 d e)) + b2 (ix1 e))
end Cnn

section Pool
variable (Q : A2 65536 1024) (z : Fin 65536 → Fin 128 → EReal)

/-- The sum of column n of the assignment. -/
def colsum (n : Fin 1024) : EReal := ∑ p : Fin 65536, Q (ix2 p n)

/-- Pooled features, the weighted sum divided by the column sum. -/
def poolAfter (n : Fin 1024) (d : Fin 128) : EReal := Ideal.div (∑ p : Fin 65536, Q (ix2 p n) * z p d) (colsum Q n)

/-- Pooled features, every weight divided by the column sum first. -/
def poolBefore (n : Fin 1024) (d : Fin 128) : EReal := ∑ p : Fin 65536, Ideal.div (Q (ix2 p n)) (colsum Q n) * z p d
end Pool

section Gcn
variable (gn : A2 1024 1024) (g c : A2 3 128) (w : A3 3 128 128) (bias : A2 3 128)

/-- One graph-convolution layer l on node features h. -/
def gcnLayer (l : Fin 3) (h : Fin 1024 → Fin 128 → EReal) (n : Fin 1024) (e : Fin 128) : EReal :=
  lrelu ((∑ d : Fin 128, (∑ k : Fin 1024, gn (ix2 n k) * (g (ix2 l d) * h k d + c (ix2 l d))) * w (ix3 l d e)) + bias (ix2 l e))

/-- The three layers. -/
def gcn3 (h : Fin 1024 → Fin 128 → EReal) : Fin 1024 → Fin 128 → EReal :=
  gcnLayer gn g c w bias 2 (gcnLayer gn g c w bias 1 (gcnLayer gn g c w bias 0 h))
end Gcn

/-- Node features written back to the pixels. -/
def writeBack (Q : A2 65536 1024) (h : Fin 1024 → Fin 128 → EReal) (p : Fin 65536) (d : Fin 128) : EReal :=
  ∑ n : Fin 1024, Q (ix2 p n) * h n d

end Cert.PoolGcn

end
-- ==== Proof.Pieces.lean ====
/-
  What one grid point of the pooling kernel leaves in its two output blocks, as values.  A point that starts
  an accumulation (the first of the sixteen points of a core) zeroes the blocks and then adds; every other
  point adds to what the point before left.  The added terms are the column sums of the point's block of the
  assignment matrix, and the product of that block, transposed, with the pixel features computed from the
  point's block of pixels.
-/
import proofs.«116376_j32444182954666_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.PoolGcn.Pieces
open Cert.KernelIdeal Cert.KernelIdeal.Gen
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- At a grid point that continues an accumulation the column-sum block ends at its old contents plus the
    column sums of the point's block of the assignment. -/
theorem outB10 (c : Dev nD) (i : grid0.Coords) (arg2 : Memref sig .tc .vmem S2048x200 .f32) (harg2 : arg2.IsWhole) (arg3 : Memref sig .tc .vmem S1x200 .f32) (harg3 : arg3.IsWhole) (arg4 : Memref sig .tc .vmem S1x200 .f32) (harg4 : arg4.IsWhole) (arg5 : Memref sig .tc .vmem S200x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2048x1024 .f32) (harg11 : arg11.IsWhole) (arg12 : Memref sig .tc .vmem S1x1x1024 .f32) (harg12 : arg12.IsWhole) (arg13 : Memref sig .tc .vmem S1x1024x128 .f32) (harg13 : arg13.IsWhole) (hc0 : ¬cond0_0 i) (x0 : Vec F S2048x200 .f32) (x1 : Vec F S1x200 .f32) (x2 : Vec F S1x200 .f32) (x3 : Vec F S200x128 .f32) (x4 : Vec F S1x128 .f32) (x5 : Vec F S1x128 .f32) (x6 : Vec F S1x128 .f32) (x7 : Vec F S128x128 .f32) (x8 : Vec F S1x128 .f32) (x9 : Vec F S2048x1024 .f32) (xo10 : Vec F S1x1x1024 .f32) (xo11 : Vec F S1x1024x128 .f32) :
    out0_B_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xo10 xo11 = k0_pay1 x9 xo10 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xo10 xo11)]
  unfold kernelRun0_B
  dsimp only
  rw [View.canon_unit_zero hz3]
  simp only [View.readAt_eq_ld, harg11.read_unread, harg12.read_unread, View.ld_unit_zero (S := S2048x1024) hz2,
    View.ld_unit_zero (S := S1x1x1024) hz3]

/-- At such a point the weighted-sum block ends at its old contents plus the product of the transposed block of
    the assignment with the point's pixel features. -/
theorem outB11 (c : Dev nD) (i : grid0.Coords) (arg2 : Memref sig .tc .vmem S2048x200 .f32) (harg2 : arg2.IsWhole) (arg3 : Memref sig .tc .vmem S1x200 .f32) (harg3 : arg3.IsWhole) (arg4 : Memref sig .tc .vmem S1x200 .f32) (harg4 : arg4.IsWhole) (arg5 : Memref sig .tc .vmem S200x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2048x1024 .f32) (harg11 : arg11.IsWhole) (arg12 : Memref sig .tc .vmem S1x1x1024 .f32) (harg12 : arg12.IsWhole) (arg13 : Memref sig .tc .vmem S1x1024x128 .f32) (harg13 : arg13.IsWhole) (hc0 : ¬cond0_0 i) (x0 : Vec F S2048x200 .f32) (x1 : Vec F S1x200 .f32) (x2 : Vec F S1x200 .f32) (x3 : Vec F S200x128 .f32) (x4 : Vec F S1x128 .f32) (x5 : Vec F S1x128 .f32) (x6 : Vec F S1x128 .f32) (x7 : Vec F S128x128 .f32) (x8 : Vec F S1x128 .f32) (x9 : Vec F S2048x1024 .f32) (xo10 : Vec F S1x1x1024 .f32) (xo11 : Vec F S1x1024x128 .f32) :
    out0_B_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xo10 xo11 = k0_pay2 (k0_pay5 x0 x1 x2 x3 x4 x5 x6) (k0_pay6 x7) x8 x9 xo11 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xo10 xo11)]
  unfold kernelRun0_B
  dsimp only
  sl_unfold_words
  rw [View.canon_unit_zero hz3]
  simp only [View.readAt_eq_ld, harg2.read_unread, harg3.read_unread, harg4.read_unread, harg5.read_unread, harg6.read_unread,
    harg7.read_unread, harg8.read_unread, harg9.read_unread, harg10.read_unread, harg11.read_unread, harg13.read_unread,
    View.ld_unit_zero (S := S2048x1024) hz2, View.ld_unit_zero (S := S2048x200) hz2, View.ld_unit_zero (S := S1x200) hz2,
    View.ld_unit_zero (S := S200x128) hz2, View.ld_unit_zero (S := S1x128) hz2, View.ld_unit_zero (S := S128x128) hz2,
    View.ld_unit_zero (S := S1x1024x128) hz3]

/-- At a grid point that starts an accumulation the column-sum block is first zeroed. -/
theorem outA10 (c : Dev nD) (i : grid0.Coords) (arg2 : Memref sig .tc .vmem S2048x200 .f32) (harg2 : arg2.IsWhole) (arg3 : Memref sig .tc .vmem S1x200 .f32) (harg3 : arg3.IsWhole) (arg4 : Memref sig .tc .vmem S1x200 .f32) (harg4 : arg4.IsWhole) (arg5 : Memref sig .tc .vmem S200x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2048x1024 .f32) (harg11 : arg11.IsWhole) (arg12 : Memref sig .tc .vmem S1x1x1024 .f32) (harg12 : arg12.IsWhole) (arg13 : Memref sig .tc .vmem S1x1024x128 .f32) (harg13 : arg13.IsWhole) (hc0 : cond0_0 i) (x0 : Vec F S2048x200 .f32) (x1 : Vec F S1x200 .f32) (x2 : Vec F S1x200 .f32) (x3 : Vec F S200x128 .f32) (x4 : Vec F S1x128 .f32) (x5 : Vec F S1x128 .f32) (x6 : Vec F S1x128 .f32) (x7 : Vec F S128x128 .f32) (x8 : Vec F S1x128 .f32) (x9 : Vec F S2048x1024 .f32) :
    out0_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 = k0_pay1 x9 (k0_pay3 (F := F)) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9)]
  unfold kernelRun0_A
  dsimp only
  sl_unfold_words
  rw [View.canon_cons_unit_zero (S := S1x1x1024) hz3]
  simp only [View.readCov_unit_zero (S := S1x1x1024) _ hz3, View.readAt_eq_ld, harg11.read_unread, View.ld_unit_zero (S := S2048x1024) hz2]

/-- At such a point the weighted-sum block is first zeroed. -/
theorem outA11 (c : Dev nD) (i : grid0.Coords) (arg2 : Memref sig .tc .vmem S2048x200 .f32) (harg2 : arg2.IsWhole) (arg3 : Memref sig .tc .vmem S1x200 .f32) (harg3 : arg3.IsWhole) (arg4 : Memref sig .tc .vmem S1x200 .f32) (harg4 : arg4.IsWhole) (arg5 : Memref sig .tc .vmem S200x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2048x1024 .f32) (harg11 : arg11.IsWhole) (arg12 : Memref sig .tc .vmem S1x1x1024 .f32) (harg12 : arg12.IsWhole) (arg13 : Memref sig .tc .vmem S1x1024x128 .f32) (harg13 : arg13.IsWhole) (hc0 : cond0_0 i) (x0 : Vec F S2048x200 .f32) (x1 : Vec F S1x200 .f32) (x2 : Vec F S1x200 .f32) (x3 : Vec F S200x128 .f32) (x4 : Vec F S1x128 .f32) (x5 : Vec F S1x128 .f32) (x6 : Vec F S1x128 .f32) (x7 : Vec F S128x128 .f32) (x8 : Vec F S1x128 .f32) (x9 : Vec F S2048x1024 .f32) :
    out0_A_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 = k0_pay2 (k0_pay5 x0 x1 x2 x3 x4 x5 x6) (k0_pay6 x7) x8 x9 (k0_pay4 (F := F)) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9)]
  unfold kernelRun0_A
  dsimp only
  sl_unfold_words
  rw [View.canon_cons_unit_zero (S := S1x1024x128) hz3]
  simp only [View.readCov_unit_zero (S := S1x1024x128) _ hz3, View.readAt_eq_ld, harg2.read_unread, harg3.read_unread, harg4.read_unread, harg5.read_unread, harg6.read_unread,
    harg7.read_unread, harg8.read_unread, harg9.read_unread, harg10.read_unread, harg11.read_unread,
    View.ld_unit_zero (S := S2048x1024) hz2, View.ld_unit_zero (S := S2048x200) hz2, View.ld_unit_zero (S := S1x200) hz2,
    View.ld_unit_zero (S := S200x128) hz2, View.ld_unit_zero (S := S1x128) hz2, View.ld_unit_zero (S := S128x128) hz2]

end Cert.PoolGcn.Pieces

end
-- ==== Proof.LibBlockSum.lean ====
/-
  A sum over the first B·(j+1) natural numbers, taken block by block: the terms before block j, plus the B terms of
  block j. This is how a contraction over a long axis is accumulated in pieces of width B; over a commutative monoid
  (the extended reals under addition are one) the pieces add up to the whole sum, whatever the values.
-/
import Mathlib.Algebra.BigOperators.Fin
import Mathlib.Algebra.BigOperators.Intervals

namespace Cert.Lib.BlockSum

open Finset

variable {M : Type*} [AddCommMonoid M]

/-- The terms before block `j`, plus the `B` terms of block `j`, are the terms before block `j + 1`. -/
theorem sum_range_block (f : ℕ → M) (B j : ℕ) :
    ∑ k ∈ range (B * j), f k + ∑ k : Fin B, f (B * j + k.val) = ∑ k ∈ range (B * (j + 1)), f k := by
  rw [Nat.mul_succ, Finset.sum_range_add, Finset.sum_range (fun k => f (B * j + k))]

/-- Block 0 alone: its `B` terms are the terms before block 1. -/
theorem sum_first_block (f : ℕ → M) (B : ℕ) :
    ∑ k : Fin B, f (B * 0 + k.val) = ∑ k ∈ range (B * (0 + 1)), f k := by
  rw [← sum_range_block f B 0, Nat.mul_zero, Finset.range_zero, Finset.sum_empty, zero_add]

end Cert.Lib.BlockSum
-- ==== Proof.KerLib.lean ====
/-
  Reading the kernel bodies' operations at one index, at the extended reals: the whole-block offsets, and a matrix
  product into a zero accumulator as a finite sum over its one contracted axis, and the leaky rectifier.
-/
import proofs.«116376_j32444182954666_2_alg».proof.Proof.Gen.KernelIdeal.Frame
import proofs.«116376_j32444182954666_2_alg».proof.Proof.Spec
import Idealize.ShloMosaic.Lib.ValueLayout
import Idealize.ShloMosaic.PureOps.Ideal.Laws

noncomputable section

namespace Cert.PoolGcn.Ker

open Cert.KernelIdeal Cert.KernelIdeal.Gen Cert.PoolGcn Idealize.ShloMosaic Idealize.ShloMosaic.ValueIdx

/-- The offsets of a whole-block access of a rank-2 buffer are all zero. -/
theorem off2_zero : (![0, 0] : Fin 2 → Nat) = fun _ => 0 := funext fun a => by fin_cases a <;> rfl

/-- The offsets of a whole-block access of a rank-3 buffer are all zero. -/
theorem off3_zero : (![0, 0, 0] : Fin 3 → Nat) = fun _ => 0 := funext fun a => by fin_cases a <;> rfl

/-- An [a, k] matrix times a [k, b] matrix, the first's columns contracted with the second's rows, into a zero
    accumulator: at (r, d) the sum over n of lhs(r, n) · rhs(n, d). The contraction index is its one coordinate
    (`contrEquiv1`); the operands' indices at (r, d) and n are (r, n) and (n, d), coordinate by coordinate. -/
theorem matmul_rows_cols {a k b : Nat} {φ₁ φ₂ : FTy}
    (D : DotDims ⟨2, ![a, k]⟩ ⟨2, ![k, b]⟩ ⟨2, ![a, b]⟩)
    (hlc : D.lhsContracting = [1]) (hrc : D.rhsContracting = [0])
    (hln : D.lhsNonContracting = [0]) (hrn : D.rhsNonContracting = [1])
    (hlb : D.lhsBatch = []) (hrb : D.rhsBatch = [])
    (prec : Option ContractPrecision) (lhs : FVec Ideal ⟨2, ![a, k]⟩ φ₁) (rhs : FVec Ideal ⟨2, ![k, b]⟩ φ₂)
    (r : Fin a) (d : Fin b) :
    FloatOps.matmul D prec lhs rhs (constant (F := Ideal) ⟨2, ![a, b]⟩ .f32 0x00000000#32) (ix2 r d)
      = ∑ n : Fin k, lhs (ix2 r n) * rhs (ix2 n d) := by
  obtain ⟨lc, rc, ln, rn, lb, rb, wf⟩ := D
  simp only at hlc hrc hln hrn hlb hrb
  subst hlc hrc hln hrn hlb hrb
  rw [Ideal.matmul_constant_zero_apply,
    ← Equiv.sum_comp (contrEquiv1 (⟨[1], [0], [0], [1], [], [], wf⟩ : DotDims ⟨2, ![a, k]⟩ ⟨2, ![k, b]⟩ ⟨2, ![a, b]⟩) k rfl rfl).symm]
  refine Finset.sum_congr rfl fun n _ => ?_
  have hn := contrEquiv1_symm_val (⟨[1], [0], [0], [1], [], [], wf⟩ : DotDims ⟨2, ![a, k]⟩ ⟨2, ![k, b]⟩ ⟨2, ![a, b]⟩) k rfl rfl n
  have el : DotDims.lhsIdx (⟨[1], [0], [0], [1], [], [], wf⟩ : DotDims ⟨2, ![a, k]⟩ ⟨2, ![k, b]⟩ ⟨2, ![a, b]⟩) (ix2 r d)
      ((contrEquiv1 (⟨[1], [0], [0], [1], [], [], wf⟩ : DotDims ⟨2, ![a, k]⟩ ⟨2, ![k, b]⟩ ⟨2, ![a, b]⟩) k rfl rfl).symm n) = ix2 r n :=
    funext fun ax => Fin.ext (by
      match ax with
      | ⟨0, _⟩ => rfl
      | ⟨1, _⟩ => exact (DotDims.lhsIdx_val_of_single _ rfl _ _).trans hn)
  have er : DotDims.rhsIdx (⟨[1], [0], [0], [1], [], [], wf⟩ : DotDims ⟨2, ![a, k]⟩ ⟨2, ![k, b]⟩ ⟨2, ![a, b]⟩) (ix2 r d)
      ((contrEquiv1 (⟨[1], [0], [0], [1], [], [], wf⟩ : DotDims ⟨2, ![a, k]⟩ ⟨2, ![k, b]⟩ ⟨2, ![a, b]⟩) k rfl rfl).symm n) = ix2 n d :=
    funext fun ax => Fin.ext (by
      match ax with
      | ⟨0, _⟩ => exact (DotDims.rhsIdx_val_of_single _ rfl _ _).trans hn
      | ⟨1, _⟩ => rfl)
  rw [el, er]

/-- A [k, a] matrix and a [k, b] matrix contracted along their rows (the first transposed), into a zero accumulator: at
    (n, d) the sum over r of lhs(r, n) · rhs(r, d). -/
theorem matmul_cols_cols {a k b : Nat} {φ₁ φ₂ : FTy}
    (D : DotDims ⟨2, ![k, a]⟩ ⟨2, ![k, b]⟩ ⟨2, ![a, b]⟩)
    (hlc : D.lhsContracting = [0]) (hrc : D.rhsContracting = [0])
    (hln : D.lhsNonContracting = [1]) (hrn : D.rhsNonContracting = [1])
    (hlb : D.lhsBatch = []) (hrb : D.rhsBatch = [])
    (prec : Option ContractPrecision) (lhs : FVec Ideal ⟨2, ![k, a]⟩ φ₁) (rhs : FVec Ideal ⟨2, ![k, b]⟩ φ₂)
    (n : Fin a) (d : Fin b) :
    FloatOps.matmul D prec lhs rhs (constant (F := Ideal) ⟨2, ![a, b]⟩ .f32 0x00000000#32) (ix2 n d)
      = ∑ r : Fin k, lhs (ix2 r n) * rhs (ix2 r d) := by
  obtain ⟨lc, rc, ln, rn, lb, rb, wf⟩ := D
  simp only at hlc hrc hln hrn hlb hrb
  subst hlc hrc hln hrn hlb hrb
  rw [Ideal.matmul_constant_zero_apply,
    ← Equiv.sum_comp (contrEquiv1 (⟨[0], [0], [1], [1], [], [], wf⟩ : DotDims ⟨2, ![k, a]⟩ ⟨2, ![k, b]⟩ ⟨2, ![a, b]⟩) k rfl rfl).symm]
  refine Finset.sum_congr rfl fun r _ => ?_
  have hr := contrEquiv1_symm_val (⟨[0], [0], [1], [1], [], [], wf⟩ : DotDims ⟨2, ![k, a]⟩ ⟨2, ![k, b]⟩ ⟨2, ![a, b]⟩) k rfl rfl r
  have el : DotDims.lhsIdx (⟨[0], [0], [1], [1], [], [], wf⟩ : DotDims ⟨2, ![k, a]⟩ ⟨2, ![k, b]⟩ ⟨2, ![a, b]⟩) (ix2 n d)
      ((contrEquiv1 (⟨[0], [0], [1], [1], [], [], wf⟩ : DotDims ⟨2, ![k, a]⟩ ⟨2, ![k, b]⟩ ⟨2, ![a, b]⟩) k rfl rfl).symm r) = ix2 r n :=
    funext fun ax => Fin.ext (by
      match ax with
      | ⟨0, _⟩ => exact (DotDims.lhsIdx_val_of_single _ rfl _ _).trans hr
      | ⟨1, _⟩ => rfl)
  have er : DotDims.rhsIdx (⟨[0], [0], [1], [1], [], [], wf⟩ : DotDims ⟨2, ![k, a]⟩ ⟨2, ![k, b]⟩ ⟨2, ![a, b]⟩) (ix2 n d)
      ((contrEquiv1 (⟨[0], [0], [1], [1], [], [], wf⟩ : DotDims ⟨2, ![k, a]⟩ ⟨2, ![k, b]⟩ ⟨2, ![a, b]⟩) k rfl rfl).symm r) = ix2 r d :=
    funext fun ax => Fin.ext (by
      match ax with
      | ⟨0, _⟩ => exact (DotDims.rhsIdx_val_of_single _ rfl _ _).trans hr
      | ⟨1, _⟩ => rfl)
  rw [el, er]

/-- The rectifier as the kernels print it — compare with a splat zero, multiply by a splat slope, select — read at an
    index is the leaky rectifier of the element. -/
theorem lrelu_read {s : Shape} (v : FVec Ideal s .f32) (i : s.Idx) :
    select (cmpf .ogt v (broadcast s (Scalar.ofBits (F := Ideal) .f32 0x00000000#32))) v
      (mulf (broadcast s (Scalar.ofBits (F := Ideal) .f32 0x3C23D70A#32)) v) i = lrelu (v i) := rfl

end Cert.PoolGcn.Ker

end
-- ==== Proof.KerCnn.lean ====
/-
  The pixel kernel's body at one index: the first dense layer (rectified and rescaled), the second layer's features
  accumulated into the pooled sums, the assignment's column sums, and the zero blocks the first step stores.
-/
import proofs.«116376_j32444182954666_2_alg».proof.Proof.KerLib

noncomputable section

namespace Cert.PoolGcn.Ker

open Cert.KernelIdeal Cert.KernelIdeal.Gen Cert.PoolGcn Idealize.ShloMosaic Idealize.ShloMosaic.ValueIdx

/-- The second layer's weight, narrowed: the same array of extended reals. -/
theorem pay6_eq (v34 : Vec Ideal S128x128 .f32) : k0_pay6 (F := Ideal) v34 = v34 := rfl

/-- The block the first step stores into the column sums is zero everywhere. -/
theorem pay3_apply (n : Fin 1024) : k0_pay3 (F := Ideal) (ix3 0 0 n) = 0 := by
  unfold k0_pay3
  exact Ideal.ofBits_zero_f32

/-- The block the first step stores into the pooled sums is zero everywhere. -/
theorem pay4_apply (n : Fin 1024) (d : Fin 128) : k0_pay4 (F := Ideal) (ix3 0 n d) = 0 := by
  unfold k0_pay4
  exact Ideal.ofBits_zero_f32

/-- The first dense layer at pixel row r of the block and feature d: the input row rescaled entry by entry
    (v5 · x + v9), times the weight column, plus the bias, rectified, then rescaled by v26 and shifted by v30. The
    one-row arrays are read at their row 0. -/
theorem pay5_apply (v3 : Vec Ideal S2048x200 .f32) (v5 v9 : Vec Ideal S1x200 .f32) (v13 : Vec Ideal S200x128 .f32)
    (v17 v26 v30 : Vec Ideal S1x128 .f32) (r : Fin 2048) (d : Fin 128) :
    k0_pay5 (F := Ideal) v3 v5 v9 v13 v17 v26 v30 (ix2 r d)
      = v26 (ix2 0 d) * lrelu ((∑ b : Fin 200, (v5 (ix2 0 b) * v3 (ix2 r b) + v9 (ix2 0 b)) * v13 (ix2 b d)) + v17 (ix2 0 d))
        + v30 (ix2 0 d) := by
  unfold k0_pay5
  simp only [shapeCast_self, addf_apply, mulf_apply, lrelu_read, broadcastTo_1b_ab_apply, matmul]
  rw [matmul_rows_cols dot_S2048x200_S200x128_S2048x128_1_0_0_1_n_n rfl rfl rfl rfl rfl rfl]
  simp only [truncf_apply, addf_apply, mulf_apply, broadcastTo_1b_ab_apply]

/-- The column sums after the body: what the block held plus, for column n, the sum of the assignment block's entries
    (r, n) over its 2048 rows. The reduction over axis 0 of a [2048, 1024] array at n is the sum over r of its entries
    (r, n); the two casts only add unit axes. -/
theorem pay1_apply (v47 : Vec Ideal S2048x1024 .f32) (v48 : Vec Ideal S1x1x1024 .f32) (n : Fin 1024) :
    k0_pay1 (F := Ideal) v47 v48 (ix3 0 0 n) = v48 (ix3 0 0 n) + ∑ r : Fin 2048, v47 (ix2 r n) := by
  unfold k0_pay1
  simp only [shapeCast_self, addf_apply]
  rw [shapeCast_ab_1ab_apply, shapeCast_a_1a_apply]
  refine congrArg _ ((Ideal.multiReduction_add_single v47 _ _ _ _ (ix1 n)).trans ?_)
  refine Finset.sum_congr rfl fun r _ => congrArg v47 (funext fun a => ?_)
  match a with
  | ⟨0, _⟩ => rfl
  | ⟨1, _⟩ => rfl

/-- The pooled sums after the body: what the block held plus, at (n, d), the sum over the block's 2048 pixel rows r of
    the assignment entry (r, n) times the second layer's feature (r, d) — the hidden row times the weight column,
    plus the bias, rectified. The second product contracts the row axis of both of its operands. -/
theorem pay2_apply (v33 : FVec Ideal S2048x128 .f32) (v35 : FVec Ideal S128x128 .bf16) (v38 : Vec Ideal S1x128 .f32)
    (v47 : Vec Ideal S2048x1024 .f32) (v58 : Vec Ideal S1x1024x128 .f32) (n : Fin 1024) (d : Fin 128) :
    k0_pay2 (F := Ideal) v33 v35 v38 v47 v58 (ix3 0 n d)
      = v58 (ix3 0 n d) + ∑ r : Fin 2048, v47 (ix2 r n) * lrelu ((∑ k : Fin 128, v33 (ix2 r k) * v35 (ix2 k d)) + v38 (ix2 0 d)) := by
  unfold k0_pay2
  simp only [shapeCast_self, addf_apply, matmul]
  rw [shapeCast_ab_1ab_apply, matmul_cols_cols dot_S2048x1024_S2048x128_S1024x128_0_0_1_1_n_n rfl rfl rfl rfl rfl rfl]
  refine congrArg _ (Finset.sum_congr rfl fun r _ => ?_)
  simp only [truncf_apply, lrelu_read, addf_apply, broadcastTo_1b_ab_apply]
  rw [matmul_rows_cols dot_S2048x128_S128x128_S2048x128_1_0_0_1_n_n rfl rfl rfl rfl rfl rfl]
  simp only [truncf_apply]

end Cert.PoolGcn.Ker

end
-- ==== Proof.Region0.lean ====
/-
  The value of the pooling region.  Its grid is 2 cores x 16 steps; point t = 16 c' + i reads pixel block t
  (rows 2048 t .. 2048 t + 2047 of the flattened image and of the assignment matrix) and the whole parameter
  arrays, and adds into core c' 's two output blocks.  By induction on the point, after point t those blocks
  hold the sums over the pixels 32768 c' .. 32768 c' + 2048 (i + 1) - 1 (`inv`): a point that starts a core
  zeroes and adds its block's terms, any other adds them to what the point before left, and the terms of
  consecutive blocks of 2048 pixels concatenate.  The last point of a core writes its blocks back, so the
  two arrays the region leaves are the per-core sums (`final10`, `final11`).
-/
import proofs.«116376_j32444182954666_2_alg».proof.Proof.Gen.KernelIdeal.Frame
import Idealize.ShloMosaic.Lib.Pipeline.Value
import Idealize.ShloMosaic.Lib.Tactic
import proofs.«116376_j32444182954666_2_alg».proof.Proof.Spec
import proofs.«116376_j32444182954666_2_alg».proof.Proof.Pieces
import proofs.«116376_j32444182954666_2_alg».proof.Proof.LibBlockSum
import proofs.«116376_j32444182954666_2_alg».proof.Proof.KerCnn
set_option maxRecDepth 16384

noncomputable section

open Idealize.ShloMosaic Idealize.ShloMosaic.TcCoe Idealize.SL.Sem
open Idealize.ShloMosaic.Pipeline (Dat)

namespace Cert.PoolGcn.Region0
open Cert.KernelIdeal Cert.KernelIdeal.Gen Cert.PoolGcn Idealize.ShloMosaic.ValueIdx

variable (V : (c : Dev nD) → (b : Ref sig .tc) → Buf (Elt Ideal) ((c : Thread nD τ).loc b))

/-- The printed index maps of the pooling region, decided once over its 32 grid points: the pixel block and the
    assignment block of point t are block t, the parameter blocks are the whole arrays, and the two output
    blocks are core t / 16's. -/
theorem idx0 : ∀ t : Fin cfg0.N,
    (win0_0.index t (0 : Fin 2) = t.val ∧ win0_0.index t (1 : Fin 2) = 0)
    ∧ (win0_9.index t (0 : Fin 2) = t.val ∧ win0_9.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_10.index t (0 : Fin 3) = t.val / 16 ∧ win0_10.index t (1 : Fin 3) = 0 ∧ win0_10.index t (2 : Fin 3) = 0)
    ∧ (win0_11.index t (0 : Fin 3) = t.val / 16 ∧ win0_11.index t (1 : Fin 3) = 0 ∧ win0_11.index t (2 : Fin 3) = 0) :=
  (by decide +kernel : ∀ t : Fin grid0.N, _)

/-- Row r of the pixel block of point t is row 2048 t + r of the flattened image. -/
theorem blk_x (c : Dev nD) (t : Fin cfg0.N) (r : Fin 2048) (b : Fin 200) (h : 2048 * t.val + r.val < 65536) :
    (iblk0 V c 0 t : Vec Ideal S2048x200 .f32) (ix2 r b) = V c main_v0 (ix2 ⟨2048 * t.val + r.val, h⟩ b) := by
  unfold iblk0
  rw [View.read_apply]
  show V c main_v0 _ = V c main_v0 _
  congr 1
  funext a
  apply Fin.ext
  match a with
  | ⟨0, _⟩ => show win0_0.index t 0 * 2048 + 1 * r.val = 2048 * t.val + r.val; rw [(idx0 t).1.1]; omega
  | ⟨1, _⟩ => show win0_0.index t 1 * 200 + 1 * b.val = b.val; rw [(idx0 t).1.2]; omega

/-- Row r of the assignment block of point t is row 2048 t + r of the assignment. -/
theorem blk_Q (c : Dev nD) (t : Fin cfg0.N) (r : Fin 2048) (n : Fin 1024) (h : 2048 * t.val + r.val < 65536) :
    (iblk0 V c 9 t : Vec Ideal S2048x1024 .f32) (ix2 r n) = V c main_arg1 (ix2 ⟨2048 * t.val + r.val, h⟩ n) := by
  unfold iblk0
  rw [View.read_apply]
  show V c main_arg1 _ = V c main_arg1 _
  congr 1
  funext a
  apply Fin.ext
  match a with
  | ⟨0, _⟩ => show win0_9.index t 0 * 2048 + 1 * r.val = 2048 * t.val + r.val; rw [(idx0 t).2.1.1]; omega
  | ⟨1, _⟩ => show win0_9.index t 1 * 1024 + 1 * n.val = n.val; rw [(idx0 t).2.1.2]; omega

theorem blk_g0 (c : Dev nD) (t : Fin cfg0.N) (a : Fin 1) (b : Fin 200) :
    (iblk0 V c 1 t : Vec Ideal S1x200 .f32) (ix2 a b) = V c main_v1 (ix2 a b) := by
  unfold iblk0
  rw [View.read_apply]
  show V c main_v1 _ = V c main_v1 _
  congr 1
  funext i
  apply Fin.ext
  match i with
  | ⟨0, _⟩ => show win0_1.index t 0 * 1 + 1 * a.val = a.val; rw [(idx0 t).2.2.1.1]; omega
  | ⟨1, _⟩ => show win0_1.index t 1 * 200 + 1 * b.val = b.val; rw [(idx0 t).2.2.1.2]; omega

theorem blk_b0 (c : Dev nD) (t : Fin cfg0.N) (a : Fin 1) (b : Fin 200) :
    (iblk0 V c 2 t : Vec Ideal S1x200 .f32) (ix2 a b) = V c main_v2 (ix2 a b) := by
  unfold iblk0
  rw [View.read_apply]
  show V c main_v2 _ = V c main_v2 _
  congr 1
  funext i
  apply Fin.ext
  match i with
  | ⟨0, _⟩ => show win0_2.index t 0 * 1 + 1 * a.val = a.val; rw [(idx0 t).2.2.2.1.1]; omega
  | ⟨1, _⟩ => show win0_2.index t 1 * 200 + 1 * b.val = b.val; rw [(idx0 t).2.2.2.1.2]; omega

theorem blk_w1 (c : Dev nD) (t : Fin cfg0.N) (a : Fin 200) (b : Fin 128) :
    (iblk0 V c 3 t : Vec Ideal S200x128 .f32) (ix2 a b) = V c main_arg5 (ix2 a b) := by
  unfold iblk0
  rw [View.read_apply]
  show V c main_arg5 _ = V c main_arg5 _
  congr 1
  funext i
  apply Fin.ext
  match i with
  | ⟨0, _⟩ => show win0_3.index t 0 * 200 + 1 * a.val = a.val; rw [(idx0 t).2.2.2.2.1.1]; omega
  | ⟨1, _⟩ => show win0_3.index t 1 * 128 + 1 * b.val = b.val; rw [(idx0 t).2.2.2.2.1.2]; omega

theorem blk_b1 (c : Dev nD) (t : Fin cfg0.N) (a : Fin 1) (b : Fin 128) :
    (iblk0 V c 4 t : Vec Ideal S1x128 .f32) (ix2 a b) = V c main_v3 (ix2 a b) := by
  unfold iblk0
  rw [View.read_apply]
  show V c main_v3 _ = V c main_v3 _
  congr 1
  funext i
  apply Fin.ext
  match i with
  | ⟨0, _⟩ => show win0_4.index t 0 * 1 + 1 * a.val = a.val; rw [(idx0 t).2.2.2.2.2.1.1]; omega
  | ⟨1, _⟩ => show win0_4.index t 1 * 128 + 1 * b.val = b.val; rw [(idx0 t).2.2.2.2.2.1.2]; omega

theorem blk_g1 (c : Dev nD) (t : Fin cfg0.N) (a : Fin 1) (b : Fin 128) :
    (iblk0 V c 5 t : Vec Ideal S1x128 .f32) (ix2 a b) = V c main_v4 (ix2 a b) := by
  unfold iblk0
  rw [View.read_apply]
  show V c main_v4 _ = V c main_v4 _
  congr 1
  funext i
  apply Fin.ext
  match i with
  | ⟨0, _⟩ => show win0_5.index t 0 * 1 + 1 * a.val = a.val; rw [(idx0 t).2.2.2.2.2.2.1.1]; omega
  | ⟨1, _⟩ => show win0_5.index t 1 * 128 + 1 * b.val = b.val; rw [(idx0 t).2.2.2.2.2.2.1.2]; omega

theorem blk_c1 (c : Dev nD) (t : Fin cfg0.N) (a : Fin 1) (b : Fin 128) :
    (iblk0 V c 6 t : Vec Ideal S1x128 .f32) (ix2 a b) = V c main_v5 (ix2 a b) := by
  unfold iblk0
  rw [View.read_apply]
  show V c main_v5 _ = V c main_v5 _
  congr 1
  funext i
  apply Fin.ext
  match i with
  | ⟨0, _⟩ => show win0_6.index t 0 * 1 + 1 * a.val = a.val; rw [(idx0 t).2.2.2.2.2.2.2.1.1]; omega
  | ⟨1, _⟩ => show win0_6.index t 1 * 128 + 1 * b.val = b.val; rw [(idx0 t).2.2.2.2.2.2.2.1.2]; omega

theorem blk_w2 (c : Dev nD) (t : Fin cfg0.N) (a : Fin 128) (b : Fin 128) :
    (iblk0 V c 7 t : Vec Ideal S128x128 .f32) (ix2 a b) = V c main_arg9 (ix2 a b) := by
  unfold iblk0
  rw [View.read_apply]
  show V c main_arg9 _ = V c main_arg9 _
  congr 1
  funext i
  apply Fin.ext
  match i with
  | ⟨0, _⟩ => show win0_7.index t 0 * 128 + 1 * a.val = a.val; rw [(idx0 t).2.2.2.2.2.2.2.2.1.1]; omega
  | ⟨1, _⟩ => show win0_7.index t 1 * 128 + 1 * b.val = b.val; rw [(idx0 t).2.2.2.2.2.2.2.2.1.2]; omega

theorem blk_b2 (c : Dev nD) (t : Fin cfg0.N) (a : Fin 1) (b : Fin 128) :
    (iblk0 V c 8 t : Vec Ideal S1x128 .f32) (ix2 a b) = V c main_v6 (ix2 a b) := by
  unfold iblk0
  rw [View.read_apply]
  show V c main_v6 _ = V c main_v6 _
  congr 1
  funext i
  apply Fin.ext
  match i with
  | ⟨0, _⟩ => show win0_8.index t 0 * 1 + 1 * a.val = a.val; rw [(idx0 t).2.2.2.2.2.2.2.2.2.1.1]; omega
  | ⟨1, _⟩ => show win0_8.index t 1 * 128 + 1 * b.val = b.val; rw [(idx0 t).2.2.2.2.2.2.2.2.2.1.2]; omega

/-- The features of pixel row p, from the flattened image and the parameters as row vectors. -/
def zrow (xs : Vec Ideal S65536x200 .f32) (g0 b0 : Vec Ideal S1x200 .f32) (w1 : Vec Ideal S200x128 .f32) (b1 g1 c1 : Vec Ideal S1x128 .f32)
    (w2 : Vec Ideal S128x128 .f32) (b2 : Vec Ideal S1x128 .f32) (p : Fin 65536) (e : Fin 128) : EReal :=
  lrelu ((∑ k : Fin 128, (g1 (ix2 0 k) * lrelu ((∑ b : Fin 200, (g0 (ix2 0 b) * xs (ix2 p b) + b0 (ix2 0 b)) * w1 (ix2 b k)) + b1 (ix2 0 k)) + c1 (ix2 0 k)) * w2 (ix2 k e)) + b2 (ix2 0 e))

/-- The features of pixel row p as the pooling region finds its arrays. -/
abbrev Zr (c : Dev nD) : Fin 65536 → Fin 128 → EReal :=
  zrow (V c main_v0) (V c main_v1) (V c main_v2) (V c main_arg5) (V c main_v3) (V c main_v4) (V c main_v5) (V c main_arg9) (V c main_v6)

/-- Row p of the assignment and of the features, over all natural numbers (zero past the last pixel). -/
def Qn (c : Dev nD) (p : ℕ) (n : Fin 1024) : EReal := if h : p < 65536 then V c main_arg1 (ix2 ⟨p, h⟩ n) else 0
def Zn (c : Dev nD) (p : ℕ) (d : Fin 128) : EReal := if h : p < 65536 then Zr V c ⟨p, h⟩ d else 0

variable (hP1 : ∀ (v47 : Vec Ideal S2048x1024 .f32) (v48 : Vec Ideal S1x1x1024 .f32) (n : Fin 1024),
    k0_pay1 (F := Ideal) v47 v48 (ix3 0 0 n) = v48 (ix3 0 0 n) + ∑ r : Fin 2048, v47 (ix2 r n))
variable (hP2 : ∀ (v33 : FVec Ideal S2048x128 .f32) (v35 : FVec Ideal S128x128 .bf16) (v38 : Vec Ideal S1x128 .f32) (v47 : Vec Ideal S2048x1024 .f32) (v58 : Vec Ideal S1x1024x128 .f32) (n : Fin 1024) (d : Fin 128),
    k0_pay2 (F := Ideal) v33 v35 v38 v47 v58 (ix3 0 n d) = v58 (ix3 0 n d) + ∑ r : Fin 2048, v47 (ix2 r n) * lrelu ((∑ k : Fin 128, v33 (ix2 r k) * v35 (ix2 k d)) + v38 (ix2 0 d)))
variable (hP5 : ∀ (v3 : Vec Ideal S2048x200 .f32) (v5 v9 : Vec Ideal S1x200 .f32) (v13 : Vec Ideal S200x128 .f32) (v17 v26 v30 : Vec Ideal S1x128 .f32) (r : Fin 2048) (d : Fin 128),
    k0_pay5 (F := Ideal) v3 v5 v9 v13 v17 v26 v30 (ix2 r d) = v26 (ix2 0 d) * lrelu ((∑ b : Fin 200, (v5 (ix2 0 b) * v3 (ix2 r b) + v9 (ix2 0 b)) * v13 (ix2 b d)) + v17 (ix2 0 d)) + v30 (ix2 0 d))
variable (hP3 : ∀ n : Fin 1024, k0_pay3 (F := Ideal) (ix3 0 0 n) = 0)
variable (hP4 : ∀ (n : Fin 1024) (d : Fin 128), k0_pay4 (F := Ideal) (ix3 0 n d) = 0)
variable (hP6 : ∀ v34 : Vec Ideal S128x128 .f32, k0_pay6 (F := Ideal) v34 = v34)

include hP1 in
/-- One grid point adds the column sums of its block of the assignment. -/
theorem point10 (c : Dev nD) (t : Fin cfg0.N) (old : Vec Ideal S1x1x1024 .f32) (n : Fin 1024) :
    k0_pay1 (F := Ideal) (iblk0 V c 9 t) old (ix3 0 0 n) = old (ix3 0 0 n) + ∑ r : Fin 2048, Qn V c (2048 * t.val + r.val) n := by
  have hN : t.val < 32 := lt_of_lt_of_eq t.isLt N_0
  rw [hP1]
  refine congrArg _ (Finset.sum_congr rfl fun r _ => ?_)
  have h : 2048 * t.val + r.val < 65536 := by have := r.isLt; omega
  rw [blk_Q V c t r n h]
  unfold Qn
  rw [dif_pos h]

include hP2 hP5 hP6 in
/-- One grid point adds the product of its block of the assignment, transposed, with its pixels' features. -/
theorem point11 (c : Dev nD) (t : Fin cfg0.N) (old : Vec Ideal S1x1024x128 .f32) (n : Fin 1024) (d : Fin 128) :
    k0_pay2 (F := Ideal) (k0_pay5 (iblk0 V c 0 t) (iblk0 V c 1 t) (iblk0 V c 2 t) (iblk0 V c 3 t) (iblk0 V c 4 t) (iblk0 V c 5 t) (iblk0 V c 6 t))
      (k0_pay6 (iblk0 V c 7 t)) (iblk0 V c 8 t) (iblk0 V c 9 t) old (ix3 0 n d)
    = old (ix3 0 n d) + ∑ r : Fin 2048, Qn V c (2048 * t.val + r.val) n * Zn V c (2048 * t.val + r.val) d := by
  have hN : t.val < 32 := lt_of_lt_of_eq t.isLt N_0
  rw [hP2, hP6]
  refine congrArg _ (Finset.sum_congr rfl fun r _ => ?_)
  have h : 2048 * t.val + r.val < 65536 := by have := r.isLt; omega
  rw [blk_Q V c t r n h]
  unfold Qn Zn
  rw [dif_pos h, dif_pos h]
  refine congrArg _ ?_
  unfold Zr zrow
  rw [blk_b2]
  refine congrArg lrelu (congrArg (· + _) (Finset.sum_congr rfl fun k _ => ?_))
  rw [hP5, blk_w2, blk_g1, blk_c1, blk_b1]
  refine congrArg (· * _) (congrArg (· + _) (congrArg _ (congrArg lrelu (congrArg (· + _) (Finset.sum_congr rfl fun b _ => ?_)))))
  rw [blk_g0, blk_b0, blk_w1, blk_x V c t r b h]

include hP1 hP2 hP3 hP4 hP5 hP6 in
/-- THE ACCUMULATION, in closed form: after grid point m = 16 c' + i the two output blocks of core c' hold the
    sums over the pixels 32768 c' ≤ p < 32768 c' + 2048 (i + 1) — the pixels of the points seen so far. -/
theorem inv (c : Dev nD) : ∀ (m : ℕ) (hm : m < cfg0.N),
    (∀ n : Fin 1024, (outsAt0 V c m hm).1 (ix3 0 0 n)
        = ∑ k ∈ Finset.range (2048 * (m % 16 + 1)), Qn V c (32768 * (m / 16) + k) n)
    ∧ (∀ (n : Fin 1024) (d : Fin 128), (outsAt0 V c m hm).2 (ix3 0 n d)
        = ∑ k ∈ Finset.range (2048 * (m % 16 + 1)), Qn V c (32768 * (m / 16) + k) n * Zn V c (32768 * (m / 16) + k) d) := by
  intro m
  induction m using Nat.strong_induction_on with
  | _ m ih =>
    intro hm
    have hN : m < 32 := lt_of_lt_of_eq hm N_0
    by_cases h0 : m % 16 = 0
    · have e := outsAt0_A V c ⟨m, hm⟩ h0
      have e1 := congrArg Prod.fst e
      have e2 := congrArg Prod.snd e
      constructor
      · intro n
        refine (congrFun e1 _).trans ?_
        dsimp only
        rw [Pieces.outA10, point10 V hP1 c ⟨m, hm⟩, hP3, zero_add, h0,
          ← Cert.Lib.BlockSum.sum_first_block (fun k => Qn V c (32768 * (m / 16) + k) n) 2048]
        refine Finset.sum_congr rfl fun r _ => ?_
        show Qn V c (2048 * m + r.val) n = Qn V c (32768 * (m / 16) + (2048 * 0 + r.val)) n
        rw [show 2048 * m + r.val = 32768 * (m / 16) + (2048 * 0 + r.val) by omega]
      · intro n d
        refine (congrFun e2 _).trans ?_
        dsimp only
        rw [Pieces.outA11, point11 V hP2 hP5 hP6 c ⟨m, hm⟩, hP4, zero_add, h0,
          ← Cert.Lib.BlockSum.sum_first_block (fun k => Qn V c (32768 * (m / 16) + k) n * Zn V c (32768 * (m / 16) + k) d) 2048]
        refine Finset.sum_congr rfl fun r _ => ?_
        show Qn V c (2048 * m + r.val) n * Zn V c (2048 * m + r.val) d = _
        rw [show 2048 * m + r.val = 32768 * (m / 16) + (2048 * 0 + r.val) by omega]
    · have hm1 : m - 1 < m := by omega
      obtain ⟨ih1, ih2⟩ := ih (m - 1) hm1 (Nat.lt_of_le_of_lt (Nat.sub_le _ _) hm)
      have a1 : (m - 1) % 16 + 1 = m % 16 := by omega
      have a2 : (m - 1) / 16 = m / 16 := by omega
      rw [a1, a2] at ih1 ih2
      have e := outsAt0_B V c ⟨m, hm⟩ h0
      have e1 := congrArg Prod.fst e
      have e2 := congrArg Prod.snd e
      constructor
      · intro n
        refine (congrFun e1 _).trans ?_
        dsimp only
        rw [Pieces.outB10, point10 V hP1 c ⟨m, hm⟩,
          ← Cert.Lib.BlockSum.sum_range_block (fun k => Qn V c (32768 * (m / 16) + k) n) 2048 (m % 16)]
        refine congrArg₂ (· + ·) (ih1 n) (Finset.sum_congr rfl fun r _ => ?_)
        show Qn V c (2048 * m + r.val) n = Qn V c (32768 * (m / 16) + (2048 * (m % 16) + r.val)) n
        rw [show 2048 * m + r.val = 32768 * (m / 16) + (2048 * (m % 16) + r.val) by omega]
      · intro n d
        refine (congrFun e2 _).trans ?_
        dsimp only
        rw [Pieces.outB11, point11 V hP2 hP5 hP6 c ⟨m, hm⟩,
          ← Cert.Lib.BlockSum.sum_range_block (fun k => Qn V c (32768 * (m / 16) + k) n * Zn V c (32768 * (m / 16) + k) d) 2048 (m % 16)]
        refine congrArg₂ (· + ·) (ih2 n d) (Finset.sum_congr rfl fun r _ => ?_)
        show Qn V c (2048 * m + r.val) n * Zn V c (2048 * m + r.val) d = _
        rw [show 2048 * m + r.val = 32768 * (m / 16) + (2048 * (m % 16) + r.val) by omega]

/-- The column-sum array after the region: entry (c', 0, n) is the sum of column n of the assignment over
    core c' 's half of the pixels. -/
def G10 (c : Dev nD) : S2x1x1024.Idx → EReal := fun i =>
  ∑ k ∈ Finset.range 32768, Qn V c (32768 * (i 0).val + k) ⟨(i 2).val, (i 2).isLt⟩

/-- The weighted-sum array after the region: entry (c', n, d) is the sum over core c' 's pixels of the
    assignment to superpixel n times feature d. -/
def G11 (c : Dev nD) : S2x1024x128.Idx → EReal := fun i =>
  ∑ k ∈ Finset.range 32768, Qn V c (32768 * (i 0).val + k) ⟨(i 1).val, (i 1).isLt⟩ * Zn V c (32768 * (i 0).val + k) ⟨(i 2).val, (i 2).isLt⟩

theorem G10_at (c : Dev nD) (i : S2x1x1024.Idx) (a : ℕ) (n : Fin 1024) (h0 : (i 0).val = a) (h2 : (i 2).val = n.val) :
    G10 V c i = ∑ k ∈ Finset.range 32768, Qn V c (32768 * a + k) n := by
  unfold G10
  rw [h0, show (⟨(i 2).val, (i 2).isLt⟩ : Fin 1024) = n from Fin.ext h2]

theorem G11_at (c : Dev nD) (i : S2x1024x128.Idx) (a : ℕ) (n : Fin 1024) (d : Fin 128) (h0 : (i 0).val = a) (h1 : (i 1).val = n.val) (h2 : (i 2).val = d.val) :
    G11 V c i = ∑ k ∈ Finset.range 32768, Qn V c (32768 * a + k) n * Zn V c (32768 * a + k) d := by
  unfold G11
  rw [h0, show (⟨(i 1).val, (i 1).isLt⟩ : Fin 1024) = n from Fin.ext h1, show (⟨(i 2).val, (i 2).isLt⟩ : Fin 128) = d from Fin.ext h2]

set_option maxRecDepth 200000 in
include hP1 hP2 hP3 hP4 hP5 hP6 in
/-- What the last point of a core writes back is that core's block of the column-sum array. -/
theorem flushed10 (c : Dev nD) (t : Fin cfg0.N) (hf : (cfg0.win 10).flush t = true) :
    (dat0 V c).flushed 10 t = ((cfg0.win 10).blk t).view.read (Elt Ideal) (G10 V c) := by
  have h15 : t.val % 16 = 15 := (flush0_10 t).mp hf
  have hN : t.val < 32 := lt_of_lt_of_eq t.isLt N_0
  show (cfg0.win 10).cut (grid0.coords t) ((dat0 V c).after 10 t) = _
  rw [after0_10]
  have key : ∀ j : S1x1x1024.Idx, (outsAt0 V c t.val t.isLt).1 j = G10 V c (((cfg0.win 10).blk t).view.emb j) := by
    intro j
    obtain ⟨a, b, n, rfl⟩ : ∃ (a : Fin 1) (b : Fin 1) (n : Fin 1024), j = ix3 a b n := ⟨j 0, j 1, j 2, eq_ix3 j⟩
    obtain rfl : a = 0 := Subsingleton.elim _ _
    obtain rfl : b = 0 := Subsingleton.elim _ _
    rw [(inv V hP1 hP2 hP5 hP3 hP4 hP6 c t.val t.isLt).1 n, h15]
    refine (G10_at V c _ (t.val / 16) n ?_ ?_).symm
    · show win0_10.index t 0 * 1 + 1 * 0 = t.val / 16
      rw [(idx0 t).2.2.2.2.2.2.2.2.2.2.1.1]; omega
    · show win0_10.index t 2 * 1024 + 1 * n.val = n.val
      rw [(idx0 t).2.2.2.2.2.2.2.2.2.2.1.2.2]; omega
  exact funext key

set_option maxRecDepth 200000 in
include hP1 hP2 hP3 hP4 hP5 hP6 in
/-- What the last point of a core writes back is that core's block of the weighted-sum array. -/
theorem flushed11 (c : Dev nD) (t : Fin cfg0.N) (hf : (cfg0.win 11).flush t = true) :
    (dat0 V c).flushed 11 t = ((cfg0.win 11).blk t).view.read (Elt Ideal) (G11 V c) := by
  have h15 : t.val % 16 = 15 := (flush0_11 t).mp hf
  have hN : t.val < 32 := lt_of_lt_of_eq t.isLt N_0
  show (cfg0.win 11).cut (grid0.coords t) ((dat0 V c).after 11 t) = _
  rw [after0_11]
  have key : ∀ j : S1x1024x128.Idx, (outsAt0 V c t.val t.isLt).2 j = G11 V c (((cfg0.win 11).blk t).view.emb j) := by
    intro j
    obtain ⟨a, n, d, rfl⟩ : ∃ (a : Fin 1) (n : Fin 1024) (d : Fin 128), j = ix3 a n d := ⟨j 0, j 1, j 2, eq_ix3 j⟩
    obtain rfl : a = 0 := Subsingleton.elim _ _
    rw [(inv V hP1 hP2 hP5 hP3 hP4 hP6 c t.val t.isLt).2 n d, h15]
    refine (G11_at V c _ (t.val / 16) n d ?_ ?_ ?_).symm
    · show win0_11.index t 0 * 1 + 1 * 0 = t.val / 16
      rw [(idx0 t).2.2.2.2.2.2.2.2.2.2.2.1]; omega
    · show win0_11.index t 1 * 1024 + 1 * n.val = n.val
      rw [(idx0 t).2.2.2.2.2.2.2.2.2.2.2.2.1]; omega
    · show win0_11.index t 2 * 128 + 1 * d.val = d.val
      rw [(idx0 t).2.2.2.2.2.2.2.2.2.2.2.2.2]; omega
  exact funext key

/-- An index of the column-sum array is in point t's block iff each coordinate is in the block's range. -/
theorem mem_blk10 (t : Fin cfg0.N) (i : S2x1x1024.Idx) :
    i ∈ ((cfg0.win 10).blk t).view.set ↔ ∀ a : Fin 3, win0_10.index t a * S1x1x1024.size a ≤ (i a).val ∧ (i a).val < win0_10.index t a * S1x1x1024.size a + S1x1x1024.size a := by
  show i ∈ ((View.whole main_v7_0).slice (win0_10.rect t)).set ↔ _
  rw [View.set_slice_whole, Rect.mem_set_unit]
  exact Iff.rfl

theorem mem_blk11 (t : Fin cfg0.N) (i : S2x1024x128.Idx) :
    i ∈ ((cfg0.win 11).blk t).view.set ↔ ∀ a : Fin 3, win0_11.index t a * S1x1024x128.size a ≤ (i a).val ∧ (i a).val < win0_11.index t a * S1x1024x128.size a + S1x1024x128.size a := by
  show i ∈ ((View.whole main_v7_1).slice (win0_11.rect t)).set ↔ _
  rw [View.set_slice_whole, Rect.mem_set_unit]
  exact Iff.rfl

/-- Core c' 's block is written back by its last point, 16 c' + 15. -/
theorem cover10 (i : S2x1x1024.Idx) : ∃ t : Fin cfg0.N, (cfg0.win 10).flush t = true ∧ i ∈ ((cfg0.win 10).blk t).view.set := by
  have h0 : (i 0).val < 2 := (i 0).isLt
  have h1 : (i 1).val < 1 := (i 1).isLt
  have h2 : (i 2).val < 1024 := (i 2).isLt
  have hlt : 16 * (i 0).val + 15 < cfg0.N := by rw [show cfg0.N = 32 from N_0]; omega
  refine ⟨⟨16 * (i 0).val + 15, hlt⟩, (flush0_10 _).mpr (by show (16 * (i 0).val + 15) % 16 = 15; omega), ?_⟩
  rw [mem_blk10]
  obtain ⟨-, -, -, -, -, -, -, -, -, -, ⟨e0, e1, e2⟩, -⟩ := idx0 ⟨16 * (i 0).val + 15, hlt⟩
  have e0' : win0_10.index ⟨16 * (i 0).val + 15, hlt⟩ 0 = (i 0).val := by rw [e0]; show (16 * (i 0).val + 15) / 16 = _; omega
  intro a
  match a with
  | ⟨0, _⟩ => show win0_10.index _ 0 * 1 ≤ (i 0).val ∧ (i 0).val < win0_10.index _ 0 * 1 + 1; rw [e0']; omega
  | ⟨1, _⟩ => show win0_10.index _ 1 * 1 ≤ (i 1).val ∧ (i 1).val < win0_10.index _ 1 * 1 + 1; rw [e1]; omega
  | ⟨2, _⟩ => show win0_10.index _ 2 * 1024 ≤ (i 2).val ∧ (i 2).val < win0_10.index _ 2 * 1024 + 1024; rw [e2]; omega

theorem cover11 (i : S2x1024x128.Idx) : ∃ t : Fin cfg0.N, (cfg0.win 11).flush t = true ∧ i ∈ ((cfg0.win 11).blk t).view.set := by
  have h0 : (i 0).val < 2 := (i 0).isLt
  have h1 : (i 1).val < 1024 := (i 1).isLt
  have h2 : (i 2).val < 128 := (i 2).isLt
  have hlt : 16 * (i 0).val + 15 < cfg0.N := by rw [show cfg0.N = 32 from N_0]; omega
  refine ⟨⟨16 * (i 0).val + 15, hlt⟩, (flush0_11 _).mpr (by show (16 * (i 0).val + 15) % 16 = 15; omega), ?_⟩
  rw [mem_blk11]
  obtain ⟨-, -, -, -, -, -, -, -, -, -, -, e0, e1, e2⟩ := idx0 ⟨16 * (i 0).val + 15, hlt⟩
  have e0' : win0_11.index ⟨16 * (i 0).val + 15, hlt⟩ 0 = (i 0).val := by rw [e0]; show (16 * (i 0).val + 15) / 16 = _; omega
  intro a
  match a with
  | ⟨0, _⟩ => show win0_11.index _ 0 * 1 ≤ (i 0).val ∧ (i 0).val < win0_11.index _ 0 * 1 + 1; rw [e0']; omega
  | ⟨1, _⟩ => show win0_11.index _ 1 * 1024 ≤ (i 1).val ∧ (i 1).val < win0_11.index _ 1 * 1024 + 1024; rw [e1]; omega
  | ⟨2, _⟩ => show win0_11.index _ 2 * 128 ≤ (i 2).val ∧ (i 2).val < win0_11.index _ 2 * 128 + 128; rw [e2]; omega

include hP1 hP2 hP3 hP4 hP5 hP6 in
/-- The two arrays the pooling region leaves. -/
theorem final10 (c : Dev nD) : (dat0 V c).arrAt 10 cfg0.N = G10 V c :=
  (dat0 V c).arrAt_eq_of_cover 10 (G10 V c) (flushed10 V hP1 hP2 hP5 hP3 hP4 hP6 c) cover10

include hP1 hP2 hP3 hP4 hP5 hP6 in
theorem final11 (c : Dev nD) : (dat0 V c).arrAt 11 cfg0.N = G11 V c :=
  (dat0 V c).arrAt_eq_of_cover 11 (G11 V c) (flushed11 V hP1 hP2 hP5 hP3 hP4 hP6 c) cover11

end Cert.PoolGcn.Region0

namespace Cert.PoolGcn.Region0
open Cert.KernelIdeal Cert.KernelIdeal.Gen Cert.PoolGcn Idealize.ShloMosaic.ValueIdx

variable (V : (c : Dev nD) → (b : Ref sig .tc) → Buf (Elt Ideal) ((c : Thread nD τ).loc b))

/-- The column-sum array the pooling region leaves, with the body's arithmetic supplied. -/
theorem colsums (c : Dev nD) : (dat0 V c).arrAt 10 cfg0.N = G10 V c :=
  final10 V Ker.pay1_apply Ker.pay2_apply Ker.pay5_apply Ker.pay3_apply Ker.pay4_apply Ker.pay6_eq c

/-- The weighted-sum array the pooling region leaves, with the body's arithmetic supplied. -/
theorem wsums (c : Dev nD) : (dat0 V c).arrAt 11 cfg0.N = G11 V c :=
  final11 V Ker.pay1_apply Ker.pay2_apply Ker.pay5_apply Ker.pay3_apply Ker.pay4_apply Ker.pay6_eq c

end Cert.PoolGcn.Region0
end
-- ==== Proof.LibRowLayout.lean ====
/-
  A row vector's layout operations read at coordinates. Independent of any program.

  A vector [b] re-laid as the row [1, b] keeps its entries in order, so the row at (0, q) is the vector at q; a row
  [1, b] broadcast down a rows repeats it, so the result at (p, q) is the row at (0, q); and the one entry of a [1, 1]
  array extracted at position (0, 0) is the array at (0, 0).
-/
import Idealize.ShloMosaic.Lib.ValueIdx
import Idealize.ShloMosaic.Lib.Pipeline.Value

noncomputable section

namespace Cert.Lib

open Idealize.ShloMosaic Idealize.ShloMosaic.ValueIdx

/-- A vector [b] shape-cast to the row [1, b], read at (0, q), is the vector at q (any b; with b = 1 this is a [1]
    array re-laid as [1, 1]). -/
theorem vecToRow_apply {α : Type} {b : Nat} (x : (⟨1, ![b]⟩ : Shape).Idx → α)
    (h : (⟨1, ![b]⟩ : Shape).ShapeCasts ⟨2, ![1, b]⟩) (q : Fin b) :
    shapeCast ⟨2, ![1, b]⟩ x h (ix2 0 q) = x (ix1 q) :=
  shapeCast_apply x h (ix2 0 q) (ix1 q) (by
    rw [Shape.rowMajor_val_two, Shape.rowMajor_val_one]; show q.val = 0 * b + q.val; omega)

/-- A row [1, b] broadcast to [a, b], read at (p, q), is the row at (0, q). -/
theorem rowBroadcast_apply {α : Type} {a b : Nat} (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 0 q) :=
  broadcastTo_apply x h (ix2 p q) (ix2 0 q) (fun d => by
    match d with
    | ⟨0, _⟩ => show (0 : Nat) = if (1 : Nat) = 1 then 0 else p.val; rw [if_pos rfl]
    | ⟨1, _⟩ => show q.val = if b = 1 then 0 else q.val; have := q.isLt; split <;> omega)

/-- The entry of a [1, 1] array extracted at position (0, 0) is the array at (0, 0). -/
theorem extract_one_one {α : Type} (x : (⟨2, ![1, 1]⟩ : Shape).Idx → α)
    (h : ∀ d, (![0, 0] : Fin 2 → Nat) d < (⟨2, ![1, 1]⟩ : Shape).size d) :
    extractAt ![0, 0] x h = x (ix2 0 0) :=
  congrArg x (funext fun d => Fin.ext (by match d with | ⟨0, _⟩ => rfl | ⟨1, _⟩ => rfl))

end Cert.Lib

end
-- ==== Proof.Entry.lean ====
/-
  What the pooling region finds in its arrays: the image flattened to one row per pixel (pixel p = 256 h + w
  is row p), every parameter vector as a one-row matrix, the assignment and the two weight matrices as
  launched.  Read through these, the features the region computes for pixel row p are the specification's.
-/
import proofs.«116376_j32444182954666_2_alg».proof.Proof.Gen.KernelIdeal.Frame
import Idealize.ShloMosaic.Lib.Pipeline.Value
import Idealize.ShloMosaic.Lib.StableHlo.Run
import Idealize.ShloMosaic.Lib.Tactic
import Idealize.ShloMosaic.PureOps.Ideal.Laws
import proofs.«116376_j32444182954666_2_alg».proof.Proof.Spec
import proofs.«116376_j32444182954666_2_alg».proof.Proof.Region0
import proofs.«116376_j32444182954666_2_alg».proof.Proof.LibRowLayout
set_option maxRecDepth 16384

noncomputable section

open Idealize.ShloMosaic Idealize.ShloMosaic.TcCoe Idealize.SL.Sem Idealize.ShloMosaic.StableHlo
open Idealize.ShloMosaic.Pipeline (Dat)

namespace Cert.PoolGcn.Chain
open Cert.KernelIdeal Cert.KernelIdeal.Gen Cert.PoolGcn Cert.PoolGcn.Region0 Idealize.ShloMosaic.ValueIdx

variable (m : (ℓ : Loc nD τ sig) → Buf (Elt Ideal) ℓ) (ρ : Dev nD → PrngReg)

/-- Row p of the flattened image is pixel (p / 256, p % 256). -/
theorem V1_x (c : Dev nD) (p : Fin 65536) (b : Fin 200) :
    (V1 m ρ c main_v0 : S65536x200.Idx → EReal) (ix2 p b)
      = (m ((c : Thread nD τ).loc main_arg0) : S256x256x200.Idx → EReal) (ix3 (prow p) (pcol p) b) := by
  show StableHlo.after hostOps0 (W0 m ρ c) (Proc.devRef .tc main_v0) (ix2 p b) = _
  after_results
  exact shapeCast_apply _ shapeCasts_S256x256x200_S65536x200 (ix2 p b) (ix3 (prow p) (pcol p) b)
    (by rewrite [Shape.rowMajor_val_three, Shape.rowMajor_val_two]; have := p.isLt; have := b.isLt
        show (p.val / 256 * 256 + p.val % 256) * 200 + b.val = p.val * 200 + b.val; omega)

theorem V1_g0 (c : Dev nD) (q : Fin 200) :
    (V1 m ρ c main_v1 : S1x200.Idx → EReal) (ix2 0 q) = (m ((c : Thread nD τ).loc main_arg3) : S200.Idx → EReal) (ix1 q) := by
  show StableHlo.after hostOps0 (W0 m ρ c) (Proc.devRef .tc main_v1) (ix2 0 q) = _
  after_results
  exact Cert.Lib.vecToRow_apply _ _ q

theorem V1_b0 (c : Dev nD) (q : Fin 200) :
    (V1 m ρ c main_v2 : S1x200.Idx → EReal) (ix2 0 q) = (m ((c : Thread nD τ).loc main_arg4) : S200.Idx → EReal) (ix1 q) := by
  show StableHlo.after hostOps0 (W0 m ρ c) (Proc.devRef .tc main_v2) (ix2 0 q) = _
  after_results
  exact Cert.Lib.vecToRow_apply _ _ q

theorem V1_b1 (c : Dev nD) (q : Fin 128) :
    (V1 m ρ c main_v3 : S1x128.Idx → EReal) (ix2 0 q) = (m ((c : Thread nD τ).loc main_arg6) : S128.Idx → EReal) (ix1 q) := by
  show StableHlo.after hostOps0 (W0 m ρ c) (Proc.devRef .tc main_v3) (ix2 0 q) = _
  after_results
  exact Cert.Lib.vecToRow_apply _ _ q

theorem V1_g1 (c : Dev nD) (q : Fin 128) :
    (V1 m ρ c main_v4 : S1x128.Idx → EReal) (ix2 0 q) = (m ((c : Thread nD τ).loc main_arg7) : S128.Idx → EReal) (ix1 q) := by
  show StableHlo.after hostOps0 (W0 m ρ c) (Proc.devRef .tc main_v4) (ix2 0 q) = _
  after_results
  exact Cert.Lib.vecToRow_apply _ _ q

theorem V1_c1 (c : Dev nD) (q : Fin 128) :
    (V1 m ρ c main_v5 : S1x128.Idx → EReal) (ix2 0 q) = (m ((c : Thread nD τ).loc main_arg8) : S128.Idx → EReal) (ix1 q) := by
  show StableHlo.after hostOps0 (W0 m ρ c) (Proc.devRef .tc main_v5) (ix2 0 q) = _
  after_results
  exact Cert.Lib.vecToRow_apply _ _ q

theorem V1_b2 (c : Dev nD) (q : Fin 128) :
    (V1 m ρ c main_v6 : S1x128.Idx → EReal) (ix2 0 q) = (m ((c : Thread nD τ).loc main_arg10) : S128.Idx → EReal) (ix1 q) := by
  show StableHlo.after hostOps0 (W0 m ρ c) (Proc.devRef .tc main_v6) (ix2 0 q) = _
  after_results
  exact Cert.Lib.vecToRow_apply _ _ q

theorem V1_main_arg5 (c : Dev nD) : (V1 m ρ c main_arg5 : S200x128.Idx → EReal) = m ((c : Thread nD τ).loc main_arg5) := by
  show StableHlo.after hostOps0 (W0 m ρ c) (Proc.devRef .tc main_arg5) = _
  after_results

theorem V1_main_arg9 (c : Dev nD) : (V1 m ρ c main_arg9 : S128x128.Idx → EReal) = m ((c : Thread nD τ).loc main_arg9) := by
  show StableHlo.after hostOps0 (W0 m ρ c) (Proc.devRef .tc main_arg9) = _
  after_results

theorem V1_main_arg1 (c : Dev nD) : (V1 m ρ c main_arg1 : S65536x1024.Idx → EReal) = m ((c : Thread nD τ).loc main_arg1) := by
  show StableHlo.after hostOps0 (W0 m ρ c) (Proc.devRef .tc main_arg1) = _
  after_results

theorem V1_main_arg2 (c : Dev nD) : (V1 m ρ c main_arg2 : S1024x1024.Idx → EReal) = m ((c : Thread nD τ).loc main_arg2) := by
  show StableHlo.after hostOps0 (W0 m ρ c) (Proc.devRef .tc main_arg2) = _
  after_results

/-- The features the pooling region computes for pixel row p are the specification's. -/
theorem Zr_eq (c : Dev nD) (p : Fin 65536) (e : Fin 128) :
    Zr (V1 m ρ) c p e = xf (m ((c : Thread nD τ).loc main_arg0)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) p e := by
  unfold Zr zrow xf hidden scaled
  rw [V1_b2]
  refine congrArg lrelu (congrArg (· + _) (Finset.sum_congr rfl fun k _ => ?_))
  rw [V1_g1, V1_c1, V1_b1, V1_main_arg9]
  refine congrArg (· * _) (congrArg (· + _) (congrArg _ (congrArg lrelu (congrArg (· + _) (Finset.sum_congr rfl fun b _ => ?_)))))
  rw [V1_g0, V1_b0, V1_x, V1_main_arg5]

end Cert.PoolGcn.Chain
end
-- ==== Proof.LibRealCollapse.lean ====
/-
  The algebra of a two-layer graph convolution on the extended reals. Independent of any program.

  A layer aggregates, at node n, the rows of a feature matrix at the sources of the edges that end in n, each
  row scaled by a per-source weight; the aggregate is scaled by a per-node weight and multiplied by a dense weight
  matrix. Multiplying by the weight matrix BEFORE aggregating gives the same result, because the product is linear in
  the rows: for real entries
      ((Σ_e (Σ_k h e k · W k) · a e) · c = Σ_k ((Σ_e h e k · a e) · c) · W k.
  On the extended reals distributivity fails at the infinities, so the law is stated for entries that are real
  numbers; the predicate `IsReal` and its closure under the operations a layer uses say which entries are.
-/
import Mathlib.Data.EReal.Basic
import Mathlib.Data.EReal.Operations
import Mathlib.Algebra.BigOperators.Ring.Finset
import Mathlib.Algebra.BigOperators.Group.Finset.Sigma
import Mathlib.Tactic.Ring

noncomputable section

namespace Cert.Gcn

open Finset

/-- An extended real that is a real number. -/
def IsReal (v : EReal) : Prop := ∃ r : ℝ, v = (r : EReal)

theorem isReal_coe (r : ℝ) : IsReal (r : EReal) := ⟨r, rfl⟩
theorem isReal_zero : IsReal (0 : EReal) := ⟨0, rfl⟩
theorem isReal_one : IsReal (1 : EReal) := ⟨1, rfl⟩

theorem IsReal.add {u v : EReal} (hu : IsReal u) (hv : IsReal v) : IsReal (u + v) := by
  obtain ⟨a, rfl⟩ := hu; obtain ⟨b, rfl⟩ := hv
  exact ⟨a + b, (EReal.coe_add a b).symm⟩

theorem IsReal.mul {u v : EReal} (hu : IsReal u) (hv : IsReal v) : IsReal (u * v) := by
  obtain ⟨a, rfl⟩ := hu; obtain ⟨b, rfl⟩ := hv
  exact ⟨a * b, (EReal.coe_mul a b).symm⟩

theorem IsReal.max {u v : EReal} (hu : IsReal u) (hv : IsReal v) : IsReal (max u v) := by
  rcases max_choice u v with h | h <;> rw [h] <;> assumption

theorem IsReal.sum {ι : Type} (s : Finset ι) (f : ι → EReal) (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The dense weight commutes with the weighted aggregation, over the reals. -/
theorem collapse_real {ι κ : Type} [Fintype κ] (S : Finset ι) (h : ι → κ → ℝ) (a : ι → ℝ) (W : κ → ℝ) (c : ℝ) :
    (∑ e ∈ S, (∑ k, h e k * W k) * a e) * c = ∑ k, ((∑ e ∈ S, h e k * a e) * c) * W k := by
  simp only [Finset.sum_mul]
  rw [Finset.sum_comm]
  exact Finset.sum_congr rfl fun k _ => Finset.sum_congr rfl fun e _ => by ring

/-- The same on the extended reals, for entries that are real numbers: the node's result with the weight applied
    before the aggregation equals the result with the weight applied after it; the bias `b` is any extended real. -/
theorem collapse {ι κ : Type} [Fintype κ] (S : Finset ι) (h : ι → κ → EReal) (a : ι → EReal) (W : κ → EReal) (c b : EReal)
    (hh : ∀ e k, IsReal (h e k)) (ha : ∀ e, IsReal (a e)) (hW : ∀ k, IsReal (W k)) (hc : IsReal c) :
    (∑ e ∈ S, (∑ k, h e k * W k) * a e) * c + b = (∑ k, ((∑ e ∈ S, h e k * a e) * c) * W k) + b := by
  choose h' hh' using hh
  choose a' ha' using ha
  choose W' hW' using hW
  obtain ⟨c', rfl⟩ := hc
  refine congrArg (· + b) ?_
  simp only [hh', ha', hW', ← EReal.coe_mul, ← coe_sum]
  exact congrArg _ (collapse_real S h' a' W' c')

end Cert.Gcn

end
-- ==== Proof.PoolAlgebra.lean ====
/-
  The algebra that joins the two programs.

  Dividing a finite weighted sum of real numbers by a nonzero real c equals summing with every weight divided
  by c first: over the extended reals division by a nonzero real is multiplication by its inverse, and a real
  factor moves out of a finite sum of reals (`pool_eq`).  It fails at c = 0 and at infinite entries, which is
  why the statement asks for finite inputs and a nonzero column sum.

  A sum over the 65536 pixels, accumulated separately over the two halves of the image, is the sum of the two
  partial sums (`sum_two_halves`).  The leaky rectifier of a real number is a real number (`lrelu_real`).
-/
import proofs.«116376_j32444182954666_2_alg».proof.Proof.Spec
import proofs.«116376_j32444182954666_2_alg».proof.Proof.LibRealCollapse
import Idealize.ShloMosaic.PureOps.Ideal.Laws
import Mathlib.Algebra.BigOperators.Fin
import Mathlib.Algebra.BigOperators.Intervals

noncomputable section

namespace Cert.PoolGcn

open Idealize.ShloMosaic Idealize.ShloMosaic.ValueIdx Cert.Gcn Finset

/-- The rectifier's slope is a real number. -/
theorem isReal_slope : IsReal slope := by
  unfold IsReal
  simp only [Ideal.ofBits, Ideal.ieee]
  simp
  exact (isReal_coe _).mul (isReal_coe _)

/-- The rectifier of a real number is a real number. -/
theorem lrelu_real {v : EReal} (hv : IsReal v) : IsReal (lrelu v) := by
  unfold lrelu Scalar.select
  split
  · exact hv
  · exact isReal_slope.mul hv

/-- The pixel features of real inputs are real numbers: they are built from sums, products and the rectifier. -/
theorem xf_real (x : A3 256 256 200) (g0 b0 : A1 200) (w1 : A2 200 128) (b1 g1 c1 : A1 128) (w2 : A2 128 128) (b2 : A1 128)
    (hx : ∀ i, IsReal (x i)) (hg0 : ∀ i, IsReal (g0 i)) (hb0 : ∀ i, IsReal (b0 i)) (hw1 : ∀ i, IsReal (w1 i))
    (hb1 : ∀ i, IsReal (b1 i)) (hg1 : ∀ i, IsReal (g1 i)) (hc1 : ∀ i, IsReal (c1 i)) (hw2 : ∀ i, IsReal (w2 i))
    (hb2 : ∀ i, IsReal (b2 i)) (p : Fin 65536) (e : Fin 128) : IsReal (xf x g0 b0 w1 b1 g1 c1 w2 b2 p e) := by
  unfold xf hidden scaled
  exact lrelu_real (IsReal.add (IsReal.sum _ _ fun d _ => IsReal.mul (IsReal.add (IsReal.mul (hg1 _)
    (lrelu_real (IsReal.add (IsReal.sum _ _ fun b _ => IsReal.mul (IsReal.add (IsReal.mul (hg0 _) (hx _)) (hb0 _)) (hw1 _)) (hb1 _))))
    (hc1 _)) (hw2 _)) (hb2 _))

/-- Dividing the weighted sum by the column sum, or every weight first: the same pooled value, for real
    entries and a nonzero column sum. -/
theorem pool_eq (Q : A2 65536 1024) (z : Fin 65536 → Fin 128 → EReal) (n : Fin 1024) (d : Fin 128)
    (hQ : ∀ p, IsReal (Q (ix2 p n))) (hz : ∀ p, IsReal (z p d)) (hc : colsum Q n ≠ 0) :
    poolAfter Q z n d = poolBefore Q z n d := by
  choose q hq using hQ
  choose y hy using hz
  have hcs : colsum Q n = ((∑ p, q p : ℝ) : EReal) := by
    unfold colsum; rw [coe_sum]; exact Finset.sum_congr rfl (fun p _ => hq p)
  have hcr : (∑ p, q p : ℝ) ≠ 0 := fun h => hc (by rw [hcs, h]; rfl)
  unfold poolAfter poolBefore
  rw [hcs]
  simp only [Ideal.div_coe hcr, hq, hy, ← EReal.coe_mul]
  rw [← coe_sum, ← coe_sum, ← EReal.coe_mul]
  refine congrArg (fun r : ℝ => (r : EReal)) ?_
  rw [Finset.sum_mul]
  exact Finset.sum_congr rfl (fun p _ => by ring)

/-- A sum over all pixels is the sum over the first half plus the sum over the second half. -/
theorem sum_two_halves {M : Type*} [AddCommMonoid M] (f : ℕ → M) :
    (∑ c : Fin 2, ∑ k ∈ range 32768, f (32768 * c.val + k)) = ∑ p : Fin 65536, f p.val := by
  rw [Fin.sum_univ_two, ← Finset.sum_range (fun p => f p), show (65536 : ℕ) = 32768 + 32768 from rfl,
    Finset.sum_range_add]
  simp

end Cert.PoolGcn

end
-- ==== Proof.HostPool.lean ====
/-
  The host operations between the pixel kernel and the graph-convolution kernel, read at one index: the two cores'
  partial sums are added and the pooled sums divided by the column sums.
-/
import proofs.«116376_j32444182954666_2_alg».proof.Proof.KerLib

noncomputable section

namespace Cert.PoolGcn.Ker

open Cert.KernelIdeal Cert.KernelIdeal.Gen Cert.PoolGcn Idealize.ShloMosaic Idealize.ShloMosaic.ValueIdx

/-- The host's sum over the two cores' partial column sums, at column n: the init word is zero, and the reduced index
    with the core coordinate put back is (core, 0, n). -/
theorem colParts_apply (A10 : (⟨S2x1x1024, .f32⟩ : BufTy).Contents (Elt Ideal)) (u : Fin 1) (n : Fin 1024) :
    Host.reduceAdd A10 (constant (F := Ideal) S_ .f32 0x00000000#32) reducesTo_S2x1x1024_S1x1024_d0 h_S_ (ix2 u n)
      = ∑ c' : Fin 2, A10 (ix3 c' 0 n) := by
  obtain rfl : u = 0 := Subsingleton.elim _ _
  simp only [Host.reduceAdd, Ideal.hostReduceAdd_def]
  rw [Ideal.hostReduceAdd_single reducesTo_S2x1x1024_S1x1024_d0 (by decide), constant_apply, Ideal.ofBits_zero_f32, zero_add]
  refine Finset.sum_congr rfl fun k _ => congrArg A10 (funext fun a => Fin.ext ?_)
  match a with
  | ⟨0, _⟩ => rfl
  | ⟨1, _⟩ => rfl
  | ⟨2, _⟩ => rfl

/-- The host's sum over the two cores' partial pooled sums, at (n, d). -/
theorem poolParts_apply (A11 : (⟨S2x1024x128, .f32⟩ : BufTy).Contents (Elt Ideal)) (n : Fin 1024) (d : Fin 128) :
    Host.reduceAdd A11 (constant (F := Ideal) S_ .f32 0x00000000#32) reducesTo_S2x1024x128_S1024x128_d0 h_S_ (ix2 n d)
      = ∑ c' : Fin 2, A11 (ix3 c' n d) := by
  simp only [Host.reduceAdd, Ideal.hostReduceAdd_def]
  rw [Ideal.hostReduceAdd_single reducesTo_S2x1024x128_S1024x128_d0 (by decide), constant_apply, Ideal.ofBits_zero_f32, zero_add]
  refine Finset.sum_congr rfl fun k _ => congrArg A11 (funext fun a => Fin.ext ?_)
  match a with
  | ⟨0, _⟩ => rfl
  | ⟨1, _⟩ => rfl
  | ⟨2, _⟩ => rfl

/-- The pooled features the host forms between the two kernels, at node n and feature d: the two cores' partial pooled
    sums added, divided by the two cores' partial column sums added — the column sums turned into a column and
    repeated along the features. -/
theorem hostPool_apply (A10 : (⟨S2x1x1024, .f32⟩ : BufTy).Contents (Elt Ideal)) (A11 : (⟨S2x1024x128, .f32⟩ : BufTy).Contents (Elt Ideal))
    (n : Fin 1024) (d : Fin 128) :
    Host.divf (F := Ideal) (Host.reduceAdd A11 (constant S_ .f32 0x00000000#32) reducesTo_S2x1024x128_S1024x128_d0 h_S_)
        (broadcastInDim S1024x128 ![0, 1] bcast_S1024x1_S1024x128_0_1
          (transpose S1024x1 [1, 0] (Host.reduceAdd A10 (constant S_ .f32 0x00000000#32) reducesTo_S2x1x1024_S1x1024_d0 h_S_)
            transposes_S1x1024_S1024x1_1_0)) (ix2 n d)
      = Ideal.div (∑ c' : Fin 2, A11 (ix3 c' n d)) (∑ c' : Fin 2, A10 (ix3 c' 0 n)) := by
  show Ideal.div _ _ = _
  rw [poolParts_apply A11 n d]
  refine congrArg (Ideal.div _) ?_
  refine (broadcastInDim_apply _ bcast_S1024x1_S1024x128_0_1 _ (ix2 n d) (ix2 n (0 : Fin 1)) (fun a => match a with
    | ⟨0, _⟩ => by show n.val = if (1024 : Nat) = 1 then 0 else n.val; rw [if_neg (by decide)]
    | ⟨1, _⟩ => by show 0 = if (1 : Nat) = 1 then 0 else d.val; rw [if_pos rfl])).trans ?_
  refine (transpose_apply [1, 0] _ transposes_S1x1024_S1024x1_1_0 (ix2 n (0 : Fin 1)) (ix2 (0 : Fin 1) n) (fun b => match b with
    | ⟨0, _⟩ => rfl
    | ⟨1, _⟩ => rfl)).trans ?_
  exact colParts_apply A10 0 n

end Cert.PoolGcn.Ker

end
-- ==== Proof.Hosts.lean ====
/-
  What the graph region finds: the pooled features and the normalised adjacency.  The host operations between
  the two regions add the two cores' partial sums, transpose the column sums into a column, broadcast it and
  divide: entry (n, d) is the weighted sum over ALL pixels divided by the column sum over all pixels — the two
  halves of the pixel range concatenate —, the specification's pooling with the division after the sum.  The
  adjacency is normalised by the same host operations as in the reference.
-/
import proofs.«116376_j32444182954666_2_alg».proof.Proof.Gen.KernelIdeal.Frame
import Idealize.ShloMosaic.Lib.Pipeline.Value
import Idealize.ShloMosaic.Lib.StableHlo.Run
import Idealize.ShloMosaic.Lib.Tactic
import Idealize.ShloMosaic.PureOps.Ideal.Laws
import proofs.«116376_j32444182954666_2_alg».proof.Proof.Spec
import proofs.«116376_j32444182954666_2_alg».proof.Proof.Region0
import proofs.«116376_j32444182954666_2_alg».proof.Proof.Entry
import proofs.«116376_j32444182954666_2_alg».proof.Proof.PoolAlgebra
import proofs.«116376_j32444182954666_2_alg».proof.Proof.HostPool
import proofs.«116376_j32444182954666_2_alg».proof.Proof.Gen.ReferenceIdeal.Read
set_option maxRecDepth 16384

noncomputable section

open Idealize.ShloMosaic Idealize.ShloMosaic.TcCoe Idealize.SL.Sem Idealize.ShloMosaic.StableHlo
open Idealize.ShloMosaic.Pipeline (Dat)

namespace Cert.PoolGcn.Chain
open Cert.KernelIdeal Cert.KernelIdeal.Gen Cert.PoolGcn Cert.PoolGcn.Region0 Idealize.ShloMosaic.ValueIdx

variable (m : (ℓ : Loc nD τ sig) → Buf (Elt Ideal) ℓ) (ρ : Dev nD → PrngReg)

/-- The specification's features of the launch arrays. -/
abbrev feat (c : Dev nD) : Fin 65536 → Fin 128 → EReal :=
  xf (m ((c : Thread nD τ).loc main_arg0)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))

theorem Qn_val (c : Dev nD) (p : Fin 65536) (n : Fin 1024) :
    Qn (V1 m ρ) c p.val n = (m ((c : Thread nD τ).loc main_arg1) : S65536x1024.Idx → EReal) (ix2 p n) := by
  unfold Qn
  rw [dif_pos p.isLt, V1_main_arg1]

theorem Zn_val (c : Dev nD) (p : Fin 65536) (d : Fin 128) : Zn (V1 m ρ) c p.val d = feat m c p d := by
  unfold Zn
  rw [dif_pos p.isLt]
  exact Zr_eq m ρ c p d

/-- The two arrays the pooling region leaves, as the next host operations find them. -/
theorem W2_colsums (c : Dev nD) : (W2 m ρ c (Proc.devRef .tc main_v7_0) : S2x1x1024.Idx → EReal) = G10 (V1 m ρ) c :=
  (W2_arr m ρ c 10).trans (colsums (V1 m ρ) c)
theorem W2_wsums (c : Dev nD) : (W2 m ρ c (Proc.devRef .tc main_v7_1) : S2x1024x128.Idx → EReal) = G11 (V1 m ρ) c :=
  (W2_arr m ρ c 11).trans (wsums (V1 m ρ) c)
theorem W2_adj (c : Dev nD) : (W2 m ρ c (Proc.devRef .tc main_arg2) : S1024x1024.Idx → EReal) = m ((c : Thread nD τ).loc main_arg2) :=
  (W2_of_ne m ρ c main_arg2 (by decide)).trans (V1_main_arg2 m ρ c)

/-- The pooled features the graph region finds. -/
theorem V3_pooled (c : Dev nD) (n : Fin 1024) (d : Fin 128) :
    (V3 m ρ c main_v12 : S1024x128.Idx → EReal) (ix2 n d) = poolAfter (m ((c : Thread nD τ).loc main_arg1)) (feat m c) n d := by
  show StableHlo.after hostOps1 (W2 m ρ c) (Proc.devRef .tc main_v12) (ix2 n d) = _
  after_results
  rw [W2_colsums, W2_wsums, Ker.hostPool_apply]
  unfold poolAfter colsum
  refine congrArg₂ Ideal.div ?_ ?_
  · have h1 : ∀ c' : Fin 2, G11 (V1 m ρ) c (ix3 c' n d)
        = ∑ k ∈ Finset.range 32768, Qn (V1 m ρ) c (32768 * c'.val + k) n * Zn (V1 m ρ) c (32768 * c'.val + k) d :=
      fun c' => G11_at (V1 m ρ) c (ix3 c' n d) c'.val n d rfl rfl rfl
    simp only [h1]
    rw [sum_two_halves (fun k => Qn (V1 m ρ) c k n * Zn (V1 m ρ) c k d)]
    exact Finset.sum_congr rfl fun p _ => by rw [Qn_val, Zn_val]
  · have h1 : ∀ c' : Fin 2, G10 (V1 m ρ) c (ix3 c' 0 n) = ∑ k ∈ Finset.range 32768, Qn (V1 m ρ) c (32768 * c'.val + k) n :=
      fun c' => G10_at (V1 m ρ) c (ix3 c' 0 n) c'.val n rfl rfl
    simp only [h1]
    rw [sum_two_halves (fun k => Qn (V1 m ρ) c k n)]
    exact Finset.sum_congr rfl fun p _ => by rw [Qn_val]

/-- The normalised adjacency the graph region finds is the reference's. -/
theorem V3_gn (c : Dev nD) :
    (V3 m ρ c main_v28 : S1024x1024.Idx → EReal) = Cert.ReferenceIdeal.Read.val_main_v52 (F := Ideal) (m ((c : Thread nD τ).loc main_arg2)) := by
  show StableHlo.after hostOps1 (W2 m ρ c) (Proc.devRef .tc main_v28) = _
  after_results_simp
  rw [W2_adj]
  rfl

end Cert.PoolGcn.Chain
end
-- ==== Proof.KerWrite.lean ====
/-
  The write-back kernel's body at one index: the block it stores is the assignment block times the node features.
-/
import proofs.«116376_j32444182954666_2_alg».proof.Proof.KerLib
import proofs.«116376_j32444182954666_2_alg».proof.Proof.Spec

noncomputable section

namespace Cert.PoolGcn.Ker

open Cert.KernelIdeal Cert.KernelIdeal.Gen Cert.PoolGcn Idealize.ShloMosaic Idealize.ShloMosaic.ValueIdx

/-- What the write-back body leaves in its output block, at (r, d): the sum over the 1024 nodes n of the assignment
    block's entry (r, n) times the node features' entry (n, d). The body's one store covers the block, its loads read
    the whole input blocks, and the narrowing of both operands is the identity on extended reals. -/
theorem out2_2_apply (x0 : Vec Ideal S2048x1024 .f32) (x1 : Vec Ideal S1024x128 .f32) (r : Fin 2048) (d : Fin 128) :
    out2_2 (F := Ideal) x0 x1 (ix2 r d) = ∑ n : Fin 1024, x0 (ix2 r n) * x1 (ix2 n d) := by
  unfold out2_2
  rw [View.canon_unit_zero off2_zero]
  simp only [View.ld_unit_zero (S := S2048x1024) off2_zero, View.ld_unit_zero (S := S1024x128) off2_zero]
  unfold k2_pay1
  simp only [shapeCast_self]
  exact matmul_rows_cols dot_S2048x1024_S1024x128_S2048x128_1_0_0_1_n_n rfl rfl rfl rfl rfl rfl none _ _ r d

end Cert.PoolGcn.Ker

end
-- ==== Proof.KerGcn.lean ====
/-
  The graph-convolution kernel's body at one index: its stored block is the specification's three layers applied to
  the input block of node features.
-/
import proofs.«116376_j32444182954666_2_alg».proof.Proof.KerLib

noncomputable section

namespace Cert.PoolGcn.Ker

open Cert.KernelIdeal Cert.KernelIdeal.Gen Cert.PoolGcn Idealize.ShloMosaic Idealize.ShloMosaic.ValueIdx

/-- Row `o` of a [3, 128] array, laid over 1024 rows: the row is cut out, flattened, given back its unit axis and
    repeated. -/
def rowB (o : Nat) (hs : S3x128.Slices ![o, 0] S1x128) (X : Vec Ideal S3x128 .f32) : FVec Ideal S1024x128 .f32 :=
  broadcastTo S1024x128 (shapeCast S1x128 (shapeCast S128 (extractStridedSlice S1x128 ![o, 0] X hs)
    Gen.shapeCasts_S1x128_S128) Gen.shapeCasts_S128_S1x128) Gen.broadcasts_S1x128_S1024x128

/-- It reads, at (n, d), the array at (l, d), l the row. -/
theorem rowB_apply (o : Nat) (hs : S3x128.Slices ![o, 0] S1x128) (X : Vec Ideal S3x128 .f32) (l : Fin 3) (hl : l.val = o)
    (n : Fin 1024) (d : Fin 128) : rowB o hs X (ix2 n d) = X (ix2 l d) := by
  unfold rowB
  rw [broadcastTo_1b_ab_apply, shapeCast_a_1a_apply, shapeCast_1a_a_apply]
  exact slice2_axis0_apply o X hs 0 d l (by rw [hl]; rfl)

/-- Slab `o` of a [3, 128, 128] array as a matrix. -/
def slabM (o : Nat) (hs3 : S3x128x128.Slices ![o, 0, 0] S1x128x128) (W : Vec Ideal S3x128x128 .f32) : FVec Ideal S128x128 .f32 :=
  shapeCast S128x128 (extractStridedSlice S1x128x128 ![o, 0, 0] W hs3) Gen.shapeCasts_S1x128x128_S128x128

/-- It reads, at (d, e), the array at (l, d, e), l the slab. -/
theorem slabM_apply (o : Nat) (hs3 : S3x128x128.Slices ![o, 0, 0] S1x128x128) (W : Vec Ideal S3x128x128 .f32) (l : Fin 3)
    (hl : l.val = o) (d e : Fin 128) : slabM o hs3 W (ix2 d e) = W (ix3 l d e) := by
  unfold slabM
  rw [shapeCast_1ab_ab_apply]
  refine extractStridedSlice_apply _ W hs3 _ (ix3 l d e) fun ax => ?_
  match ax with
  | ⟨0, _⟩ => exact hl.trans (Nat.add_zero o).symm
  | ⟨1, _⟩ => exact (Nat.zero_add _).symm
  | ⟨2, _⟩ => exact (Nat.zero_add _).symm

/-- One graph-convolution layer as the kernel computes it on a block H of node features, with row and slab `o` of the
    parameter arrays: rescale (g ⊙ H + c), multiply by the adjacency on the left, by the weight slab on the right, add
    the bias row, rectify. -/
def layerV (o : Nat) (hs : S3x128.Slices ![o, 0] S1x128) (hs3 : S3x128x128.Slices ![o, 0, 0] S1x128x128)
    (A : FVec Ideal S1024x1024 .bf16) (x2 x3 : Vec Ideal S3x128 .f32) (x4 : Vec Ideal S3x128x128 .f32)
    (x5 : Vec Ideal S3x128 .f32) (H : FVec Ideal S1024x128 .f32) : FVec Ideal S1024x128 .f32 :=
  have Z : FVec Ideal S1024x128 .f32 :=
    addf (matmul dot_S1024x128_S128x128_S1024x128_1_0_0_1_n_n none
      (truncf .bf16 (matmul dot_S1024x1024_S1024x128_S1024x128_1_0_0_1_n_n none A
        (truncf .bf16 (addf (mulf (rowB o hs x2) H) (rowB o hs x3)) Gen.bitsLt_bf16_f32)
        (constant S1024x128 .f32 0x00000000#32)) Gen.bitsLt_bf16_f32)
      (truncf .bf16 (slabM o hs3 x4) Gen.bitsLt_bf16_f32)
      (constant S1024x128 .f32 0x00000000#32)) (rowB o hs x5)
  select (cmpf .ogt Z (broadcast S1024x128 (Scalar.ofBits (F := Ideal) .f32 0x00000000#32))) Z
    (mulf (broadcast S1024x128 (Scalar.ofBits (F := Ideal) .f32 0x3C23D70A#32)) Z)

/-- The kernel's layer at node n and feature e is the specification's layer l on the block's features: the two
    products are sums over the 1024 nodes and the 128 features, the parameter rows and the slab are read at l, and the
    narrowings are the identity on extended reals. -/
theorem layerV_apply (o : Nat) (hs : S3x128.Slices ![o, 0] S1x128) (hs3 : S3x128x128.Slices ![o, 0, 0] S1x128x128)
    (x1 : Vec Ideal S1024x1024 .f32) (x2 x3 : Vec Ideal S3x128 .f32) (x4 : Vec Ideal S3x128x128 .f32)
    (x5 : Vec Ideal S3x128 .f32) (H : FVec Ideal S1024x128 .f32) (l : Fin 3) (hl : l.val = o) (n : Fin 1024) (e : Fin 128) :
    layerV o hs hs3 (k1_pay1 x1) x2 x3 x4 x5 H (ix2 n e)
      = gcnLayer x1 x2 x3 x4 x5 l (fun k d => H (ix2 k d)) n e := by
  unfold layerV gcnLayer
  simp only [lrelu_read, addf_apply, matmul]
  rw [matmul_rows_cols dot_S1024x128_S128x128_S1024x128_1_0_0_1_n_n rfl rfl rfl rfl rfl rfl, rowB_apply o hs x5 l hl]
  refine congrArg (fun t => lrelu (t + x5 (ix2 l e))) (Finset.sum_congr rfl fun d _ => ?_)
  simp only [truncf_apply]
  rw [matmul_rows_cols dot_S1024x1024_S1024x128_S1024x128_1_0_0_1_n_n rfl rfl rfl rfl rfl rfl, slabM_apply o hs3 x4 l hl]
  refine congrArg (fun t => t * x4 (ix3 l d e)) (Finset.sum_congr rfl fun k _ => ?_)
  unfold k1_pay1
  simp only [truncf_apply, addf_apply, mulf_apply, shapeCast_self]
  rw [rowB_apply o hs x2 l hl, rowB_apply o hs x3 l hl]

/-- What the graph-convolution body leaves in its output block, at node n and feature e: the three layers of the
    specification applied to the input block's features. The body's one store covers the block and its loads read the
    whole input blocks; its payload is the kernel's layer taken three times, with rows and slabs 0, 1, 2 of the
    parameter arrays. -/
theorem out1_6_apply (x0 : Vec Ideal S1024x128 .f32) (x1 : Vec Ideal S1024x1024 .f32) (x2 x3 : Vec Ideal S3x128 .f32)
    (x4 : Vec Ideal S3x128x128 .f32) (x5 : Vec Ideal S3x128 .f32) (n : Fin 1024) (e : Fin 128) :
    out1_6 (F := Ideal) x0 x1 x2 x3 x4 x5 (ix2 n e) = gcn3 x1 x2 x3 x4 x5 (fun k d => x0 (ix2 k d)) n e := by
  unfold out1_6
  rw [View.canon_unit_zero off2_zero]
  simp only [View.ld_unit_zero (S := S1024x128) off2_zero, View.ld_unit_zero (S := S1024x1024) off2_zero,
    View.ld_unit_zero (S := S3x128) off2_zero, View.ld_unit_zero (S := S3x128x128) off3_zero]
  have h0 : k1_pay2 x0 x1 x2 x3 x4 x5
      = layerV 0 Gen.slices_S3x128_o0_0_S1x128 Gen.slices_S3x128x128_o0_0_0_S1x128x128 (k1_pay1 x1) x2 x3 x4 x5
          (shapeCast S1024x128 x0 Gen.shapeCasts_S1024x128_S1024x128) := rfl
  have h12 : ∀ H : FVec Ideal S1024x128 .f32, k1_pay5 (k1_pay1 x1) x2 x3 x4 x5 H (k1_pay3 x3) (k1_pay4 x2)
      = layerV 2 Gen.slices_S3x128_o2_0_S1x128 Gen.slices_S3x128x128_o2_0_0_S1x128x128 (k1_pay1 x1) x2 x3 x4 x5
          (layerV 1 Gen.slices_S3x128_o1_0_S1x128 Gen.slices_S3x128x128_o1_0_0_S1x128x128 (k1_pay1 x1) x2 x3 x4 x5 H) :=
    fun H => rfl
  rw [h12, h0, shapeCast_self]
  unfold gcn3
  rw [layerV_apply 2 _ _ x1 x2 x3 x4 x5 _ 2 rfl]
  refine congrArg (fun h => gcnLayer x1 x2 x3 x4 x5 2 h n e) (funext fun k => funext fun d => ?_)
  rw [layerV_apply 1 _ _ x1 x2 x3 x4 x5 _ 1 rfl]
  refine congrArg (fun h => gcnLayer x1 x2 x3 x4 x5 1 h k d) (funext fun k' => funext fun d' => ?_)
  exact layerV_apply 0 _ _ x1 x2 x3 x4 x5 _ 0 rfl k' d'

end Cert.PoolGcn.Ker

end
-- ==== Proof.Regions12.lean ====
/-
  The final arrays of the graph-convolution region and of the write-back region, each as one function of the
  arrays the region finds on entry.

  The write-back region runs 32 points; point t reads rows 2048 t … 2048 t + 2047 of the assignment Q and the
  whole array of node features h, and writes back rows 2048 t … 2048 t + 2047 of the result.  What a point writes
  back is its block of the one function (p, d) ↦ ∑ n, Q(p, n) · h(n, d); the 32 blocks of rows cover the result (row
  p lies in the block of point p / 2048), so the result array ends holding that function.

  The graph-convolution region runs one point whose seven blocks are whole arrays, so its result array ends holding
  the three layers applied to the pooled features.
-/
import proofs.«116376_j32444182954666_2_alg».proof.Proof.Gen.KernelIdeal.Frame
import proofs.«116376_j32444182954666_2_alg».proof.Proof.Spec
import proofs.«116376_j32444182954666_2_alg».proof.Proof.KerWrite
import proofs.«116376_j32444182954666_2_alg».proof.Proof.KerGcn
import Idealize.ShloMosaic.Lib.Pipeline.Value

noncomputable section

namespace Cert.PoolGcn.Regions

open Cert.KernelIdeal Cert.KernelIdeal.Gen Cert.PoolGcn
open Idealize.ShloMosaic Idealize.ShloMosaic.TcCoe Idealize.ShloMosaic.ValueIdx
open Idealize.ShloMosaic.Pipeline (Dat)

-- The contents of the core's buffers when a region is entered.
variable (V : (c : Dev nD) → (b : Ref sig .tc) → Buf (Elt Ideal) ((c : Thread nD τ).loc b))

/-! ## The write-back region: 32 points, blocks of 2048 rows -/

/-- The index maps over the grid: the assignment's and the result's block of rows move with the point, the node
    features' block stays. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row r of point t's block of the assignment is row 2048 t + r of the array. -/
theorem blockQ_apply (c : Dev nD) (t : Fin cfg2.N) (r : Fin 2048) (n : Fin 1024) (p : Fin 65536)
    (hp : p.val = t.val * 2048 + r.val) :
    (iblk2 (F := Ideal) V c 0 t : S2048x1024.Idx → EReal) (ix2 r n) = (V c main_arg1 : S65536x1024.Idx → EReal) (ix2 p n) := by
  obtain ⟨e0, e1, -, -, -, -⟩ := idx2 t
  unfold iblk2
  rw [View.read_apply]
  show V c main_arg1 (((cfg2.win 0).blk t).view.emb (ix2 r n)) = V c main_arg1 (ix2 p n)
  congr 1
  funext a
  apply Fin.ext
  match a with
  | ⟨0, _⟩ => show win2_0.index t (0 : Fin 2) * 2048 + 1 * r.val = p.val; omega
  | ⟨1, _⟩ => show win2_0.index t (1 : Fin 2) * 1024 + 1 * n.val = n.val; omega

/-- The node features are read whole at every point. -/
theorem blockH_apply (c : Dev nD) (t : Fin cfg2.N) (n : Fin 1024) (d : Fin 128) :
    (iblk2 (F := Ideal) V c 1 t : S1024x128.Idx → EReal) (ix2 n d) = (V c main_v29 : S1024x128.Idx → EReal) (ix2 n d) := by
  obtain ⟨-, -, e0, e1, -, -⟩ := idx2 t
  unfold iblk2
  rw [View.read_apply]
  show V c main_v29 (((cfg2.win 1).blk t).view.emb (ix2 n d)) = V c main_v29 (ix2 n d)
  congr 1
  funext a
  apply Fin.ext
  match a with
  | ⟨0, _⟩ => show win2_1.index t (0 : Fin 2) * 1024 + 1 * n.val = n.val; omega
  | ⟨1, _⟩ => show win2_1.index t (1 : Fin 2) * 128 + 1 * d.val = d.val; omega

/-- The written-back array as one function of the two operands. -/
abbrev G2 (Q : A2 65536 1024) (h : A2 1024 128) : S65536x128.Idx → EReal := fun i =>
  ∑ n : Fin 1024, Q (ix2 ⟨(i 0).val, (i 0).isLt⟩ n) * h (ix2 n ⟨(i 1).val, (i 1).isLt⟩)

/-- The function at an index whose coordinates are known. -/
theorem G2_at (Q : A2 65536 1024) (h : A2 1024 128) (i : S65536x128.Idx) (p : Fin 65536) (e : Fin 128)
    (hp : (i 0).val = p.val) (he : (i 1).val = e.val) : G2 Q h i = ∑ n : Fin 1024, Q (ix2 p n) * h (ix2 n e) := by
  obtain rfl : (⟨(i 0).val, (i 0).isLt⟩ : Fin 65536) = p := Fin.ext hp
  obtain rfl : (⟨(i 1).val, (i 1).isLt⟩ : Fin 128) = e := Fin.ext he
  rfl

/-- What point t writes back is its block of the one function of the two operands. -/
theorem flushed2_eq (c : Dev nD) (t : Fin cfg2.N) :
    (dat2 (F := Ideal) V c).flushed 2 t = ((cfg2.win 2).blk t).view.read (Elt Ideal) (G2 (V c main_arg1) (V c main_v29)) := by
  show (cfg2.win 2).cut (grid2.coords t) ((dat2 (F := Ideal) V c).after 2 t) = _
  rw [after2_2]
  funext j
  obtain ⟨r, d, rfl⟩ : ∃ (r : Fin 2048) (d : Fin 128), j = ix2 r d := ⟨j 0, j 1, eq_ix2 j⟩
  rw [View.read_apply]
  obtain ⟨-, -, -, -, e0, e1⟩ := idx2 t
  have ht : t.val < 32 := t.isLt
  show out2_2 (F := Ideal) (iblk2 V c 0 t) (iblk2 V c 1 t) (ix2 r d) = G2 (V c main_arg1) (V c main_v29) (((cfg2.win 2).blk t).view.emb (ix2 r d))
  rw [Ker.out2_2_apply, G2_at (V c main_arg1) (V c main_v29) _ ⟨t.val * 2048 + r.val, by omega⟩ d
    (by show win2_2.index t (0 : Fin 2) * 2048 + 1 * r.val = t.val * 2048 + r.val; omega)
    (by show win2_2.index t (1 : Fin 2) * 128 + 1 * d.val = d.val; omega)]
  exact Finset.sum_congr rfl fun n _ => congrArg₂ (· * ·) (blockQ_apply V c t r n _ rfl) (blockH_apply V c t n d)

/-- An index of the result is in point t's block iff each coordinate is in the block's range on its axis. -/
theorem mem_block2 (t : Fin cfg2.N) (i : S65536x128.Idx) :
    i ∈ ((cfg2.win 2).blk t).view.set ↔ ∀ a : Fin 2, win2_2.index t a * S2048x128.size a ≤ (i a).val ∧ (i a).val < win2_2.index t a * S2048x128.size a + S2048x128.size a := by
  show i ∈ ((View.whole main_v30).slice (win2_2.rect t)).set ↔ _
  rw [View.set_slice_whole, Rect.mem_set_unit]
  exact Iff.rfl

/-- Every block of rows is some point's. -/
theorem idx2_onto : ∀ q : Fin 32, ∃ t : Fin cfg2.N, win2_2.index t = ![q.val, 0] :=
  (by decide +kernel : ∀ q : Fin 32, ∃ t : Fin grid2.N, win2_2.index t = ![q.val, 0])

/-- Row p of the result is in the block of point p / 2048. -/
theorem cover2 (i : S65536x128.Idx) : ∃ t : Fin cfg2.N, (cfg2.win 2).flush t = true ∧ i ∈ ((cfg2.win 2).blk t).view.set := by
  have hi0 : (i 0).val < 65536 := (i 0).isLt
  have hi1 : (i 1).val < 128 := (i 1).isLt
  obtain ⟨t, ht⟩ := idx2_onto ⟨(i 0).val / 2048, by omega⟩
  have q0 : win2_2.index t (0 : Fin 2) = (i 0).val / 2048 := congrFun ht 0
  have q1 : win2_2.index t (1 : Fin 2) = 0 := congrFun ht 1
  refine ⟨t, flush2_2 t, ?_⟩
  rw [mem_block2]
  intro a
  match a with
  | ⟨0, _⟩ => show win2_2.index t (0 : Fin 2) * 2048 ≤ (i 0).val ∧ (i 0).val < win2_2.index t (0 : Fin 2) * 2048 + 2048; omega
  | ⟨1, _⟩ => show win2_2.index t (1 : Fin 2) * 128 ≤ (i 1).val ∧ (i 1).val < win2_2.index t (1 : Fin 2) * 128 + 128; omega

/-- The result array after the write-back region, as a function. -/
theorem final2_fun (c : Dev nD) : (dat2 (F := Ideal) V c).arrAt 2 cfg2.N = G2 (V c main_arg1) (V c main_v29) :=
  (dat2 (F := Ideal) V c).arrAt_eq_of_cover 2 (G2 (V c main_arg1) (V c main_v29)) (fun t _ => flushed2_eq V c t) cover2

/-- The result array after the write-back region, entry by entry: the node features written back to the pixels. -/
theorem final2 (c : Dev nD) (p : Fin 65536) (e : Fin 128) :
    ((dat2 (F := Ideal) V c).arrAt 2 cfg2.N : S65536x128.Idx → EReal) (ix2 p e)
      = writeBack (V c main_arg1) (fun n d => V c main_v29 (ix2 n d)) p e := by
  rw [final2_fun V c]
  rfl

/-! ## The graph-convolution region: one point, every block a whole array -/

/-- Every index map of the region is constantly zero. -/
theorem idx1 : ∀ t : Fin cfg1.N, (win1_0.index t (0 : Fin 2) = 0 ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 3) = 0 ∧ win1_4.index t (1 : Fin 3) = 0 ∧ win1_4.index t (2 : Fin 3) = 0)
    ∧ (win1_5.index t (0 : Fin 2) = 0 ∧ win1_5.index t (1 : Fin 2) = 0)
    ∧ (win1_6.index t (0 : Fin 2) = 0 ∧ win1_6.index t (1 : Fin 2) = 0) :=
  (by decide +kernel : ∀ t : Fin grid1.N, _)

/-- The pooled node features are read whole. -/
theorem blockFeat_apply (c : Dev nD) (t : Fin cfg1.N) (a : Fin 1024) (b : Fin 128) :
    (iblk1 (F := Ideal) V c 0 t : S1024x128.Idx → EReal) (ix2 a b) = (V c main_v12 : S1024x128.Idx → EReal) (ix2 a b) := by
  have e0 : win1_0.index t (0 : Fin 2) = 0 := (idx1 t).1.1
  have e1 : win1_0.index t (1 : Fin 2) = 0 := (idx1 t).1.2
  unfold iblk1
  rw [View.read_apply]
  show V c main_v12 (((cfg1.win 0).blk t).view.emb (ix2 a b)) = V c main_v12 (ix2 a b)
  congr 1
  funext x
  apply Fin.ext
  match x with
  | ⟨0, _⟩ => show win1_0.index t (0 : Fin 2) * 1024 + 1 * a.val = a.val; omega
  | ⟨1, _⟩ => show win1_0.index t (1 : Fin 2) * 128 + 1 * b.val = b.val; omega

theorem blockFeat_eq (c : Dev nD) (t : Fin cfg1.N) : (iblk1 (F := Ideal) V c 0 t : A2 1024 128) = V c main_v12 :=
  funext fun j => by
    obtain ⟨a, b, rfl⟩ : ∃ (a : Fin 1024) (b : Fin 128), j = ix2 a b := ⟨j 0, j 1, eq_ix2 j⟩
    exact blockFeat_apply V c t a b

/-- The normalised adjacency is read whole. -/
theorem blockAdj_apply (c : Dev nD) (t : Fin cfg1.N) (a : Fin 1024) (b : Fin 1024) :
    (iblk1 (F := Ideal) V c 1 t : S1024x1024.Idx → EReal) (ix2 a b) = (V c main_v28 : S1024x1024.Idx → EReal) (ix2 a b) := by
  have e0 : win1_1.index t (0 : Fin 2) = 0 := (idx1 t).2.1.1
  have e1 : win1_1.index t (1 : Fin 2) = 0 := (idx1 t).2.1.2
  unfold iblk1
  rw [View.read_apply]
  show V c main_v28 (((cfg1.win 1).blk t).view.emb (ix2 a b)) = V c main_v28 (ix2 a b)
  congr 1
  funext x
  apply Fin.ext
  match x with
  | ⟨0, _⟩ => show win1_1.index t (0 : Fin 2) * 1024 + 1 * a.val = a.val; omega
  | ⟨1, _⟩ => show win1_1.index t (1 : Fin 2) * 1024 + 1 * b.val = b.val; omega

theorem blockAdj_eq (c : Dev nD) (t : Fin cfg1.N) : (iblk1 (F := Ideal) V c 1 t : A2 1024 1024) = V c main_v28 :=
  funext fun j => by
    obtain ⟨a, b, rfl⟩ : ∃ (a : Fin 1024) (b : Fin 1024), j = ix2 a b := ⟨j 0, j 1, eq_ix2 j⟩
    exact blockAdj_apply V c t a b

/-- The layers' scales are read whole. -/
theorem blockScale_apply (c : Dev nD) (t : Fin cfg1.N) (a : Fin 3) (b : Fin 128) :
    (iblk1 (F := Ideal) V c 2 t : S3x128.Idx → EReal) (ix2 a b) = (V c main_arg11 : S3x128.Idx → EReal) (ix2 a b) := by
  have e0 : win1_2.index t (0 : Fin 2) = 0 := (idx1 t).2.2.1.1
  have e1 : win1_2.index t (1 : Fin 2) = 0 := (idx1 t).2.2.1.2
  unfold iblk1
  rw [View.read_apply]
  show V c main_arg11 (((cfg1.win 2).blk t).view.emb (ix2 a b)) = V c main_arg11 (ix2 a b)
  congr 1
  funext x
  apply Fin.ext
  match x with
  | ⟨0, _⟩ => show win1_2.index t (0 : Fin 2) * 3 + 1 * a.val = a.val; omega
  | ⟨1, _⟩ => show win1_2.index t (1 : Fin 2) * 128 + 1 * b.val = b.val; omega

theorem blockScale_eq (c : Dev nD) (t : Fin cfg1.N) : (iblk1 (F := Ideal) V c 2 t : A2 3 128) = V c main_arg11 :=
  funext fun j => by
    obtain ⟨a, b, rfl⟩ : ∃ (a : Fin 3) (b : Fin 128), j = ix2 a b := ⟨j 0, j 1, eq_ix2 j⟩
    exact blockScale_apply V c t a b

/-- The layers' shifts are read whole. -/
theorem blockShift_apply (c : Dev nD) (t : Fin cfg1.N) (a : Fin 3) (b : Fin 128) :
    (iblk1 (F := Ideal) V c 3 t : S3x128.Idx → EReal) (ix2 a b) = (V c main_arg12 : S3x128.Idx → EReal) (ix2 a b) := by
  have e0 : win1_3.index t (0 : Fin 2) = 0 := (idx1 t).2.2.2.1.1
  have e1 : win1_3.index t (1 : Fin 2) = 0 := (idx1 t).2.2.2.1.2
  unfold iblk1
  rw [View.read_apply]
  show V c main_arg12 (((cfg1.win 3).blk t).view.emb (ix2 a b)) = V c main_arg12 (ix2 a b)
  congr 1
  funext x
  apply Fin.ext
  match x with
  | ⟨0, _⟩ => show win1_3.index t (0 : Fin 2) * 3 + 1 * a.val = a.val; omega
  | ⟨1, _⟩ => show win1_3.index t (1 : Fin 2) * 128 + 1 * b.val = b.val; omega

theorem blockShift_eq (c : Dev nD) (t : Fin cfg1.N) : (iblk1 (F := Ideal) V c 3 t : A2 3 128) = V c main_arg12 :=
  funext fun j => by
    obtain ⟨a, b, rfl⟩ : ∃ (a : Fin 3) (b : Fin 128), j = ix2 a b := ⟨j 0, j 1, eq_ix2 j⟩
    exact blockShift_apply V c t a b

/-- The layers' weights are read whole. -/
theorem blockWeight_apply (c : Dev nD) (t : Fin cfg1.N) (l : Fin 3) (d e : Fin 128) :
    (iblk1 (F := Ideal) V c 4 t : S3x128x128.Idx → EReal) (ix3 l d e) = (V c main_arg13 : S3x128x128.Idx → EReal) (ix3 l d e) := by
  obtain ⟨e0, e1, e2⟩ := (idx1 t).2.2.2.2.1
  unfold iblk1
  rw [View.read_apply]
  show V c main_arg13 (((cfg1.win 4).blk t).view.emb (ix3 l d e)) = V c main_arg13 (ix3 l d e)
  congr 1
  funext x
  apply Fin.ext
  match x with
  | ⟨0, _⟩ => show win1_4.index t (0 : Fin 3) * 3 + 1 * l.val = l.val; omega
  | ⟨1, _⟩ => show win1_4.index t (1 : Fin 3) * 128 + 1 * d.val = d.val; omega
  | ⟨2, _⟩ => show win1_4.index t (2 : Fin 3) * 128 + 1 * e.val = e.val; omega

theorem blockWeight_eq (c : Dev nD) (t : Fin cfg1.N) : (iblk1 (F := Ideal) V c 4 t : A3 3 128 128) = V c main_arg13 :=
  funext fun j => by
    obtain ⟨l, d, e, rfl⟩ : ∃ (l : Fin 3) (d e : Fin 128), j = ix3 l d e := ⟨j 0, j 1, j 2, eq_ix3 j⟩
    exact blockWeight_apply V c t l d e

/-- The layers' biases are read whole. -/
theorem blockBias_apply (c : Dev nD) (t : Fin cfg1.N) (a : Fin 3) (b : Fin 128) :
    (iblk1 (F := Ideal) V c 5 t : S3x128.Idx → EReal) (ix2 a b) = (V c main_arg14 : S3x128.Idx → EReal) (ix2 a b) := by
  have e0 : win1_5.index t (0 : Fin 2) = 0 := (idx1 t).2.2.2.2.2.1.1
  have e1 : win1_5.index t (1 : Fin 2) = 0 := (idx1 t).2.2.2.2.2.1.2
  unfold iblk1
  rw [View.read_apply]
  show V c main_arg14 (((cfg1.win 5).blk t).view.emb (ix2 a b)) = V c main_arg14 (ix2 a b)
  congr 1
  funext x
  apply Fin.ext
  match x with
  | ⟨0, _⟩ => show win1_5.index t (0 : Fin 2) * 3 + 1 * a.val = a.val; omega
  | ⟨1, _⟩ => show win1_5.index t (1 : Fin 2) * 128 + 1 * b.val = b.val; omega

theorem blockBias_eq (c : Dev nD) (t : Fin cfg1.N) : (iblk1 (F := Ideal) V c 5 t : A2 3 128) = V c main_arg14 :=
  funext fun j => by
    obtain ⟨a, b, rfl⟩ : ∃ (a : Fin 3) (b : Fin 128), j = ix2 a b := ⟨j 0, j 1, eq_ix2 j⟩
    exact blockBias_apply V c t a b

/-- The region's result array as one function of its six operands. -/
abbrev G1 (gn : A2 1024 1024) (g s : A2 3 128) (w : A3 3 128 128) (bias : A2 3 128) (h : A2 1024 128) : S1024x128.Idx → EReal := fun i =>
  gcn3 gn g s w bias (fun k d => h (ix2 k d)) ⟨(i 0).val, (i 0).isLt⟩ ⟨(i 1).val, (i 1).isLt⟩

/-- The function at an index whose coordinates are known. -/
theorem G1_at (gn : A2 1024 1024) (g s : A2 3 128) (w : A3 3 128 128) (bias : A2 3 128) (h : A2 1024 128) (i : S1024x128.Idx)
    (n : Fin 1024) (e : Fin 128) (hn : (i 0).val = n.val) (he : (i 1).val = e.val) :
    G1 gn g s w bias h i = gcn3 gn g s w bias (fun k d => h (ix2 k d)) n e := by
  obtain rfl : (⟨(i 0).val, (i 0).isLt⟩ : Fin 1024) = n := Fin.ext hn
  obtain rfl : (⟨(i 1).val, (i 1).isLt⟩ : Fin 128) = e := Fin.ext he
  rfl

/-- What the one point writes back is its block of the one function of the six operands. -/
theorem flushed1_eq (c : Dev nD) (t : Fin cfg1.N) :
    (dat1 (F := Ideal) V c).flushed 6 t = ((cfg1.win 6).blk t).view.read (Elt Ideal)
      (G1 (V c main_v28) (V c main_arg11) (V c main_arg12) (V c main_arg13) (V c main_arg14) (V c main_v12)) := by
  show (cfg1.win 6).cut (grid1.coords t) ((dat1 (F := Ideal) V c).after 6 t) = _
  rw [after1_6]
  funext j
  obtain ⟨n, e, rfl⟩ : ∃ (n : Fin 1024) (e : Fin 128), j = ix2 n e := ⟨j 0, j 1, eq_ix2 j⟩
  rw [View.read_apply]
  obtain ⟨e0, e1⟩ := (idx1 t).2.2.2.2.2.2
  show out1_6 (F := Ideal) (iblk1 V c 0 t) (iblk1 V c 1 t) (iblk1 V c 2 t) (iblk1 V c 3 t) (iblk1 V c 4 t) (iblk1 V c 5 t) (ix2 n e)
    = G1 (V c main_v28) (V c main_arg11) (V c main_arg12) (V c main_arg13) (V c main_arg14) (V c main_v12) (((cfg1.win 6).blk t).view.emb (ix2 n e))
  rw [Ker.out1_6_apply, G1_at _ _ _ _ _ _ _ n e
    (by show win1_6.index t (0 : Fin 2) * 1024 + 1 * n.val = n.val; omega)
    (by show win1_6.index t (1 : Fin 2) * 128 + 1 * e.val = e.val; omega)]
  rw [blockFeat_eq V c t, blockAdj_eq V c t, blockScale_eq V c t, blockShift_eq V c t, blockWeight_eq V c t, blockBias_eq V c t]

/-- An index of the result is in point t's block iff each coordinate is in the block's range on its axis. -/
theorem mem_block1 (t : Fin cfg1.N) (i : S1024x128.Idx) :
    i ∈ ((cfg1.win 6).blk t).view.set ↔ ∀ a : Fin 2, win1_6.index t a * S1024x128.size a ≤ (i a).val ∧ (i a).val < win1_6.index t a * S1024x128.size a + S1024x128.size a := by
  show i ∈ ((View.whole main_v29).slice (win1_6.rect t)).set ↔ _
  rw [View.set_slice_whole, Rect.mem_set_unit]
  exact Iff.rfl

/-- The one point's block is the whole result. -/
theorem cover1 (i : S1024x128.Idx) : ∃ t : Fin cfg1.N, (cfg1.win 6).flush t = true ∧ i ∈ ((cfg1.win 6).blk t).view.set := by
  have hi0 : (i 0).val < 1024 := (i 0).isLt
  have hi1 : (i 1).val < 128 := (i 1).isLt
  obtain ⟨e0, e1⟩ := (idx1 t1_0).2.2.2.2.2.2
  refine ⟨t1_0, flush1_6 t1_0, ?_⟩
  rw [mem_block1]
  intro a
  match a with
  | ⟨0, _⟩ => show win1_6.index t1_0 (0 : Fin 2) * 1024 ≤ (i 0).val ∧ (i 0).val < win1_6.index t1_0 (0 : Fin 2) * 1024 + 1024; omega
  | ⟨1, _⟩ => show win1_6.index t1_0 (1 : Fin 2) * 128 ≤ (i 1).val ∧ (i 1).val < win1_6.index t1_0 (1 : Fin 2) * 128 + 128; omega

/-- The result array after the graph-convolution region, as a function. -/
theorem final1_fun (c : Dev nD) : (dat1 (F := Ideal) V c).arrAt 6 cfg1.N
    = G1 (V c main_v28) (V c main_arg11) (V c main_arg12) (V c main_arg13) (V c main_arg14) (V c main_v12) :=
  (dat1 (F := Ideal) V c).arrAt_eq_of_cover 6 (G1 (V c main_v28) (V c main_arg11) (V c main_arg12) (V c main_arg13) (V c main_arg14) (V c main_v12))
    (fun t _ => flushed1_eq V c t) cover1

/-- The result array after the graph-convolution region, entry by entry: the three layers on the pooled features. -/
theorem final1 (c : Dev nD) (n : Fin 1024) (e : Fin 128) :
    ((dat1 (F := Ideal) V c).arrAt 6 cfg1.N : S1024x128.Idx → EReal) (ix2 n e)
      = gcn3 (V c main_v28) (V c main_arg11) (V c main_arg12) (V c main_arg13) (V c main_arg14) (fun k d => V c main_v12 (ix2 k d)) n e := by
  rw [final1_fun V c]

end Cert.PoolGcn.Regions

end
-- ==== Proof.KernelValue.lean ====
/-
  The kernel's result, as one function of the launch arrays.  The write-back region leaves, at pixel p and
  feature e, the sum over superpixels of the assignment times the graph region's result; the graph region
  leaves the three graph-convolution layers of what it finds; and what it finds is the pooled features and the
  normalised adjacency.  Every argument array a region reads is as launched.
-/
import proofs.«116376_j32444182954666_2_alg».proof.Proof.Gen.KernelIdeal.Frame
import Idealize.ShloMosaic.Lib.Pipeline.Value
import Idealize.ShloMosaic.Lib.StableHlo.Run
import Idealize.ShloMosaic.Lib.Tactic
import Idealize.ShloMosaic.PureOps.Ideal.Laws
import proofs.«116376_j32444182954666_2_alg».proof.Proof.Spec
import proofs.«116376_j32444182954666_2_alg».proof.Proof.Hosts
import proofs.«116376_j32444182954666_2_alg».proof.Proof.Regions12
set_option maxRecDepth 16384

noncomputable section

open Idealize.ShloMosaic Idealize.ShloMosaic.TcCoe Idealize.SL.Sem Idealize.ShloMosaic.StableHlo
open Idealize.ShloMosaic.Pipeline (Dat)

namespace Cert.PoolGcn.Chain
open Cert.KernelIdeal Cert.KernelIdeal.Gen Cert.PoolGcn Idealize.ShloMosaic.ValueIdx

variable (m : (ℓ : Loc nD τ sig) → Buf (Elt Ideal) ℓ) (ρ : Dev nD → PrngReg)

/-- The assignment, as the write-back region finds it, is as launched. -/
theorem V4_Q (c : Dev nD) : (V4 m ρ c main_arg1 : S65536x1024.Idx → EReal) = m ((c : Thread nD τ).loc main_arg1) :=
  ((W5_arr m ρ c 0).trans (((dat2 (V4 m ρ) c).arrAt_in 0 rfl _).trans (A_eq2 (V4 m ρ) c 0))).symm.trans (W5_main_arg1 m ρ c)

/-- The layers' parameters, as the graph region finds them, are as launched. -/
theorem V3_g (c : Dev nD) : (V3 m ρ c main_arg11 : S3x128.Idx → EReal) = m ((c : Thread nD τ).loc main_arg11) :=
  ((W4_arr m ρ c 2).trans (((dat1 (V3 m ρ) c).arrAt_in 2 rfl _).trans (A_eq1 (V3 m ρ) c 2))).symm.trans
    ((W5_of_ne m ρ c main_arg11 (by decide)).symm.trans (W5_main_arg11 m ρ c))
theorem V3_s (c : Dev nD) : (V3 m ρ c main_arg12 : S3x128.Idx → EReal) = m ((c : Thread nD τ).loc main_arg12) :=
  ((W4_arr m ρ c 3).trans (((dat1 (V3 m ρ) c).arrAt_in 3 rfl _).trans (A_eq1 (V3 m ρ) c 3))).symm.trans
    ((W5_of_ne m ρ c main_arg12 (by decide)).symm.trans (W5_main_arg12 m ρ c))
theorem V3_w (c : Dev nD) : (V3 m ρ c main_arg13 : S3x128x128.Idx → EReal) = m ((c : Thread nD τ).loc main_arg13) :=
  ((W4_arr m ρ c 4).trans (((dat1 (V3 m ρ) c).arrAt_in 4 rfl _).trans (A_eq1 (V3 m ρ) c 4))).symm.trans
    ((W5_of_ne m ρ c main_arg13 (by decide)).symm.trans (W5_main_arg13 m ρ c))
theorem V3_bias (c : Dev nD) : (V3 m ρ c main_arg14 : S3x128.Idx → EReal) = m ((c : Thread nD τ).loc main_arg14) :=
  ((W4_arr m ρ c 5).trans (((dat1 (V3 m ρ) c).arrAt_in 5 rfl _).trans (A_eq1 (V3 m ρ) c 5))).symm.trans
    ((W5_of_ne m ρ c main_arg14 (by decide)).symm.trans (W5_main_arg14 m ρ c))

/-- The graph region's result. -/
theorem V4_h (c : Dev nD) (n : Fin 1024) (d : Fin 128) :
    (V4 m ρ c main_v29 : S1024x128.Idx → EReal) (ix2 n d)
      = gcn3 (Cert.ReferenceIdeal.Read.val_main_v52 (F := Ideal) (m ((c : Thread nD τ).loc main_arg2))) (m ((c : Thread nD τ).loc main_arg11)) (m ((c : Thread nD τ).loc main_arg12)) (m ((c : Thread nD τ).loc main_arg13)) (m ((c : Thread nD τ).loc main_arg14))
          (poolAfter (m ((c : Thread nD τ).loc main_arg1)) (feat m c)) n d := by
  rw [show (V4 m ρ c main_v29 : S1024x128.Idx → EReal) = _ from W4_arr m ρ c 6, Regions.final1 (V3 m ρ) c n d, V3_gn, V3_g, V3_s, V3_w, V3_bias]
  exact congrArg (fun h => gcn3 _ _ _ _ _ h n d) (funext fun k => funext fun d' => V3_pooled m ρ c k d')

/-- THE KERNEL'S RESULT at pixel p, feature e. -/
theorem kernel_value (c : Dev nD) (p : Fin 65536) (e : Fin 128) :
    (W5 m ρ c (Proc.devRef .tc main_v30) : S65536x128.Idx → EReal) (ix2 p e)
      = writeBack (m ((c : Thread nD τ).loc main_arg1)) (gcn3 (Cert.ReferenceIdeal.Read.val_main_v52 (F := Ideal) (m ((c : Thread nD τ).loc main_arg2))) (m ((c : Thread nD τ).loc main_arg11)) (m ((c : Thread nD τ).loc main_arg12)) (m ((c : Thread nD τ).loc main_arg13)) (m ((c : Thread nD τ).loc main_arg14))
          (poolAfter (m ((c : Thread nD τ).loc main_arg1)) (feat m c))) p e := by
  rw [show (W5 m ρ c (Proc.devRef .tc main_v30) : S65536x128.Idx → EReal) = _ from W5_arr m ρ c 2, Regions.final2 (V4 m ρ) c p e, V4_Q]
  exact congrArg (fun h => writeBack _ h p e) (funext fun n => funext fun d => V4_h m ρ c n d)

end Cert.PoolGcn.Chain
end
-- ==== Proof.RefCnn.lean ====
import proofs.«116376_j32444182954666_2_alg».proof.Proof.Gen.ReferenceIdeal.Read
import proofs.«116376_j32444182954666_2_alg».proof.Proof.Spec

noncomputable section

namespace Cert.PoolGcn.Ref

open Cert.ReferenceIdeal Cert.ReferenceIdeal.Read Cert.PoolGcn Idealize.ShloMosaic Idealize.ShloMosaic.ValueIdx

/-!
  The reference's two per-pixel dense layers, read at an index: stage %30 of the reference at pixel p and
  feature e is the pixel feature xf(p, e) of the specification.
-/

variable (x0 : (⟨S256x256x200, .f32⟩ : BufTy).Contents (Elt Ideal)) (x3 x4 : (⟨S200, .f32⟩ : BufTy).Contents (Elt Ideal))
  (x5 : (⟨S200x128, .f32⟩ : BufTy).Contents (Elt Ideal)) (x6 x7 x8 : (⟨S128, .f32⟩ : BufTy).Contents (Elt Ideal))
  (x9 : (⟨S128x128, .f32⟩ : BufTy).Contents (Elt Ideal)) (x10 : (⟨S128, .f32⟩ : BufTy).Contents (Elt Ideal))

/-! ### Index equations: each composed index map of the generated reading, at an index built from coordinates -/

theorem idx_v0_v1 (h w : Fin 256) (b : Fin 200) : idx_main_v0 (idx_main_v1 (ix3 h w b)) = ix1 b :=
  funext fun a => Fin.ext (by match a with | ⟨0, _⟩ => rfl)
theorem idx_v3_v4 (h w : Fin 256) (b : Fin 200) : idx_main_v3 (idx_main_v4 (ix3 h w b)) = ix1 b :=
  funext fun a => Fin.ext (by match a with | ⟨0, _⟩ => rfl)
theorem lidx_v6 (h w : Fin 256) (d : Fin 128) (k : Fin 200) : lidx_main_v6 (ix3 h w d) k = ix3 h w k :=
  funext fun a => Fin.ext (by match a with | ⟨0, _⟩ => rfl | ⟨1, _⟩ => rfl | ⟨2, _⟩ => rfl)
theorem ridx_v6 (h w : Fin 256) (d : Fin 128) (k : Fin 200) : ridx_main_v6 (ix3 h w d) k = ix2 k d :=
  funext fun a => Fin.ext (by match a with | ⟨0, _⟩ => rfl | ⟨1, _⟩ => rfl)
theorem idx_v7_v8 (h w : Fin 256) (d : Fin 128) : idx_main_v7 (idx_main_v8 (ix3 h w d)) = ix1 d :=
  funext fun a => Fin.ext (by match a with | ⟨0, _⟩ => rfl)
theorem idx_v15_v16 (h w : Fin 256) (d : Fin 128) : idx_main_v15 (idx_main_v16 (ix3 h w d)) = ix1 d :=
  funext fun a => Fin.ext (by match a with | ⟨0, _⟩ => rfl)
theorem idx_v18_v19 (h w : Fin 256) (d : Fin 128) : idx_main_v18 (idx_main_v19 (ix3 h w d)) = ix1 d :=
  funext fun a => Fin.ext (by match a with | ⟨0, _⟩ => rfl)
theorem lidx_v21 (h w : Fin 256) (e : Fin 128) (k : Fin 128) : lidx_main_v21 (ix3 h w e) k = ix3 h w k :=
  funext fun a => Fin.ext (by match a with | ⟨0, _⟩ => rfl | ⟨1, _⟩ => rfl | ⟨2, _⟩ => rfl)
theorem ridx_v21 (h w : Fin 256) (e : Fin 128) (k : Fin 128) : ridx_main_v21 (ix3 h w e) k = ix2 k e :=
  funext fun a => Fin.ext (by match a with | ⟨0, _⟩ => rfl | ⟨1, _⟩ => rfl)
theorem idx_v22_v23 (h w : Fin 256) (e : Fin 128) : idx_main_v22 (idx_main_v23 (ix3 h w e)) = ix1 e :=
  funext fun a => Fin.ext (by match a with | ⟨0, _⟩ => rfl)
/-- The reshape [256, 256, 128] → [65536, 128]: pixel p is row p / 256, column p % 256. -/
theorem idx_v30 (p : Fin 65536) (e : Fin 128) : idx_main_v30 (ix2 p e) = ix3 (prow p) (pcol p) e :=
  funext fun a => Fin.ext (by
    have hp := p.isLt
    have he := e.isLt
    match a with
    | ⟨0, _⟩ => show (p.val * 128 + e.val) / 32768 = p.val / 256; omega
    | ⟨1, _⟩ => show (p.val * 128 + e.val) / 128 % 256 = p.val % 256; omega
    | ⟨2, _⟩ => show (p.val * 128 + e.val) % 128 = e.val; omega)

/-! ### The stages -/

/-- The rescaled input (%0 to %5) at row h, column w, band b. -/
theorem v5_apply (h w : Fin 256) (b : Fin 200) :
    val_main_v5 (F := Ideal) x0 x3 x4 (ix3 h w b) = x3 (ix1 b) * x0 (ix3 h w b) + x4 (ix1 b) := by
  rw [val_main_v5_apply, val_main_v2_apply, val_main_v1_apply, val_main_v0_apply, val_main_v4_apply, val_main_v3_apply,
    idx_v0_v1, idx_v3_v4]
  rfl

/-- The first matrix product with its bias (%6 to %9). -/
theorem v9_apply (h w : Fin 256) (d : Fin 128) :
    val_main_v9 (F := Ideal) x0 x3 x4 x5 x6 (ix3 h w d)
      = (∑ b : Fin 200, (x3 (ix1 b) * x0 (ix3 h w b) + x4 (ix1 b)) * x5 (ix2 b d)) + x6 (ix1 d) := by
  rw [val_main_v9_apply, val_main_v6_apply, val_main_v8_apply, val_main_v7_apply, idx_v7_v8]
  refine congrArg (· + x6 (ix1 d)) (Finset.sum_congr rfl fun b _ => ?_)
  rw [lidx_v6, ridx_v6, v5_apply]

/-- The rectifier of the first layer (%10 to %14). -/
theorem v14_apply (h w : Fin 256) (d : Fin 128) :
    val_main_v14 (F := Ideal) x0 x3 x4 x5 x6 (ix3 h w d)
      = lrelu (val_main_v9 (F := Ideal) x0 x3 x4 x5 x6 (ix3 h w d)) := by
  rw [val_main_v14_apply, val_main_v11_apply, val_main_v13_apply, val_main_v10_apply, val_main_v12_apply,
    val_main_cst_apply, val_main_cst_0_apply]
  rfl

/-- The rescaling between the two layers (%15 to %20). -/
theorem v20_apply (h w : Fin 256) (d : Fin 128) :
    val_main_v20 (F := Ideal) x0 x3 x4 x5 x6 x7 x8 (ix3 h w d)
      = x7 (ix1 d) * lrelu (val_main_v9 (F := Ideal) x0 x3 x4 x5 x6 (ix3 h w d)) + x8 (ix1 d) := by
  rw [val_main_v20_apply, val_main_v17_apply, val_main_v16_apply, val_main_v15_apply, val_main_v19_apply,
    val_main_v18_apply, idx_v15_v16, idx_v18_v19, v14_apply]
  rfl

/-- The second matrix product with its bias (%21 to %24). -/
theorem v24_apply (h w : Fin 256) (e : Fin 128) :
    val_main_v24 (F := Ideal) x0 x3 x4 x5 x6 x7 x8 x9 x10 (ix3 h w e)
      = (∑ d : Fin 128, val_main_v20 (F := Ideal) x0 x3 x4 x5 x6 x7 x8 (ix3 h w d) * x9 (ix2 d e)) + x10 (ix1 e) := by
  rw [val_main_v24_apply, val_main_v21_apply, val_main_v23_apply, val_main_v22_apply, idx_v22_v23]
  refine congrArg (· + x10 (ix1 e)) (Finset.sum_congr rfl fun d _ => ?_)
  rw [lidx_v21, ridx_v21]

/-- The rectifier of the second layer (%25 to %29). -/
theorem v29_apply (h w : Fin 256) (e : Fin 128) :
    val_main_v29 (F := Ideal) x0 x3 x4 x5 x6 x7 x8 x9 x10 (ix3 h w e)
      = lrelu (val_main_v24 (F := Ideal) x0 x3 x4 x5 x6 x7 x8 x9 x10 (ix3 h w e)) := by
  rw [val_main_v29_apply, val_main_v26_apply, val_main_v28_apply, val_main_v25_apply, val_main_v27_apply,
    val_main_cst_1_apply, val_main_cst_2_apply]
  rfl

/-- The reference's pixel features (%0 to %30) are the specification's. -/
theorem v30_apply (p : Fin 65536) (e : Fin 128) :
    val_main_v30 (F := Ideal) x0 x3 x4 x5 x6 x7 x8 x9 x10 (ix2 p e) = xf x0 x3 x4 x5 x6 x7 x8 x9 x10 p e := by
  rw [val_main_v30_apply, idx_v30, v29_apply, v24_apply]
  unfold xf
  refine congrArg (fun s => lrelu (s + x10 (ix1 e))) (Finset.sum_congr rfl fun d _ => ?_)
  rw [v20_apply, v9_apply]
  rfl

end Cert.PoolGcn.Ref

end
-- ==== Proof.RefPool.lean ====
import proofs.«116376_j32444182954666_2_alg».proof.Proof.Gen.ReferenceIdeal.Read
import proofs.«116376_j32444182954666_2_alg».proof.Proof.Spec

noncomputable section

namespace Cert.PoolGcn.Ref

open Cert.ReferenceIdeal Cert.ReferenceIdeal.Read Cert.PoolGcn Idealize.ShloMosaic Idealize.ShloMosaic.ValueIdx

/-!
  The reference's pooling, read at an index: the column sums of the assignment (%31), every weight divided by
  its column's sum (%32 to %35), and the product with the pixel features (%36) are the specification's
  poolBefore of the stage %30.
-/

variable (x0 : (⟨S256x256x200, .f32⟩ : BufTy).Contents (Elt Ideal)) (x1 : (⟨S65536x1024, .f32⟩ : BufTy).Contents (Elt Ideal))
  (x3 x4 : (⟨S200, .f32⟩ : BufTy).Contents (Elt Ideal))
  (x5 : (⟨S200x128, .f32⟩ : BufTy).Contents (Elt Ideal)) (x6 x7 x8 : (⟨S128, .f32⟩ : BufTy).Contents (Elt Ideal))
  (x9 : (⟨S128x128, .f32⟩ : BufTy).Contents (Elt Ideal)) (x10 : (⟨S128, .f32⟩ : BufTy).Contents (Elt Ideal))

/-! ### Index equations -/

theorem idx_v31 (n : Fin 1024) (p : Fin 65536) : idx_main_v31 (ix1 n) p = ix2 p n :=
  funext fun a => Fin.ext (by match a with | ⟨0, _⟩ => rfl | ⟨1, _⟩ => rfl)
theorem idx_v32_v33 (p : Fin 65536) (n : Fin 1024) : idx_main_v32 (idx_main_v33 (ix2 p n)) = ix1 n :=
  funext fun a => Fin.ext (by match a with | ⟨0, _⟩ => rfl)
theorem idx_v35 (n : Fin 1024) (p : Fin 65536) : idx_main_v35 (ix2 n p) = ix2 p n :=
  funext fun a => Fin.ext (by match a with | ⟨0, _⟩ => rfl | ⟨1, _⟩ => rfl)
theorem lidx_v36 (n : Fin 1024) (d : Fin 128) (p : Fin 65536) : lidx_main_v36 (ix2 n d) p = ix2 n p :=
  funext fun a => Fin.ext (by match a with | ⟨0, _⟩ => rfl | ⟨1, _⟩ => rfl)
theorem ridx_v36 (n : Fin 1024) (d : Fin 128) (p : Fin 65536) : ridx_main_v36 (ix2 n d) p = ix2 p d :=
  funext fun a => Fin.ext (by match a with | ⟨0, _⟩ => rfl | ⟨1, _⟩ => rfl)

/-! ### The stages -/

/-- The column sum (%31): the initial value is zero. -/
theorem v31_apply (n : Fin 1024) : val_main_v31 (F := Ideal) x1 (ix1 n) = colsum x1 n := by
  rw [val_main_v31_apply, val_main_cst_3_apply]
  show Ideal.ofBits .f32 0x00000000#32 + _ = _
  rw [Ideal.ofBits_zero_f32, zero_add]
  unfold colsum
  exact Finset.sum_congr rfl fun p _ => by rw [idx_v31]

/-- The normalised assignment, transposed (%32 to %35). -/
theorem v35_apply (n : Fin 1024) (p : Fin 65536) :
    val_main_v35 (F := Ideal) x1 (ix2 n p) = Ideal.div (x1 (ix2 p n)) (colsum x1 n) := by
  rw [val_main_v35_apply, idx_v35, val_main_v34_apply, val_main_v33_apply, val_main_v32_apply, idx_v32_v33, v31_apply]
  rfl

/-- The pooled features (%36) are the pooling of the stage %30, every weight divided before the sum. -/
theorem v36_of (n : Fin 1024) (d : Fin 128) :
    val_main_v36 (F := Ideal) x0 x1 x3 x4 x5 x6 x7 x8 x9 x10 (ix2 n d)
      = poolBefore x1 (fun p e => val_main_v30 (F := Ideal) x0 x3 x4 x5 x6 x7 x8 x9 x10 (ix2 p e)) n d := by
  rw [val_main_v36_apply]
  unfold poolBefore
  refine Finset.sum_congr rfl fun p _ => ?_
  rw [lidx_v36, ridx_v36, v35_apply]

end Cert.PoolGcn.Ref

end
-- ==== Proof.RefGcn.lean ====
import proofs.«116376_j32444182954666_2_alg».proof.Proof.Gen.ReferenceIdeal.Read
import proofs.«116376_j32444182954666_2_alg».proof.Proof.Spec

noncomputable section

namespace Cert.PoolGcn.Ref

open Cert.ReferenceIdeal Cert.ReferenceIdeal.Read Cert.PoolGcn Idealize.ShloMosaic Idealize.ShloMosaic.ValueIdx

/-!
  The reference's three graph-convolution layers and the write-back, read at an index. Each layer is stated over
  the stage that feeds it; the normalised adjacency (%52) stays a named stage throughout.
-/

variable (x0 : (⟨S256x256x200, .f32⟩ : BufTy).Contents (Elt Ideal)) (x1 : (⟨S65536x1024, .f32⟩ : BufTy).Contents (Elt Ideal))
  (x2 : (⟨S1024x1024, .f32⟩ : BufTy).Contents (Elt Ideal)) (x3 x4 : (⟨S200, .f32⟩ : BufTy).Contents (Elt Ideal))
  (x5 : (⟨S200x128, .f32⟩ : BufTy).Contents (Elt Ideal)) (x6 x7 x8 : (⟨S128, .f32⟩ : BufTy).Contents (Elt Ideal))
  (x9 : (⟨S128x128, .f32⟩ : BufTy).Contents (Elt Ideal)) (x10 : (⟨S128, .f32⟩ : BufTy).Contents (Elt Ideal))
  (x11 x12 : (⟨S3x128, .f32⟩ : BufTy).Contents (Elt Ideal)) (x13 : (⟨S3x128x128, .f32⟩ : BufTy).Contents (Elt Ideal))
  (x14 : (⟨S3x128, .f32⟩ : BufTy).Contents (Elt Ideal))

/-! ### The first layer (%53 to %76) -/

theorem idx_g0 (n : Fin 1024) (d : Fin 128) :
    idx_main_v53 (idx_main_v54 (idx_main_v55 (idx_main_v56 (ix2 n d)))) = ix2 (0 : Fin 3) d :=
  funext fun a => Fin.ext (by
    have hd := d.isLt
    match a with
    | ⟨0, _⟩ => rfl
    | ⟨1, _⟩ => show d.val % 128 = d.val; omega)
theorem idx_c0 (n : Fin 1024) (d : Fin 128) :
    idx_main_v58 (idx_main_v59 (idx_main_v60 (idx_main_v61 (ix2 n d)))) = ix2 (0 : Fin 3) d :=
  funext fun a => Fin.ext (by
    have hd := d.isLt
    match a with
    | ⟨0, _⟩ => rfl
    | ⟨1, _⟩ => show d.val % 128 = d.val; omega)
theorem lidx_v63 (n : Fin 1024) (d : Fin 128) (k : Fin 1024) : lidx_main_v63 (ix2 n d) k = ix2 n k :=
  funext fun a => Fin.ext (by match a with | ⟨0, _⟩ => rfl | ⟨1, _⟩ => rfl)
theorem ridx_v63 (n : Fin 1024) (d : Fin 128) (k : Fin 1024) : ridx_main_v63 (ix2 n d) k = ix2 k d :=
  funext fun a => Fin.ext (by match a with | ⟨0, _⟩ => rfl | ⟨1, _⟩ => rfl)
theorem idx_w0 (d e : Fin 128) : idx_main_v64 (idx_main_v65 (ix2 d e)) = ix3 (0 : Fin 3) d e :=
  funext fun a => Fin.ext (by
    have hd := d.isLt
    have he := e.isLt
    match a with
    | ⟨0, _⟩ => rfl
    | ⟨1, _⟩ => show (d.val * 128 + e.val) / 128 % 128 = d.val; omega
    | ⟨2, _⟩ => show (d.val * 128 + e.val) % 128 = e.val; omega)
theorem lidx_v66 (n : Fin 1024) (e : Fin 128) (d : Fin 128) : lidx_main_v66 (ix2 n e) d = ix2 n d :=
  funext fun a => Fin.ext (by match a with | ⟨0, _⟩ => rfl | ⟨1, _⟩ => rfl)
theorem ridx_v66 (n : Fin 1024) (e : Fin 128) (d : Fin 128) : ridx_main_v66 (ix2 n e) d = ix2 d e :=
  funext fun a => Fin.ext (by match a with | ⟨0, _⟩ => rfl | ⟨1, _⟩ => rfl)
theorem idx_b0 (n : Fin 1024) (e : Fin 128) :
    idx_main_v67 (idx_main_v68 (idx_main_v69 (idx_main_v70 (ix2 n e)))) = ix2 (0 : Fin 3) e :=
  funext fun a => Fin.ext (by
    have he := e.isLt
    match a with
    | ⟨0, _⟩ => rfl
    | ⟨1, _⟩ => show e.val % 128 = e.val; omega)

/-- The rescaled node features (%53 to %62). -/
theorem v62_apply (n : Fin 1024) (d : Fin 128) :
    val_main_v62 (F := Ideal) x0 x1 x3 x4 x5 x6 x7 x8 x9 x10 x11 x12 (ix2 n d)
      = x11 (ix2 (0 : Fin 3) d) * val_main_v36 (F := Ideal) x0 x1 x3 x4 x5 x6 x7 x8 x9 x10 (ix2 n d) + x12 (ix2 (0 : Fin 3) d) := by
  rw [val_main_v62_apply, val_main_v57_apply, val_main_v56_apply, val_main_v55_apply, val_main_v54_apply, val_main_v53_apply,
    val_main_v61_apply, val_main_v60_apply, val_main_v59_apply, val_main_v58_apply, idx_g0, idx_c0]
  rfl

/-- The product with the normalised adjacency (%63). -/
theorem v63_apply (n : Fin 1024) (d : Fin 128) :
    val_main_v63 (F := Ideal) x0 x1 x2 x3 x4 x5 x6 x7 x8 x9 x10 x11 x12 (ix2 n d)
      = ∑ k : Fin 1024, val_main_v52 (F := Ideal) x2 (ix2 n k)
          * (x11 (ix2 (0 : Fin 3) d) * val_main_v36 (F := Ideal) x0 x1 x3 x4 x5 x6 x7 x8 x9 x10 (ix2 k d) + x12 (ix2 (0 : Fin 3) d)) := by
  rw [val_main_v63_apply]
  refine Finset.sum_congr rfl fun k _ => ?_
  rw [lidx_v63, ridx_v63, v62_apply]

/-- The product with the layer's weights, and its bias (%64 to %71). -/
theorem v71_apply (n : Fin 1024) (e : Fin 128) :
    val_main_v71 (F := Ideal) x0 x1 x2 x3 x4 x5 x6 x7 x8 x9 x10 x11 x12 x13 x14 (ix2 n e)
      = (∑ d : Fin 128, val_main_v63 (F := Ideal) x0 x1 x2 x3 x4 x5 x6 x7 x8 x9 x10 x11 x12 (ix2 n d) * x13 (ix3 (0 : Fin 3) d e)) + x14 (ix2 (0 : Fin 3) e) := by
  rw [val_main_v71_apply, val_main_v66_apply, val_main_v70_apply, val_main_v69_apply, val_main_v68_apply, val_main_v67_apply, idx_b0]
  refine congrArg (· + x14 (ix2 (0 : Fin 3) e)) (Finset.sum_congr rfl fun d _ => ?_)
  rw [lidx_v66, ridx_v66, val_main_v65_apply, val_main_v64_apply, idx_w0]

/-- The first layer (%53 to %76) is the specification's layer 0 on the stage %36. -/
theorem v76_of (n : Fin 1024) (e : Fin 128) :
    val_main_v76 (F := Ideal) x0 x1 x2 x3 x4 x5 x6 x7 x8 x9 x10 x11 x12 x13 x14 (ix2 n e)
      = gcnLayer (val_main_v52 (F := Ideal) x2) x11 x12 x13 x14 0
          (fun k d => val_main_v36 (F := Ideal) x0 x1 x3 x4 x5 x6 x7 x8 x9 x10 (ix2 k d)) n e := by
  rw [val_main_v76_apply, val_main_v73_apply, val_main_v75_apply, val_main_v72_apply, val_main_v74_apply,
    val_main_cst_6_apply, val_main_cst_7_apply, v71_apply]
  unfold gcnLayer
  refine congrArg (fun s => lrelu (s + x14 (ix2 (0 : Fin 3) e))) (Finset.sum_congr rfl fun d _ => ?_)
  rw [v63_apply]

/-! ### The second layer (%77 to %100) -/

theorem idx_g1 (n : Fin 1024) (d : Fin 128) :
    idx_main_v77 (idx_main_v78 (idx_main_v79 (idx_main_v80 (ix2 n d)))) = ix2 (1 : Fin 3) d :=
  funext fun a => Fin.ext (by
    have hd := d.isLt
    match a with
    | ⟨0, _⟩ => rfl
    | ⟨1, _⟩ => show d.val % 128 = d.val; omega)
theorem idx_c1 (n : Fin 1024) (d : Fin 128) :
    idx_main_v82 (idx_main_v83 (idx_main_v84 (idx_main_v85 (ix2 n d)))) = ix2 (1 : Fin 3) d :=
  funext fun a => Fin.ext (by
    have hd := d.isLt
    match a with
    | ⟨0, _⟩ => rfl
    | ⟨1, _⟩ => show d.val % 128 = d.val; omega)
theorem lidx_v87 (n : Fin 1024) (d : Fin 128) (k : Fin 1024) : lidx_main_v87 (ix2 n d) k = ix2 n k :=
  funext fun a => Fin.ext (by match a with | ⟨0, _⟩ => rfl | ⟨1, _⟩ => rfl)
theorem ridx_v87 (n : Fin 1024) (d : Fin 128) (k : Fin 1024) : ridx_main_v87 (ix2 n d) k = ix2 k d :=
  funext fun a => Fin.ext (by match a with | ⟨0, _⟩ => rfl | ⟨1, _⟩ => rfl)
theorem idx_w1 (d e : Fin 128) : idx_main_v88 (idx_main_v89 (ix2 d e)) = ix3 (1 : Fin 3) d e :=
  funext fun a => Fin.ext (by
    have hd := d.isLt
    have he := e.isLt
    match a with
    | ⟨0, _⟩ => rfl
    | ⟨1, _⟩ => show (d.val * 128 + e.val) / 128 % 128 = d.val; omega
    | ⟨2, _⟩ => show (d.val * 128 + e.val) % 128 = e.val; omega)
theorem lidx_v90 (n : Fin 1024) (e : Fin 128) (d : Fin 128) : lidx_main_v90 (ix2 n e) d = ix2 n d :=
  funext fun a => Fin.ext (by match a with | ⟨0, _⟩ => rfl | ⟨1, _⟩ => rfl)
theorem ridx_v90 (n : Fin 1024) (e : Fin 128) (d : Fin 128) : ridx_main_v90 (ix2 n e) d = ix2 d e :=
  funext fun a => Fin.ext (by match a with | ⟨0, _⟩ => rfl | ⟨1, _⟩ => rfl)
theorem idx_b1 (n : Fin 1024) (e : Fin 128) :
    idx_main_v91 (idx_main_v92 (idx_main_v93 (idx_main_v94 (ix2 n e)))) = ix2 (1 : Fin 3) e :=
  funext fun a => Fin.ext (by
    have he := e.isLt
    match a with
    | ⟨0, _⟩ => rfl
    | ⟨1, _⟩ => show e.val % 128 = e.val; omega)

/-- The rescaled node features (%77 to %86). -/
theorem v86_apply (n : Fin 1024) (d : Fin 128) :
    val_main_v86 (F := Ideal) x0 x1 x2 x3 x4 x5 x6 x7 x8 x9 x10 x11 x12 x13 x14 (ix2 n d)
      = x11 (ix2 (1 : Fin 3) d) * val_main_v76 (F := Ideal) x0 x1 x2 x3 x4 x5 x6 x7 x8 x9 x10 x11 x12 x13 x14 (ix2 n d) + x12 (ix2 (1 : Fin 3) d) := by
  rw [val_main_v86_apply, val_main_v81_apply, val_main_v80_apply, val_main_v79_apply, val_main_v78_apply, val_main_v77_apply,
    val_main_v85_apply, val_main_v84_apply, val_main_v83_apply, val_main_v82_apply, idx_g1, idx_c1]
  rfl

/-- The product with the normalised adjacency (%87). -/
theorem v87_apply (n : Fin 1024) (d : Fin 128) :
    val_main_v87 (F := Ideal) x0 x1 x2 x3 x4 x5 x6 x7 x8 x9 x10 x11 x12 x13 x14 (ix2 n d)
      = ∑ k : Fin 1024, val_main_v52 (F := Ideal) x2 (ix2 n k)
          * (x11 (ix2 (1 : Fin 3) d) * val_main_v76 (F := Ideal) x0 x1 x2 x3 x4 x5 x6 x7 x8 x9 x10 x11 x12 x13 x14 (ix2 k d) + x12 (ix2 (1 : Fin 3) d)) := by
  rw [val_main_v87_apply]
  refine Finset.sum_congr rfl fun k _ => ?_
  rw [lidx_v87, ridx_v87, v86_apply]

/-- The product with the layer's weights, and its bias (%88 to %95). -/
theorem v95_apply (n : Fin 1024) (e : Fin 128) :
    val_main_v95 (F := Ideal) x0 x1 x2 x3 x4 x5 x6 x7 x8 x9 x10 x11 x12 x13 x14 (ix2 n e)
      = (∑ d : Fin 128, val_main_v87 (F := Ideal) x0 x1 x2 x3 x4 x5 x6 x7 x8 x9 x10 x11 x12 x13 x14 (ix2 n d) * x13 (ix3 (1 : Fin 3) d e)) + x14 (ix2 (1 : Fin 3) e) := by
  rw [val_main_v95_apply, val_main_v90_apply, val_main_v94_apply, val_main_v93_apply, val_main_v92_apply, val_main_v91_apply, idx_b1]
  refine congrArg (· + x14 (ix2 (1 : Fin 3) e)) (Finset.sum_congr rfl fun d _ => ?_)
  rw [lidx_v90, ridx_v90, val_main_v89_apply, val_main_v88_apply, idx_w1]

/-- The second layer (%77 to %100) is the specification's layer 1 on the stage %76. -/
theorem v100_of (n : Fin 1024) (e : Fin 128) :
    val_main_v100 (F := Ideal) x0 x1 x2 x3 x4 x5 x6 x7 x8 x9 x10 x11 x12 x13 x14 (ix2 n e)
      = gcnLayer (val_main_v52 (F := Ideal) x2) x11 x12 x13 x14 1
          (fun k d => val_main_v76 (F := Ideal) x0 x1 x2 x3 x4 x5 x6 x7 x8 x9 x10 x11 x12 x13 x14 (ix2 k d)) n e := by
  rw [val_main_v100_apply, val_main_v97_apply, val_main_v99_apply, val_main_v96_apply, val_main_v98_apply,
    val_main_cst_8_apply, val_main_cst_9_apply, v95_apply]
  unfold gcnLayer
  refine congrArg (fun s => lrelu (s + x14 (ix2 (1 : Fin 3) e))) (Finset.sum_congr rfl fun d _ => ?_)
  rw [v87_apply]

/-! ### The third layer (%101 to %124) -/

theorem idx_g2 (n : Fin 1024) (d : Fin 128) :
    idx_main_v101 (idx_main_v102 (idx_main_v103 (idx_main_v104 (ix2 n d)))) = ix2 (2 : Fin 3) d :=
  funext fun a => Fin.ext (by
    have hd := d.isLt
    match a with
    | ⟨0, _⟩ => rfl
    | ⟨1, _⟩ => show d.val % 128 = d.val; omega)
theorem idx_c2 (n : Fin 1024) (d : Fin 128) :
    idx_main_v106 (idx_main_v107 (idx_main_v108 (idx_main_v109 (ix2 n d)))) = ix2 (2 : Fin 3) d :=
  funext fun a => Fin.ext (by
    have hd := d.isLt
    match a with
    | ⟨0, _⟩ => rfl
    | ⟨1, _⟩ => show d.val % 128 = d.val; omega)
theorem lidx_v111 (n : Fin 1024) (d : Fin 128) (k : Fin 1024) : lidx_main_v111 (ix2 n d) k = ix2 n k :=
  funext fun a => Fin.ext (by match a with | ⟨0, _⟩ => rfl | ⟨1, _⟩ => rfl)
theorem ridx_v111 (n : Fin 1024) (d : Fin 128) (k : Fin 1024) : ridx_main_v111 (ix2 n d) k = ix2 k d :=
  funext fun a => Fin.ext (by match a with | ⟨0, _⟩ => rfl | ⟨1, _⟩ => rfl)
theorem idx_w2 (d e : Fin 128) : idx_main_v112 (idx_main_v113 (ix2 d e)) = ix3 (2 : Fin 3) d e :=
  funext fun a => Fin.ext (by
    have hd := d.isLt
    have he := e.isLt
    match a with
    | ⟨0, _⟩ => rfl
    | ⟨1, _⟩ => show (d.val * 128 + e.val) / 128 % 128 = d.val; omega
    | ⟨2, _⟩ => show (d.val * 128 + e.val) % 128 = e.val; omega)
theorem lidx_v114 (n : Fin 1024) (e : Fin 128) (d : Fin 128) : lidx_main_v114 (ix2 n e) d = ix2 n d :=
  funext fun a => Fin.ext (by match a with | ⟨0, _⟩ => rfl | ⟨1, _⟩ => rfl)
theorem ridx_v114 (n : Fin 1024) (e : Fin 128) (d : Fin 128) : ridx_main_v114 (ix2 n e) d = ix2 d e :=
  funext fun a => Fin.ext (by match a with | ⟨0, _⟩ => rfl | ⟨1, _⟩ => rfl)
theorem idx_b2 (n : Fin 1024) (e : Fin 128) :
    idx_main_v115 (idx_main_v116 (idx_main_v117 (idx_main_v118 (ix2 n e)))) = ix2 (2 : Fin 3) e :=
  funext fun a => Fin.ext (by
    have he := e.isLt
    match a with
    | ⟨0, _⟩ => rfl
    | ⟨1, _⟩ => show e.val % 128 = e.val; omega)

/-- The rescaled node features (%101 to %110). -/
theorem v110_apply (n : Fin 1024) (d : Fin 128) :
    val_main_v110 (F := Ideal) x0 x1 x2 x3 x4 x5 x6 x7 x8 x9 x10 x11 x12 x13 x14 (ix2 n d)
      = x11 (ix2 (2 : Fin 3) d) * val_main_v100 (F := Ideal) x0 x1 x2 x3 x4 x5 x6 x7 x8 x9 x10 x11 x12 x13 x14 (ix2 n d) + x12 (ix2 (2 : Fin 3) d) := by
  rw [val_main_v110_apply, val_main_v105_apply, val_main_v104_apply, val_main_v103_apply, val_main_v102_apply, val_main_v101_apply,
    val_main_v109_apply, val_main_v108_apply, val_main_v107_apply, val_main_v106_apply, idx_g2, idx_c2]
  rfl

/-- The product with the normalised adjacency (%111). -/
theorem v111_apply (n : Fin 1024) (d : Fin 128) :
    val_main_v111 (F := Ideal) x0 x1 x2 x3 x4 x5 x6 x7 x8 x9 x10 x11 x12 x13 x14 (ix2 n d)
      = ∑ k : Fin 1024, val_main_v52 (F := Ideal) x2 (ix2 n k)
          * (x11 (ix2 (2 : Fin 3) d) * val_main_v100 (F := Ideal) x0 x1 x2 x3 x4 x5 x6 x7 x8 x9 x10 x11 x12 x13 x14 (ix2 k d) + x12 (ix2 (2 : Fin 3) d)) := by
  rw [val_main_v111_apply]
  refine Finset.sum_congr rfl fun k _ => ?_
  rw [lidx_v111, ridx_v111, v110_apply]

/-- The product with the layer's weights, and its bias (%112 to %119). -/
theorem v119_apply (n : Fin 1024) (e : Fin 128) :
    val_main_v119 (F := Ideal) x0 x1 x2 x3 x4 x5 x6 x7 x8 x9 x10 x11 x12 x13 x14 (ix2 n e)
      = (∑ d : Fin 128, val_main_v111 (F := Ideal) x0 x1 x2 x3 x4 x5 x6 x7 x8 x9 x10 x11 x12 x13 x14 (ix2 n d) * x13 (ix3 (2 : Fin 3) d e)) + x14 (ix2 (2 : Fin 3) e) := by
  rw [val_main_v119_apply, val_main_v114_apply, val_main_v118_apply, val_main_v117_apply, val_main_v116_apply, val_main_v115_apply, idx_b2]
  refine congrArg (· + x14 (ix2 (2 : Fin 3) e)) (Finset.sum_congr rfl fun d _ => ?_)
  rw [lidx_v114, ridx_v114, val_main_v113_apply, val_main_v112_apply, idx_w2]

/-- The third layer (%101 to %124) is the specification's layer 2 on the stage %100. -/
theorem v124_of (n : Fin 1024) (e : Fin 128) :
    val_main_v124 (F := Ideal) x0 x1 x2 x3 x4 x5 x6 x7 x8 x9 x10 x11 x12 x13 x14 (ix2 n e)
      = gcnLayer (val_main_v52 (F := Ideal) x2) x11 x12 x13 x14 2
          (fun k d => val_main_v100 (F := Ideal) x0 x1 x2 x3 x4 x5 x6 x7 x8 x9 x10 x11 x12 x13 x14 (ix2 k d)) n e := by
  rw [val_main_v124_apply, val_main_v121_apply, val_main_v123_apply, val_main_v120_apply, val_main_v122_apply,
    val_main_cst_10_apply, val_main_cst_11_apply, v119_apply]
  unfold gcnLayer
  refine congrArg (fun s => lrelu (s + x14 (ix2 (2 : Fin 3) e))) (Finset.sum_congr rfl fun d _ => ?_)
  rw [v111_apply]

/-! ### The write-back (%125) -/

theorem lidx_v125 (p : Fin 65536) (e : Fin 128) (k : Fin 1024) : lidx_main_v125 (ix2 p e) k = ix2 p k :=
  funext fun a => Fin.ext (by match a with | ⟨0, _⟩ => rfl | ⟨1, _⟩ => rfl)
theorem ridx_v125 (p : Fin 65536) (e : Fin 128) (k : Fin 1024) : ridx_main_v125 (ix2 p e) k = ix2 k e :=
  funext fun a => Fin.ext (by match a with | ⟨0, _⟩ => rfl | ⟨1, _⟩ => rfl)

/-- The result (%125) is the stage %124 written back to the pixels. -/
theorem v125_of (p : Fin 65536) (e : Fin 128) :
    val_main_v125 (F := Ideal) x0 x1 x2 x3 x4 x5 x6 x7 x8 x9 x10 x11 x12 x13 x14 (ix2 p e)
      = writeBack x1 (fun n d => val_main_v124 (F := Ideal) x0 x1 x2 x3 x4 x5 x6 x7 x8 x9 x10 x11 x12 x13 x14 (ix2 n d)) p e := by
  rw [val_main_v125_apply]
  unfold writeBack
  refine Finset.sum_congr rfl fun k _ => ?_
  rw [lidx_v125, ridx_v125]

end Cert.PoolGcn.Ref

end
-- ==== Proof.RefAll.lean ====
import proofs.«116376_j32444182954666_2_alg».proof.Proof.Gen.ReferenceIdeal.Read
import proofs.«116376_j32444182954666_2_alg».proof.Proof.Spec
import proofs.«116376_j32444182954666_2_alg».proof.Proof.RefCnn
import proofs.«116376_j32444182954666_2_alg».proof.Proof.RefPool
import proofs.«116376_j32444182954666_2_alg».proof.Proof.RefGcn

noncomputable section

namespace Cert.PoolGcn.Ref

open Cert.ReferenceIdeal Cert.ReferenceIdeal.Read Cert.PoolGcn Idealize.ShloMosaic Idealize.ShloMosaic.ValueIdx

/-!
  The reference, stage by stage, is the specification: the pooled features (%36), the three graph-convolution
  layers (%76, %100, %124) and the result (%125), each read at an index.
-/

variable (x0 : (⟨S256x256x200, .f32⟩ : BufTy).Contents (Elt Ideal)) (x1 : (⟨S65536x1024, .f32⟩ : BufTy).Contents (Elt Ideal))
  (x2 : (⟨S1024x1024, .f32⟩ : BufTy).Contents (Elt Ideal)) (x3 x4 : (⟨S200, .f32⟩ : BufTy).Contents (Elt Ideal))
  (x5 : (⟨S200x128, .f32⟩ : BufTy).Contents (Elt Ideal)) (x6 x7 x8 : (⟨S128, .f32⟩ : BufTy).Contents (Elt Ideal))
  (x9 : (⟨S128x128, .f32⟩ : BufTy).Contents (Elt Ideal)) (x10 : (⟨S128, .f32⟩ : BufTy).Contents (Elt Ideal))
  (x11 x12 : (⟨S3x128, .f32⟩ : BufTy).Contents (Elt Ideal)) (x13 : (⟨S3x128x128, .f32⟩ : BufTy).Contents (Elt Ideal))
  (x14 : (⟨S3x128, .f32⟩ : BufTy).Contents (Elt Ideal))

/-- The pooled features (%36). -/
theorem v36_apply (n : Fin 1024) (d : Fin 128) :
    val_main_v36 (F := Ideal) x0 x1 x3 x4 x5 x6 x7 x8 x9 x10 (ix2 n d) = poolBefore x1 (xf x0 x3 x4 x5 x6 x7 x8 x9 x10) n d := by
  rw [v36_of]
  exact congrArg (fun z => poolBefore x1 z n d) (funext fun p => funext fun e => v30_apply x0 x3 x4 x5 x6 x7 x8 x9 x10 p e)

/-- The first layer (%76). -/
theorem v76_apply (n : Fin 1024) (e : Fin 128) :
    val_main_v76 (F := Ideal) x0 x1 x2 x3 x4 x5 x6 x7 x8 x9 x10 x11 x12 x13 x14 (ix2 n e)
      = gcnLayer (val_main_v52 (F := Ideal) x2) x11 x12 x13 x14 0 (poolBefore x1 (xf x0 x3 x4 x5 x6 x7 x8 x9 x10)) n e := by
  rw [v76_of]
  exact congrArg (fun h => gcnLayer (val_main_v52 (F := Ideal) x2) x11 x12 x13 x14 0 h n e)
    (funext fun k => funext fun d => v36_apply x0 x1 x3 x4 x5 x6 x7 x8 x9 x10 k d)

/-- The second layer (%100). -/
theorem v100_apply (n : Fin 1024) (e : Fin 128) :
    val_main_v100 (F := Ideal) x0 x1 x2 x3 x4 x5 x6 x7 x8 x9 x10 x11 x12 x13 x14 (ix2 n e)
      = gcnLayer (val_main_v52 (F := Ideal) x2) x11 x12 x13 x14 1 (gcnLayer (val_main_v52 (F := Ideal) x2) x11 x12 x13 x14 0 (poolBefore x1 (xf x0 x3 x4 x5 x6 x7 x8 x9 x10))) n e := by
  rw [v100_of]
  exact congrArg (fun h => gcnLayer (val_main_v52 (F := Ideal) x2) x11 x12 x13 x14 1 h n e)
    (funext fun k => funext fun d => v76_apply x0 x1 x2 x3 x4 x5 x6 x7 x8 x9 x10 x11 x12 x13 x14 k d)

/-- The third layer (%124). -/
theorem v124_apply (n : Fin 1024) (e : Fin 128) :
    val_main_v124 (F := Ideal) x0 x1 x2 x3 x4 x5 x6 x7 x8 x9 x10 x11 x12 x13 x14 (ix2 n e)
      = gcnLayer (val_main_v52 (F := Ideal) x2) x11 x12 x13 x14 2 (gcnLayer (val_main_v52 (F := Ideal) x2) x11 x12 x13 x14 1 (gcnLayer (val_main_v52 (F := Ideal) x2) x11 x12 x13 x14 0 (poolBefore x1 (xf x0 x3 x4 x5 x6 x7 x8 x9 x10)))) n e := by
  rw [v124_of]
  exact congrArg (fun h => gcnLayer (val_main_v52 (F := Ideal) x2) x11 x12 x13 x14 2 h n e)
    (funext fun k => funext fun d => v100_apply x0 x1 x2 x3 x4 x5 x6 x7 x8 x9 x10 x11 x12 x13 x14 k d)

/-- The result (%125): the three layers on the pooled pixel features, written back to the pixels. -/
theorem v125_apply (p : Fin 65536) (e : Fin 128) :
    val_main_v125 (F := Ideal) x0 x1 x2 x3 x4 x5 x6 x7 x8 x9 x10 x11 x12 x13 x14 (ix2 p e)
      = writeBack x1 (gcn3 (val_main_v52 (F := Ideal) x2) x11 x12 x13 x14 (poolBefore x1 (xf x0 x3 x4 x5 x6 x7 x8 x9 x10))) p e := by
  rw [v125_of]
  unfold gcn3
  exact congrArg (fun h => writeBack x1 h p e)
    (funext fun n => funext fun d => v124_apply x0 x1 x2 x3 x4 x5 x6 x7 x8 x9 x10 x11 x12 x13 x14 n d)

end Cert.PoolGcn.Ref

end
-- ==== Proof.PreFacts.lean ====
import proofs.«116376_j32444182954666_2_alg».proof.Pre_finite_inputs
import proofs.«116376_j32444182954666_2_alg».proof.Proof.Gen.Pre_finite_inputs
import proofs.«116376_j32444182954666_2_alg».proof.Proof.Spec
import proofs.«116376_j32444182954666_2_alg».proof.Proof.LibRealCollapse
import Idealize.ShloMosaic.Lib.ReduceAll
import Idealize.ShloMosaic.Lib.IdealHost

noncomputable section

namespace Cert.PoolGcn.Pre

open Cert.Pre_finite_inputs Cert.PoolGcn Cert.Gcn Idealize.ShloMosaic Idealize.ShloMosaic.ValueIdx

/-- The scalar shape has one index. -/
instance : Subsingleton S_.Idx := ⟨fun a b => funext fun d => d.elim0⟩

/-- The f32 pattern 0x7F800000 is plus infinity. -/
theorem ofBits_inf_f32 : Ideal.ofBits .f32 0x7F800000#32 = ⊤ := by simp [Ideal.ofBits, Ideal.ieee]

/-- An extended real whose absolute value is below plus infinity is a real number. -/
theorem isReal_of_abs_lt (v : EReal) (h : Ideal.cmp .olt (max v (-v)) (Ideal.ofBits .f32 0x7F800000#32) = 1#1) :
    IsReal v := by
  rw [ofBits_inf_f32] at h
  induction v using EReal.rec with
  | bot => simp [Ideal.cmp] at h
  | coe r => exact ⟨r, rfl⟩
  | top => simp [Ideal.cmp] at h

/-- One conjunct "every entry of x is finite": the conjunction over all entries of |x| < +inf being true makes
    every entry a real number. -/
theorem all_isReal {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi (cmpf .olt (Host.absf x) (broadcastInDim s ![] hb (constant (F := Ideal) S_ .f32 0x7F800000#32)))
      (constantI S_ 1 1#1) hr hu j = 1#1) (i : s.Idx) : IsReal (x i) := by
  have h := Host.reduce_andi_all _ _ hr hu j e i
  rw [cmpf_apply, broadcastInDim_scalar_apply] at h
  exact isReal_of_abs_lt (x i) h

variable [Facts]

/-- The column sums of the assignment as the precondition computes them: the initial zero plus the sum over the
    pixels is the specification's column sum. -/
theorem reduce_eq_colsum (x1 : FVec Ideal S65536x1024 .f32) (hr : S65536x1024.ReducesTo [0] S1024) (hu : 0 < S_.numel)
    (n : Fin 1024) :
    Host.reduceAdd x1 (constant (F := Ideal) S_ .f32 0x00000000#32) hr hu (ix1 n) = colsum x1 n := by
  rw [hostReduceAdd_apply, Ideal.hostReduceAdd_single hr (by decide)]
  show Ideal.ofBits .f32 0x00000000#32 + _ = _
  rw [Ideal.ofBits_zero_f32, zero_add]
  unfold colsum
  refine Finset.sum_congr rfl fun p _ => ?_
  exact congrArg x1 (funext fun a => Fin.ext (by match a with | ⟨0, _⟩ => rfl | ⟨1, _⟩ => rfl))

/-- The last conjunct "no column of the assignment sums to zero". -/
theorem colsum_ne_zero (x1 : FVec Ideal S65536x1024 .f32) (hr : S65536x1024.ReducesTo [0] S1024) (hu : 0 < S_.numel)
    (hb : S_.BroadcastsInDim S1024 (![] : Fin 0 → Fin S1024.rank)) (hr' : S1024.ReducesTo [0] S_) (j : S_.Idx)
    (e : Host.reduce IntOp.andi
        (cmpf .une (Host.reduceAdd x1 (constant (F := Ideal) S_ .f32 0x00000000#32) hr hu)
          (broadcastInDim S1024 ![] hb (constant (F := Ideal) S_ .f32 0x00000000#32)))
        (constantI S_ 1 1#1) hr' hu j = 1#1) (n : Fin 1024) : colsum x1 n ≠ 0 := by
  have h := Host.reduce_andi_all _ _ hr' hu j e (ix1 n)
  rw [cmpf_apply, broadcastInDim_scalar_apply, reduce_eq_colsum] at h
  generalize colsum x1 n = c at h
  have hz : (constant (F := Ideal) S_ .f32 0x00000000#32) ix0 = (0 : EReal) := Ideal.ofBits_zero_f32
  rw [hz] at h
  have h' : Ideal.cmp .une c 0 = 1#1 := h
  intro hc
  rw [hc] at h'
  simp [Ideal.cmp] at h'

/-- THE PRECONDITION READ AS FACTS: every entry of the image, of the assignment and of the two dense layers'
    parameters is a real number, and no column of the assignment sums to zero. -/
theorem facts_of_pre (x0 : FVec Ideal S256x256x200 .f32) (x1 : FVec Ideal S65536x1024 .f32) (x2 : FVec Ideal S1024x1024 .f32)
    (x3 x4 : FVec Ideal S200 .f32) (x5 : FVec Ideal S200x128 .f32) (x6 x7 x8 : FVec Ideal S128 .f32)
    (x9 : FVec Ideal S128x128 .f32) (x10 : FVec Ideal S128 .f32) (x11 x12 : FVec Ideal S3x128 .f32)
    (x13 : FVec Ideal S3x128x128 .f32) (x14 : FVec Ideal S3x128 .f32)
    (h : Cert.Pre_finite_inputs.fn (F := Ideal) x0 x1 x2 x3 x4 x5 x6 x7 x8 x9 x10 x11 x12 x13 x14 = fun _ => 1#1) :
    (∀ i, IsReal (x0 i)) ∧ (∀ i, IsReal (x1 i)) ∧ (∀ i, IsReal (x3 i)) ∧ (∀ i, IsReal (x4 i)) ∧ (∀ i, IsReal (x5 i))
      ∧ (∀ i, IsReal (x6 i)) ∧ (∀ i, IsReal (x7 i)) ∧ (∀ i, IsReal (x8 i)) ∧ (∀ i, IsReal (x9 i)) ∧ (∀ i, IsReal (x10 i))
      ∧ (∀ n : Fin 1024, colsum x1 n ≠ 0) := by
  have e := congrFun h ix0
  dsimp only [fn, fn_part1, fn_part2, fn_part3, fn_part4, andi] at e
  simp only [IntOp.andi_eq_one] at e
  obtain ⟨⟨⟨⟨⟨⟨⟨⟨⟨⟨⟨⟨⟨⟨⟨h0, h1⟩, -⟩, h3⟩, h4⟩, h5⟩, h6⟩, h7⟩, h8⟩, h9⟩, h10⟩, -⟩, -⟩, -⟩, -⟩, hQ⟩ := e
  exact ⟨all_isReal x0 _ _ _ _ h0, all_isReal x1 _ _ _ _ h1, all_isReal x3 _ _ _ _ h3, all_isReal x4 _ _ _ _ h4,
    all_isReal x5 _ _ _ _ h5, all_isReal x6 _ _ _ _ h6, all_isReal x7 _ _ _ _ h7, all_isReal x8 _ _ _ _ h8,
    all_isReal x9 _ _ _ _ h9, all_isReal x10 _ _ _ _ h10, colsum_ne_zero x1 _ _ _ _ _ hQ⟩

/-- The remaining conjuncts: every entry of the adjacency and of the three layers' parameters is a real number. -/
theorem facts_of_pre_rest (x0 : FVec Ideal S256x256x200 .f32) (x1 : FVec Ideal S65536x1024 .f32) (x2 : FVec Ideal S1024x1024 .f32)
    (x3 x4 : FVec Ideal S200 .f32) (x5 : FVec Ideal S200x128 .f32) (x6 x7 x8 : FVec Ideal S128 .f32)
    (x9 : FVec Ideal S128x128 .f32) (x10 : FVec Ideal S128 .f32) (x11 x12 : FVec Ideal S3x128 .f32)
    (x13 : FVec Ideal S3x128x128 .f32) (x14 : FVec Ideal S3x128 .f32)
    (h : Cert.Pre_finite_inputs.fn (F := Ideal) x0 x1 x2 x3 x4 x5 x6 x7 x8 x9 x10 x11 x12 x13 x14 = fun _ => 1#1) :
    (∀ i, IsReal (x2 i)) ∧ (∀ i, IsReal (x11 i)) ∧ (∀ i, IsReal (x12 i)) ∧ (∀ i, IsReal (x13 i)) ∧ (∀ i, IsReal (x14 i)) := by
  have e := congrFun h ix0
  dsimp only [fn, fn_part1, fn_part2, fn_part3, fn_part4, andi] at e
  simp only [IntOp.andi_eq_one] at e
  obtain ⟨⟨⟨⟨⟨⟨⟨⟨⟨⟨⟨⟨⟨⟨⟨-, -⟩, h2⟩, -⟩, -⟩, -⟩, -⟩, -⟩, -⟩, -⟩, -⟩, h11⟩, h12⟩, h13⟩, h14⟩, -⟩ := e
  exact ⟨all_isReal x2 _ _ _ _ h2, all_isReal x11 _ _ _ _ h11, all_isReal x12 _ _ _ _ h12, all_isReal x13 _ _ _ _ h13,
    all_isReal x14 _ _ _ _ h14⟩

end Cert.PoolGcn.Pre

end
-- ==== Proof.lean ====
/-
  The proof of `Cert.Claim` for the superpixel graph network: a per-pixel two-layer feature extractor, pooling of
  the pixel features into 1024 superpixels through a soft assignment whose columns are normalised by their sums,
  three graph-convolution layers over a symmetrically normalised adjacency, and the write-back to the pixels.

  The kernel's program computes the pooling as (sum over pixels of assignment x feature) / (column sum), the sums
  accumulated block by block on two cores; the reference divides every assignment entry by its column sum first.
  Over the extended reals the two agree when the inputs are finite and no column sum is zero — the
  precondition — because division by a nonzero real moves out of a finite sum of reals (`pool_eq`).  Everything
  else is the same arithmetic on both sides, read index by index: the three frames are the programs' runs with
  the results dropped, the idealization rewrote nothing, and the two results are one function of the arguments.
-/
import proofs.«116376_j32444182954666_2_alg».proof.Defs
import proofs.«116376_j32444182954666_2_alg».proof.Proof.Gen.Kernel
import proofs.«116376_j32444182954666_2_alg».proof.Proof.Gen.Kernel.Frame
import proofs.«116376_j32444182954666_2_alg».proof.Proof.Gen.KernelIdeal
import proofs.«116376_j32444182954666_2_alg».proof.Proof.Gen.KernelIdeal.Frame
import proofs.«116376_j32444182954666_2_alg».proof.Proof.Gen.ReferenceIdeal
import proofs.«116376_j32444182954666_2_alg».proof.Proof.Gen.ReferenceIdeal.Run
import proofs.«116376_j32444182954666_2_alg».proof.Proof.Gen.ReferenceIdeal.Read
import proofs.«116376_j32444182954666_2_alg».proof.Proof.Gen.Pre_finite_inputs
import proofs.«116376_j32444182954666_2_alg».proof.Proof.KernelRun
import proofs.«116376_j32444182954666_2_alg».proof.Proof.KernelValue
import proofs.«116376_j32444182954666_2_alg».proof.Proof.RefAll
import proofs.«116376_j32444182954666_2_alg».proof.Proof.PreFacts
import proofs.«116376_j32444182954666_2_alg».proof.Proof.PoolAlgebra
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx Cert.PoolGcn

/-- The three frames: each program runs, nothing faults, and its argument arrays end as launched. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The two idealized programs end with equal results: pixel p, feature e of both is the write-back of the three
    graph layers of the pooled features, and the two spellings of the pooling agree under the precondition. -/
theorem algebraic : Cert.algebraic_KernelIdeal_ReferenceIdeal := by
  intro m ρ m' ρ' hpre hagree
  refine ⟨fun c => Cert.KernelIdeal.Gen.W5 m ρ c (Proc.devRef .tc Cert.KernelIdeal.main_v30), Cert.KernelIdeal.RunNamed.run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v125 m' c = Cert.KernelIdeal.Gen.W5 m ρ c (Proc.devRef .tc Cert.KernelIdeal.main_v30)
  obtain ⟨e0, e1, e2, e3, e4, e5, e6, e7, e8, e9, e10, e11, e12, e13, e14⟩ := hagree c
  rw [Cert.ReferenceIdeal.Read.val_main_v125_eq, e0, e1, e2, e3, e4, e5, e6, e7, e8, e9, e10, e11, e12, e13, e14]
  obtain ⟨h0, h1, h3, h4, h5, h6, h7, h8, h9, h10, hcs⟩ := Cert.PoolGcn.Pre.facts_of_pre
    (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (hpre c)
  funext j
  obtain ⟨p, e, rfl⟩ : ∃ (p : Fin 65536) (e : Fin 128), j = ix2 p e := ⟨j 0, j 1, eq_ix2 j⟩
  rw [Cert.PoolGcn.Ref.v125_apply]
  refine Eq.trans ?_ (Cert.PoolGcn.Chain.kernel_value m ρ c p e).symm
  refine congrArg (fun h => writeBack _ (gcn3 _ _ _ _ _ h) p e) (funext fun n => funext fun d => ?_)
  exact (pool_eq _ _ n d (fun q => h1 _) (fun q => xf_real _ _ _ _ _ _ _ _ _ h0 h3 h4 h5 h6 h7 h8 h9 h10 q d) (hcs n)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
